-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x128 : S_.BroadcastsInDim S16x128 (![] : Fin 0 → Fin S16x128.rank)
  reducesTo_S16x128_S_d0_1 : S16x128.ReducesTo [0, 1] S_

variable [Facts]

def fn_part3 {F : FTy → Type} [FloatOps F] (main_arg12 : FVec F S16x128 .f32) (main_arg13 : FVec F S128 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x128 .f32 := Host.absf main_arg12
  let main_cst_20 : FVec F S_ .f32 := constant S_ .f32 0x7F800000#32
  let main_v55 : FVec F S16x128 .f32 := broadcastInDim S16x128 ![] bcast_S_S16x128 main_cst_20
  let main_v56 : IVec S16x128 1 := cmpf .olt main_v54 main_v55
  let main_c_21 : IVec S_ 1 := constantI S_ 1 1#1
  let main_v57 : IVec S_ 1 := (fun x v => Host.reduce IntOp.andi x v reducesTo_S16x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg8 : FVec F S128 .f32) (main_arg9 : FVec F S128 .f32) (main_arg10 : FVec F S128x16 .f32) (main_arg11 : FVec F S16 .f32) (main_arg12 : FVec F S16x128 .f32) (main_arg13 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x16 .f32 := Host.absf main_arg10
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S128 .f32) (main_arg6 : FVec F S128x128 .f32) (main_arg7 : FVec F S128 .f32) (main_arg8 : FVec F S128 .f32) (main_arg9 : FVec F S128 .f32) (main_arg10 : FVec F S128x16 .f32) (main_arg11 : FVec F S16 .f32) (main_arg12 : FVec F S16x128 .f32) (main_arg13 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S50000x128 .f32) (main_arg1 : IVec S2x1600000 32) (main_arg2 : FVec F S128x128 .f32) (main_arg3 : FVec F S128 .f32) (main_arg4 : FVec F S128 .f32) (main_arg5 : FVec F S128 .f32) (main_arg6 : FVec F S128x128 .f32) (main_arg7 : FVec F S128 .f32) (main_arg8 : FVec F S128 .f32) (main_arg9 : FVec F S128 .f32) (main_arg10 : FVec F S128x16 .f32) (main_arg11 : FVec F S16 .f32) (main_arg12 : FVec F S16x128 .f32) (main_arg13 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S2000x128 : Shape := ⟨2, ![2000, 128]⟩
abbrev S2000x1 : Shape := ⟨2, ![2000, 1]⟩
abbrev S1600000x128 : Shape := ⟨2, ![1600000, 128]⟩
abbrev S1x128 : Shape := ⟨2, ![1, 128]⟩
abbrev S2000 : Shape := ⟨1, ![2000]⟩
abbrev S1x16 : Shape := ⟨2, ![1, 16]⟩
abbrev S2000x16 : Shape := ⟨2, ![2000, 16]⟩

abbrev nBuf : Space → Nat
  | .hbm => 81
  | .vmem => 50
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128x16, .f32⟩
  | .hbm, ⟨11, _⟩ => ⟨S16, .f32⟩
  | .hbm, ⟨12, _⟩ => ⟨S16x128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S50000, .f32⟩
  | .hbm, ⟨22, _⟩ => ⟨S1600000x1, .i32⟩
  | .hbm, ⟨23, _⟩ => ⟨S50000, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .i1⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S50000x128, .f32⟩
  | .hbm, ⟨54, _⟩ => ⟨S1600000x1, .i32⟩
  | .hbm, ⟨55, _⟩ => ⟨S50000x128, .f32⟩
  | .hbm, ⟨56, _⟩ => ⟨S1x128, .f32⟩
  | .hbm, ⟨57, _⟩ => ⟨S1x128, .f32⟩
  | .hbm, ⟨58, _⟩ => ⟨S1x128, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S50000x128, .f32⟩
  | .hbm, ⟨73, _⟩ => ⟨S1600000x1, .i32⟩
  | .hbm, ⟨74, _⟩ => ⟨S50000x128, .f32⟩
  | .hbm, ⟨75, _⟩ => ⟨S1x128, .f32⟩
  | .hbm, ⟨76, _⟩ => ⟨S1x128, .f32⟩
  | .hbm, ⟨77, _⟩ => ⟨S1x128, .f32⟩
  | .hbm, ⟨78, _⟩ => ⟨S1x16, .f32⟩
  | .hbm, ⟨79, _⟩ => ⟨S1x128, .f32⟩
  | .hbm, ⟨80, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x1, .f32⟩
  | .local _ .vmem, ⟨16, _⟩ => ⟨S2000x1, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S2000x1, .f32⟩
  | .local _ .vmem, ⟨26, _⟩ => ⟨S2000x1, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S2000x1, .f32⟩
  | .local _ .vmem, ⟨36, _⟩ => ⟨S2000x1, .f32⟩
  | .local _ .vmem, ⟨37, _⟩ => ⟨S2000x1, .f32⟩
  | .local _ .vmem, ⟨38, _⟩ => ⟨S2000x1, .f32⟩
  | .local _ .vmem, ⟨39, _⟩ => ⟨S1x128, .f32⟩
  | .local _ .vmem, ⟨40, _⟩ => ⟨S1x128, .f32⟩
  | .local _ .vmem, ⟨41, _⟩ => ⟨S1x128, .f32⟩
  | .local _ .vmem, ⟨42, _⟩ => ⟨S2000x128, .f32⟩
  | .local _ .vmem, ⟨43, _⟩ => ⟨S2000x128, .f32⟩
  | .local _ .vmem, ⟨44, _⟩ => ⟨S128x16, .f32⟩
  | .local _ .vmem, ⟨45, _⟩ => ⟨S1x16, .f32⟩
  | .local _ .vmem, ⟨46, _⟩ => ⟨S16x128, .f32⟩
  | .local _ .vmem, ⟨47, _⟩ => ⟨S1x128, .f32⟩
  | .local _ .vmem, ⟨48, _⟩ => ⟨S2000x128, .f32⟩
  | .local _ .vmem, ⟨49, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v13 : Ref sig .tc := ⟨.hbm, 34, rfl⟩
abbrev main_v14 : Ref sig .tc := ⟨.hbm, 35, rfl⟩
abbrev main_cst_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19_0 : Ref sig .tc := ⟨.hbm, 41, rfl⟩
abbrev main_v19_1 : Ref sig .tc := ⟨.hbm, 42, rfl⟩
abbrev main_c : Ref sig .tc := ⟨.hbm, 43, rfl⟩
abbrev main_v20 : Ref sig .tc := ⟨.hbm, 44, rfl⟩
abbrev main_v21 : Ref sig .tc := ⟨.hbm, 45, rfl⟩
abbrev main_c_5 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_6 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_c_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg2_1 : Ref sig .tc := ⟨.vmem, 36, rfl⟩
abbrev cc3_stg3_0 : Ref sig .tc := ⟨.vmem, 37, rfl⟩
abbrev cc3_stg3_1 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg7_0 : Ref sig .tc := ⟨.vmem, 42, rfl⟩
abbrev cc3_stg7_1 : Ref sig .tc := ⟨.vmem, 43, rfl⟩
abbrev cc3_stg8_0 : Ref sig .tc := ⟨.vmem, 44, rfl⟩
abbrev cc3_stg9_0 : Ref sig .tc := ⟨.vmem, 45, rfl⟩
abbrev cc3_stg10_0 : Ref sig .tc := ⟨.vmem, 46, rfl⟩
abbrev cc3_stg11_0 : Ref sig .tc := ⟨.vmem, 47, rfl⟩
abbrev cc3_stg12_0 : Ref sig .tc := ⟨.vmem, 48, rfl⟩
abbrev cc3_stg12_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem2_1 : DmaSem sig := 36
abbrev cc3_sem3_0 : DmaSem sig := 37
abbrev cc3_sem3_1 : DmaSem sig := 38
abbrev cc3_sem4_0 : DmaSem sig := 39
abbrev cc3_sem5_0 : DmaSem sig := 40
abbrev cc3_sem6_0 : DmaSem sig := 41
abbrev cc3_sem7_0 : DmaSem sig := 42
abbrev cc3_sem7_1 : DmaSem sig := 43
abbrev cc3_sem8_0 : DmaSem sig := 44
abbrev cc3_sem9_0 : DmaSem sig := 45
abbrev cc3_sem10_0 : DmaSem sig := 46
abbrev cc3_sem11_0 : DmaSem sig := 47
abbrev cc3_sem12_0 : DmaSem sig := 48
abbrev cc3_sem12_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S2000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 1 → Memref sig .tc .vmem S128x16 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x16 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S16x128 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S1x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S2000x128 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  inb_S16x128_S16x128_0_0 : ∀ a, (![0, 0] : Fin 2 → Nat) a + S16x128.size a ≤ S16x128.size a
  h_S16x128 : 0 < S16x128.numel
  scatter_S50000_S1600000x1_S1600000_n_0_0_1_wf : ScatterDims.WF S50000 S1600000x1 S1600000 [] [0] [0] 1
  dot_S2000x128_S128x128_S2000x128_1_0_0_1_n_n_wf : DotDims.WF S2000x128 S128x128 S2000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S2000x128_S128x16_S2000x16_1_0_0_1_n_n_wf : DotDims.WF S2000x128 S128x16 S2000x16 [1] [0] [0] [1] [] []
  dot_S2000x16_S16x128_S2000x128_1_0_0_1_n_n_wf : DotDims.WF S2000x16 S16x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S50000x128.size a
  hwx0_4 : ∀ i : grid0.Coords, EltTy.bits .f32 = 32 ∨ (Rect.block (s := S50000x128) S2000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S50000x128.size a
  hwx2_4 : ∀ i : grid2.Coords, EltTy.bits .f32 = 32 ∨ (Rect.block (s := S50000x128) S2000x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S2000x128.size a ≤ S50000x128.size a
  hwx3_7 : ∀ i : grid3.Coords, EltTy.bits .f32 = 32 ∨ (Rect.block (s := S50000x128) S2000x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x16.size a ≤ S128x16.size a
  hwx3_8 : ∀ i : grid3.Coords, EltTy.bits .f32 = 32 ∨ (Rect.block (s := S128x16) S128x16.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x16.size a ≤ S1x16.size a
  hwx3_9 : ∀ i : grid3.Coords, EltTy.bits .f32 = 32 ∨ (Rect.block (s := S1x16) S1x16.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S16x128.size a ≤ S16x128.size a
  hwx3_10 : ∀ i : grid3.Coords, EltTy.bits .f32 = 32 ∨ (Rect.block (s := S16x128) S16x128.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S1x128.size a ≤ S1x128.size a
  hwx3_11 : ∀ i : grid3.Coords, EltTy.bits .f32 = 32 ∨ (Rect.block (s := S1x128) S1x128.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S2000x128.size a ≤ S50000x128.size a
  hwx3_12 : ∀ i : grid3.Coords, EltTy.bits .f32 = 32 ∨ (Rect.block (s := S50000x128) S2000x128.size (cc3_transform_12 i) (hinb3_12 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S2000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S2000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v30) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34_0) S2000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v34_1) S2000x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v44) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v14) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v18) S2000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v46) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v47) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg0) S2000x128.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_arg10) S128x16.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v48) S1x16.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_arg12) S16x128.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v49) S1x128.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v50) S2000x128.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S16x128 : Shape := ⟨2, ![16, 128]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S1600000x128 : Shape := ⟨2, ![1600000, 128]⟩
abbrev S50000x1 : Shape := ⟨2, ![50000, 1]⟩
abbrev S1x128 : Shape := ⟨2, ![1, 128]⟩
abbrev S50000x16 : Shape := ⟨2, ![50000, 16]⟩
abbrev S1x16 : Shape := ⟨2, ![1, 16]⟩

abbrev nBuf : Space → Nat
  | .hbm => 231
  | .vmem => 0
  | .smem => 0
  | _ => 0

abbrev hbmTy0_0 (i : Nat) : BufTy := match i % 128 with
  | 0 => ⟨S50000x128, .f32⟩
  | 1 => ⟨S2x1600000, .i32⟩
  | 2 => ⟨S128x128, .f32⟩
  | 3 => ⟨S128, .f32⟩
  | 4 => ⟨S128, .f32⟩
  | 5 => ⟨S128, .f32⟩
  | 6 => ⟨S128x128, .f32⟩
  | 7 => ⟨S128, .f32⟩
  | 8 => ⟨S128, .f32⟩
  | 9 => ⟨S128, .f32⟩
  | 10 => ⟨S128x16, .f32⟩
  | 11 => ⟨S16, .f32⟩
  | 12 => ⟨S16x128, .f32⟩
  | 13 => ⟨S128, .f32⟩
  | 14 => ⟨S1x1600000, .i32⟩
  | 15 => ⟨S1600000, .i32⟩
  | 16 => ⟨S1x1600000, .i32⟩
  | 17 => ⟨S1600000, .i32⟩
  | 18 => ⟨S50000x128, .f32⟩
  | 19 => ⟨S_, .f32⟩
  | 20 => ⟨S1600000, .f32⟩
  | 21 => ⟨S_, .f32⟩
  | 22 => ⟨S50000, .f32⟩
  | 23 => ⟨S1600000x1, .i32⟩
  | 24 => ⟨S50000, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000, .f32⟩
  | 45 => ⟨S_, .i32⟩
  | 46 => ⟨S1600000, .i32⟩
  | 47 => ⟨S1600000, .i1⟩
  | 48 => ⟨S_, .i32⟩
  | 49 => ⟨S1600000, .i32⟩
  | 50 => ⟨S1600000, .i32⟩
  | 51 => ⟨S1600000, .i32⟩
  | 52 => ⟨S1600000x1, .i32⟩
  | 53 => ⟨S1600000, .f32⟩
  | 54 => ⟨S1600000, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .f32⟩
  | 68 => ⟨S50000x128, .f32⟩
  | 69 => ⟨S1600000x1, .i32⟩
  | 70 => ⟨S50000x128, .f32⟩
  | 71 => ⟨S_, .f32⟩
  | 72 => ⟨S50000, .f32⟩
  | 73 => ⟨S50000, .f32⟩
  | 74 => ⟨S50000, .f32⟩
  | 75 => ⟨S50000x1, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000, .f32⟩
  | 84 => ⟨S50000x1, .f32⟩
  | 85 => ⟨S_, .f32⟩
  | 86 => ⟨S50000x1, .f32⟩
  | 87 => ⟨S50000x1, .f32⟩
  | 88 => ⟨S50000x128, .f32⟩
  | 89 => ⟨S50000x128, .f32⟩
  | 90 => ⟨S50000x128, .f32⟩
  | 91 => ⟨S_, .f32⟩
  | 92 => ⟨S50000, .f32⟩
  | 93 => ⟨S50000x1, .f32⟩
  | 94 => ⟨S_, .f32⟩
  | 95 => ⟨S50000x1, .f32⟩
  | 96 => ⟨S50000x1, .f32⟩
  | 97 => ⟨S50000x128, .f32⟩
  | 98 => ⟨S50000x128, .f32⟩
  | 99 => ⟨S_, .f32⟩
  | 100 => ⟨S50000x1, .f32⟩
  | 101 => ⟨S50000x1, .f32⟩
  | 102 => ⟨S50000x1, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S_, .f32⟩
  | 112 => ⟨S50000x128, .f32⟩
  | 113 => ⟨S50000x128, .f32⟩
  | 114 => ⟨S50000x128, .f32⟩
  | 115 => ⟨S_, .f32⟩
  | 116 => ⟨S1600000, .f32⟩
  | 117 => ⟨S_, .f32⟩
  | 118 => ⟨S50000, .f32⟩
  | 119 => ⟨S1600000x1, .i32⟩
  | 120 => ⟨S50000, .f32⟩
  | 121 => ⟨S_, .f32⟩
  | 122 => ⟨S50000, .f32⟩
  | 123 => ⟨S50000, .f32⟩
  | 124 => ⟨S_, .f32⟩
  | 125 => ⟨S50000, .f32⟩
  | 126 => ⟨S50000, .i1⟩
  | 127 => ⟨S50000, .f32⟩
  | _ => ⟨S50000x128, .f32⟩

abbrev hbmTy0_1 (i : Nat) : BufTy := match i % 128 with
  | 0 => ⟨S_, .f32⟩
  | 1 => ⟨S_, .f32⟩
  | 2 => ⟨S50000, .f32⟩
  | 3 => ⟨S50000, .f32⟩
  | 4 => ⟨S_, .i32⟩
  | 5 => ⟨S1600000, .i32⟩
  | 6 => ⟨S1600000, .i1⟩
  | 7 => ⟨S_, .i32⟩
  | 8 => ⟨S1600000, .i32⟩
  | 9 => ⟨S1600000, .i32⟩
  | 10 => ⟨S1600000, .i32⟩
  | 11 => ⟨S1600000x1, .i32⟩
  | 12 => ⟨S1600000, .f32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000, .f32⟩
  | 22 => ⟨S1600000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S1600000x1, .f32⟩
  | 33 => ⟨S1600000x128, .f32⟩
  | 34 => ⟨S1600000x128, .f32⟩
  | 35 => ⟨S_, .f32⟩
  | 36 => ⟨S50000x128, .f32⟩
  | 37 => ⟨S1600000x1, .i32⟩
  | 38 => ⟨S50000x128, .f32⟩
  | 39 => ⟨S_, .f32⟩
  | 40 => ⟨S50000, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000, .f32⟩
  | 52 => ⟨S50000x1, .f32⟩
  | 53 => ⟨S_, .f32⟩
  | 54 => ⟨S50000x1, .f32⟩
  | 55 => ⟨S50000x1, .f32⟩
  | 56 => ⟨S50000x128, .f32⟩
  | 57 => ⟨S50000x128, .f32⟩
  | 58 => ⟨S50000x128, .f32⟩
  | 59 => ⟨S_, .f32⟩
  | 60 => ⟨S50000, .f32⟩
  | 61 => ⟨S50000x1, .f32⟩
  | 62 => ⟨S_, .f32⟩
  | 63 => ⟨S50000x1, .f32⟩
  | 64 => ⟨S50000x1, .f32⟩
  | 65 => ⟨S50000x128, .f32⟩
  | 66 => ⟨S50000x128, .f32⟩
  | 67 => ⟨S_, .f32⟩
  | 68 => ⟨S50000x1, .f32⟩
  | 69 => ⟨S50000x1, .f32⟩
  | 70 => ⟨S50000x1, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S50000x16, .f32⟩
  | 80 => ⟨S1x16, .f32⟩
  | 81 => ⟨S50000x16, .f32⟩
  | 82 => ⟨S50000x16, .f32⟩
  | 83 => ⟨S_, .f32⟩
  | 84 => ⟨S50000x16, .f32⟩
  | 85 => ⟨S50000x16, .f32⟩
  | 86 => ⟨S50000x128, .f32⟩
  | 87 => ⟨S1x128, .f32⟩
  | 88 => ⟨S50000x128, .f32⟩
  | 89 => ⟨S50000x128, .f32⟩
  | 90 => ⟨S50000x128, .f32⟩
  | 91 => ⟨S50000x128, .f32⟩
  | 92 => ⟨S_, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x128, .f32⟩
  | 99 => ⟨S50000x128, .f32⟩
  | 100 => ⟨S_, .f32⟩
  | 101 => ⟨S50000x128, .f32⟩
  | 102 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_cst_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_7 : Ref sig .tc := ⟨.hbm, 55, rfl⟩
abbrev main_v30 : Ref sig .tc := ⟨.hbm, 56, rfl⟩
abbrev main_v31 : Ref sig .tc := ⟨.hbm, 57, rfl⟩
abbrev main_c_8 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_9 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_10 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_cst_14 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_call1_cst : Ref sig .tc := ⟨.hbm, 111, rfl⟩
abbrev main_call1_v0 : Ref sig .tc := ⟨.hbm, 112, rfl⟩
abbrev main_v77 : Ref sig .tc := ⟨.hbm, 113, rfl⟩
abbrev main_v78 : Ref sig .tc := ⟨.hbm, 114, rfl⟩
abbrev main_cst_16 : Ref sig .tc := ⟨.hbm, 115, rfl⟩
abbrev main_v79 : Ref sig .tc := ⟨.hbm, 116, rfl⟩
abbrev main_cst_17 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_18 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_20 : Ref sig .tc := ⟨.hbm, 128, rfl⟩
abbrev main_call2_v0 : Ref sig .tc := ⟨.hbm, 129, rfl⟩
abbrev main_call2_v1 : Ref sig .tc := ⟨.hbm, 130, rfl⟩
abbrev main_v88 : Ref sig .tc := ⟨.hbm, 131, rfl⟩
abbrev main_c_21 : Ref sig .tc := ⟨.hbm, 132, rfl⟩
abbrev main_v89 : Ref sig .tc := ⟨.hbm, 133, rfl⟩
abbrev main_v90 : Ref sig .tc := ⟨.hbm, 134, rfl⟩
abbrev main_c_22 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c_23 : Ref sig .tc := ⟨.hbm, 141, rfl⟩
abbrev main_v96 : Ref sig .tc := ⟨.hbm, 142, rfl⟩
abbrev main_v97 : Ref sig .tc := ⟨.hbm, 143, rfl⟩
abbrev main_c_24 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_c_25 : Ref sig .tc := ⟨.hbm, 151, rfl⟩
abbrev main_v104 : Ref sig .tc := ⟨.hbm, 152, rfl⟩
abbrev main_v105 : Ref sig .tc := ⟨.hbm, 153, rfl⟩
abbrev main_c_26 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_cst_27 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_cst_28 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_cst_29 : Ref sig .tc := ⟨.hbm, 178, rfl⟩
abbrev main_v127 : Ref sig .tc := ⟨.hbm, 179, rfl⟩
abbrev main_v128 : Ref sig .tc := ⟨.hbm, 180, rfl⟩
abbrev main_cst_30 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_cst_31 : Ref sig .tc := ⟨.hbm, 187, rfl⟩
abbrev main_v134 : Ref sig .tc := ⟨.hbm, 188, rfl⟩
abbrev main_v135 : Ref sig .tc := ⟨.hbm, 189, rfl⟩
abbrev main_cst_32 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_cst_33 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_call3_cst : Ref sig .tc := ⟨.hbm, 211, rfl⟩
abbrev main_call3_v0 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_34 : Ref sig .tc := ⟨.hbm, 220, rfl⟩
abbrev main_v162 : Ref sig .tc := ⟨.hbm, 221, rfl⟩
abbrev main_v163 : Ref sig .tc := ⟨.hbm, 222, rfl⟩
abbrev main_cst_35 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_call4_cst : Ref sig .tc := ⟨.hbm, 228, rfl⟩
abbrev main_call4_v0 : Ref sig .tc := ⟨.hbm, 229, rfl⟩
abbrev main_v168 : Ref sig .tc := ⟨.hbm, 230, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  bcast_S_S50000x16 : S_.BroadcastsInDim S50000x16 (![] : Fin 0 → Fin S50000x16.rank)
  dot_S50000x128_S128x128_S50000x128_1_0_0_1_n_n_wf : DotDims.WF S50000x128 S128x128 S50000x128 [1] [0] [0] [1] [] []
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x16_S50000x16_1_0_0_1_n_n_wf : DotDims.WF S50000x128 S128x16 S50000x16 [1] [0] [0] [1] [] []
  dot_S50000x16_S16x128_S50000x128_1_0_0_1_n_n_wf : DotDims.WF S50000x16 S16x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf
def dot_S50000x16_S16x128_S50000x128_1_0_0_1_n_n : DotDims S50000x16 S16x128 S50000x128 where
  lhsContracting := [1]
  rhsContracting := [0]
  lhsNonContracting := [0]
  rhsNonContracting := [1]
  lhsBatch := []
  rhsBatch := []
  wf := dot_S50000x16_S16x128_S50000x128_1_0_0_1_n_n_wf

class Facts : Prop extends Facts₀ where

variable [Facts]
-- ==== Proof.KernelRun.lean ====
/-
  The idealized kernel's run with its result named.

  The program is four pipelined regions among stretches of host operations. Its run is read as a fold of the
  TensorCore's buffer contents through the segments: after the last region every unscoped buffer holds what the fold
  `W9` says. Here that fact is kept for the result buffer as well as for the argument arrays, so that the value of the
  result can be read off the fold.
-/
import proofs.«136372_j15109694947953_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the fold's
    contents and the argument arrays end as launched. -/
theorem run_result : θ_run defs (onTc (τ := τ) (main (F := F))) ⟨m, fun _ => 0, ρ⟩ (fun r => ∀ c : Dev nD,
      r.2.mem ((c.tc : Thread nD τ).loc main_v50) = W9 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v50 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c),
       (h c _ (mem_uc main_arg13 (by decide))).trans (W9_main_arg13 m ρ c)⟩)

end Cert.Gcn.KRun

end
-- ==== Proof.KernelFold.lean ====
/-
  The idealized kernel's buffers between its segments.

  The run is a fold of the TensorCore's buffer contents through nine segments: three stretches of host operations,
  the first region, a stretch, the second and third regions, a stretch, the fourth region. A buffer that a stretch does
  not write, that a region does not own, or that a region only reads through an input window, holds after the
  segment what it held before it. The lemmas below walk each buffer a later segment reads back to the segment that
  produced it (or to the launch memory, for an argument).
-/
import proofs.«136372_j15109694947953_2_alg».proof.Proof.Gen.KernelIdeal.Frame

set_option maxRecDepth 16384

noncomputable section

namespace Cert.Gcn.Fold

open Cert.KernelIdeal Cert.KernelIdeal.Gen
open Idealize.ShloMosaic Idealize.ShloMosaic.TcCoe Idealize.SL.Sem
open Idealize.ShloMosaic.Pipeline (Dat)

/-- A stretch of host operations leaves a buffer none of them writes as it was. -/
macro "untouched" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem keep_arg0_3_0 (c : Dev nD) : W3 m ρ c (Proc.devRef .tc main_arg0) = W0 m ρ c (Proc.devRef .tc main_arg0) :=
  calc W3 m ρ c (Proc.devRef .tc main_arg0)
    _ = W2 m ρ c (Proc.devRef .tc main_arg0) := by untouched hostOps0_2
    _ = W1 m ρ c (Proc.devRef .tc main_arg0) := by untouched hostOps0_1
    _ = W0 m ρ c (Proc.devRef .tc main_arg0) := by untouched hostOps0

theorem keep_arg2_3_0 (c : Dev nD) : W3 m ρ c (Proc.devRef .tc main_arg2) = W0 m ρ c (Proc.devRef .tc main_arg2) :=
  calc W3 m ρ c (Proc.devRef .tc main_arg2)
    _ = W2 m ρ c (Proc.devRef .tc main_arg2) := by untouched hostOps0_2
    _ = W1 m ρ c (Proc.devRef .tc main_arg2) := by untouched hostOps0_1
    _ = W0 m ρ c (Proc.devRef .tc main_arg2) := by untouched hostOps0

theorem keep_v1_4_1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by untouched hostOps0_2
    _ = W1 m ρ c (Proc.devRef .tc main_v1) := by untouched hostOps0_1

theorem keep_v3_4_1 (c : Dev nD) : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by untouched hostOps0_2
    _ = W1 m ρ c (Proc.devRef .tc main_v3) := by untouched hostOps0_1

theorem keep_arg3_4_0 (c : Dev nD) : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by untouched hostOps0_2
    _ = W1 m ρ c (Proc.devRef .tc main_arg3) := by untouched hostOps0_1
    _ = W0 m ρ c (Proc.devRef .tc main_arg3) := by untouched hostOps0

theorem keep_arg4_4_0 (c : Dev nD) : W4 m ρ c (Proc.devRef .tc main_arg4) = W0 m ρ c (Proc.devRef .tc main_arg4) :=
  calc W4 m ρ c (Proc.devRef .tc main_arg4)
    _ = W3 m ρ c (Proc.devRef .tc main_arg4) := W4_of_ne m ρ c main_arg4 (by decide)
    _ = W2 m ρ c (Proc.devRef .tc main_arg4) := by untouched hostOps0_2
    _ = W1 m ρ c (Proc.devRef .tc main_arg4) := by untouched hostOps0_1
    _ = W0 m ρ c (Proc.devRef .tc main_arg4) := by untouched hostOps0

theorem keep_arg5_4_0 (c : Dev nD) : W4 m ρ c (Proc.devRef .tc main_arg5) = W0 m ρ c (Proc.devRef .tc main_arg5) :=
  calc W4 m ρ c (Proc.devRef .tc main_arg5)
    _ = W3 m ρ c (Proc.devRef .tc main_arg5) := W4_of_ne m ρ c main_arg5 (by decide)
    _ = W2 m ρ c (Proc.devRef .tc main_arg5) := by untouched hostOps0_2
    _ = W1 m ρ c (Proc.devRef .tc main_arg5) := by untouched hostOps0_1
    _ = W0 m ρ c (Proc.devRef .tc main_arg5) := by untouched hostOps0

theorem keep_v19_0_5_4 (c : Dev nD) : W5 m ρ c (Proc.devRef .tc main_v19_0) = W4 m ρ c (Proc.devRef .tc main_v19_0) :=
  calc W5 m ρ c (Proc.devRef .tc main_v19_0)
    _ = W4 m ρ c (Proc.devRef .tc main_v19_0) := by untouched hostOps1

theorem keep_v14_5_3 (c : Dev nD) : W5 m ρ c (Proc.devRef .tc main_v14) = W3 m ρ c (Proc.devRef .tc main_v14) :=
  calc W5 m ρ c (Proc.devRef .tc main_v14)
    _ = W4 m ρ c (Proc.devRef .tc main_v14) := by untouched hostOps1
    _ = W3 m ρ c (Proc.devRef .tc main_v14) := (W4_arr m ρ c 2).trans (((dat0 (V3 m ρ) c).arrAt_in 2 rfl _).trans (A_eq0 (V3 m ρ) c 2))

theorem keep_v18_5_3 (c : Dev nD) : W5 m ρ c (Proc.devRef .tc main_v18) = W3 m ρ c (Proc.devRef .tc main_v18) :=
  calc W5 m ρ c (Proc.devRef .tc main_v18)
    _ = W4 m ρ c (Proc.devRef .tc main_v18) := by untouched hostOps1
    _ = W3 m ρ c (Proc.devRef .tc main_v18) := W4_of_ne m ρ c main_v18 (by decide)

theorem keep_arg6_6_0 (c : Dev nD) : W6 m ρ c (Proc.devRef .tc main_arg6) = W0 m ρ c (Proc.devRef .tc main_arg6) :=
  calc W6 m ρ c (Proc.devRef .tc main_arg6)
    _ = W5 m ρ c (Proc.devRef .tc main_arg6) := W6_of_ne m ρ c main_arg6 (by decide)
    _ = W4 m ρ c (Proc.devRef .tc main_arg6) := by untouched hostOps1
    _ = W3 m ρ c (Proc.devRef .tc main_arg6) := W4_of_ne m ρ c main_arg6 (by decide)
    _ = W2 m ρ c (Proc.devRef .tc main_arg6) := by untouched hostOps0_2
    _ = W1 m ρ c (Proc.devRef .tc main_arg6) := by untouched hostOps0_1
    _ = W0 m ρ c (Proc.devRef .tc main_arg6) := by untouched hostOps0

theorem keep_v14_6_3 (c : Dev nD) : W6 m ρ c (Proc.devRef .tc main_v14) = W3 m ρ c (Proc.devRef .tc main_v14) :=
  calc W6 m ρ c (Proc.devRef .tc main_v14)
    _ = W5 m ρ c (Proc.devRef .tc main_v14) := (W6_arr m ρ c 2).trans (((dat1 (V5 m ρ) c).arrAt_in 2 rfl _).trans (A_eq1 (V5 m ρ) c 2))
    _ = W4 m ρ c (Proc.devRef .tc main_v14) := by untouched hostOps1
    _ = W3 m ρ c (Proc.devRef .tc main_v14) := (W4_arr m ρ c 2).trans (((dat0 (V3 m ρ) c).arrAt_in 2 rfl _).trans (A_eq0 (V3 m ρ) c 2))

theorem keep_v1_7_1 (c : Dev nD) : W7 m ρ c (Proc.devRef .tc main_v1) = W1 m ρ c (Proc.devRef .tc main_v1) :=
  calc W7 m ρ c (Proc.devRef .tc main_v1)
    _ = W6 m ρ c (Proc.devRef .tc main_v1) := W7_of_ne m ρ c main_v1 (by decide)
    _ = W5 m ρ c (Proc.devRef .tc main_v1) := W6_of_ne m ρ c main_v1 (by decide)
    _ = W4 m ρ c (Proc.devRef .tc main_v1) := by untouched hostOps1
    _ = W3 m ρ c (Proc.devRef .tc main_v1) := W4_of_ne m ρ c main_v1 (by decide)
    _ = W2 m ρ c (Proc.devRef .tc main_v1) := by untouched hostOps0_2
    _ = W1 m ρ c (Proc.devRef .tc main_v1) := by untouched hostOps0_1

theorem keep_v3_7_1 (c : Dev nD) : W7 m ρ c (Proc.devRef .tc main_v3) = W1 m ρ c (Proc.devRef .tc main_v3) :=
  calc W7 m ρ c (Proc.devRef .tc main_v3)
    _ = W6 m ρ c (Proc.devRef .tc main_v3) := W7_of_ne m ρ c main_v3 (by decide)
    _ = W5 m ρ c (Proc.devRef .tc main_v3) := W6_of_ne m ρ c main_v3 (by decide)
    _ = W4 m ρ c (Proc.devRef .tc main_v3) := by untouched hostOps1
    _ = W3 m ρ c (Proc.devRef .tc main_v3) := W4_of_ne m ρ c main_v3 (by decide)
    _ = W2 m ρ c (Proc.devRef .tc main_v3) := by untouched hostOps0_2
    _ = W1 m ρ c (Proc.devRef .tc main_v3) := by untouched hostOps0_1

theorem keep_arg7_7_0 (c : Dev nD) : W7 m ρ c (Proc.devRef .tc main_arg7) = W0 m ρ c (Proc.devRef .tc main_arg7) :=
  calc W7 m ρ c (Proc.devRef .tc main_arg7)
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := by untouched hostOps1
    _ = W3 m ρ c (Proc.devRef .tc main_arg7) := W4_of_ne m ρ c main_arg7 (by decide)
    _ = W2 m ρ c (Proc.devRef .tc main_arg7) := by untouched hostOps0_2
    _ = W1 m ρ c (Proc.devRef .tc main_arg7) := by untouched hostOps0_1
    _ = W0 m ρ c (Proc.devRef .tc main_arg7) := by untouched hostOps0

theorem keep_arg8_7_0 (c : Dev nD) : W7 m ρ c (Proc.devRef .tc main_arg8) = W0 m ρ c (Proc.devRef .tc main_arg8) :=
  calc W7 m ρ c (Proc.devRef .tc main_arg8)
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := by untouched hostOps1
    _ = W3 m ρ c (Proc.devRef .tc main_arg8) := W4_of_ne m ρ c main_arg8 (by decide)
    _ = W2 m ρ c (Proc.devRef .tc main_arg8) := by untouched hostOps0_2
    _ = W1 m ρ c (Proc.devRef .tc main_arg8) := by untouched hostOps0_1
    _ = W0 m ρ c (Proc.devRef .tc main_arg8) := by untouched hostOps0

theorem keep_arg9_7_0 (c : Dev nD) : W7 m ρ c (Proc.devRef .tc main_arg9) = W0 m ρ c (Proc.devRef .tc main_arg9) :=
  calc W7 m ρ c (Proc.devRef .tc main_arg9)
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := by untouched hostOps1
    _ = W3 m ρ c (Proc.devRef .tc main_arg9) := W4_of_ne m ρ c main_arg9 (by decide)
    _ = W2 m ρ c (Proc.devRef .tc main_arg9) := by untouched hostOps0_2
    _ = W1 m ρ c (Proc.devRef .tc main_arg9) := by untouched hostOps0_1
    _ = W0 m ρ c (Proc.devRef .tc main_arg9) := by untouched hostOps0

theorem keep_arg11_7_0 (c : Dev nD) : W7 m ρ c (Proc.devRef .tc main_arg11) = W0 m ρ c (Proc.devRef .tc main_arg11) :=
  calc W7 m ρ c (Proc.devRef .tc main_arg11)
    _ = W6 m ρ c (Proc.devRef .tc main_arg11) := W7_of_ne m ρ c main_arg11 (by decide)
    _ = W5 m ρ c (Proc.devRef .tc main_arg11) := W6_of_ne m ρ c main_arg11 (by decide)
    _ = W4 m ρ c (Proc.devRef .tc main_arg11) := by untouched hostOps1
    _ = W3 m ρ c (Proc.devRef .tc main_arg11) := W4_of_ne m ρ c main_arg11 (by decide)
    _ = W2 m ρ c (Proc.devRef .tc main_arg11) := by untouched hostOps0_2
    _ = W1 m ρ c (Proc.devRef .tc main_arg11) := by untouched hostOps0_1
    _ = W0 m ρ c (Proc.devRef .tc main_arg11) := by untouched hostOps0

theorem keep_arg13_7_0 (c : Dev nD) : W7 m ρ c (Proc.devRef .tc main_arg13) = W0 m ρ c (Proc.devRef .tc main_arg13) :=
  calc W7 m ρ c (Proc.devRef .tc main_arg13)
    _ = W6 m ρ c (Proc.devRef .tc main_arg13) := W7_of_ne m ρ c main_arg13 (by decide)
    _ = W5 m ρ c (Proc.devRef .tc main_arg13) := W6_of_ne m ρ c main_arg13 (by decide)
    _ = W4 m ρ c (Proc.devRef .tc main_arg13) := by untouched hostOps1
    _ = W3 m ρ c (Proc.devRef .tc main_arg13) := W4_of_ne m ρ c main_arg13 (by decide)
    _ = W2 m ρ c (Proc.devRef .tc main_arg13) := by untouched hostOps0_2
    _ = W1 m ρ c (Proc.devRef .tc main_arg13) := by untouched hostOps0_1
    _ = W0 m ρ c (Proc.devRef .tc main_arg13) := by untouched hostOps0

theorem keep_v34_0_8_7 (c : Dev nD) : W8 m ρ c (Proc.devRef .tc main_v34_0) = W7 m ρ c (Proc.devRef .tc main_v34_0) :=
  calc W8 m ρ c (Proc.devRef .tc main_v34_0)
    _ = W7 m ρ c (Proc.devRef .tc main_v34_0) := by untouched hostOps3

theorem keep_v14_8_3 (c : Dev nD) : W8 m ρ c (Proc.devRef .tc main_v14) = W3 m ρ c (Proc.devRef .tc main_v14) :=
  calc W8 m ρ c (Proc.devRef .tc main_v14)
    _ = W7 m ρ c (Proc.devRef .tc main_v14) := by untouched hostOps3
    _ = W6 m ρ c (Proc.devRef .tc main_v14) := (W7_arr m ρ c 2).trans (((dat2 (V6 m ρ) c).arrAt_in 2 rfl _).trans (A_eq2 (V6 m ρ) c 2))
    _ = W5 m ρ c (Proc.devRef .tc main_v14) := (W6_arr m ρ c 2).trans (((dat1 (V5 m ρ) c).arrAt_in 2 rfl _).trans (A_eq1 (V5 m ρ) c 2))
    _ = W4 m ρ c (Proc.devRef .tc main_v14) := by untouched hostOps1
    _ = W3 m ρ c (Proc.devRef .tc main_v14) := (W4_arr m ρ c 2).trans (((dat0 (V3 m ρ) c).arrAt_in 2 rfl _).trans (A_eq0 (V3 m ρ) c 2))

theorem keep_v18_8_3 (c : Dev nD) : W8 m ρ c (Proc.devRef .tc main_v18) = W3 m ρ c (Proc.devRef .tc main_v18) :=
  calc W8 m ρ c (Proc.devRef .tc main_v18)
    _ = W7 m ρ c (Proc.devRef .tc main_v18) := by untouched hostOps3
    _ = W6 m ρ c (Proc.devRef .tc main_v18) := W7_of_ne m ρ c main_v18 (by decide)
    _ = W5 m ρ c (Proc.devRef .tc main_v18) := (W6_arr m ρ c 3).trans (((dat1 (V5 m ρ) c).arrAt_in 3 rfl _).trans (A_eq1 (V5 m ρ) c 3))
    _ = W4 m ρ c (Proc.devRef .tc main_v18) := by untouched hostOps1
    _ = W3 m ρ c (Proc.devRef .tc main_v18) := W4_of_ne m ρ c main_v18 (by decide)

theorem keep_arg0_8_0 (c : Dev nD) : W8 m ρ c (Proc.devRef .tc main_arg0) = W0 m ρ c (Proc.devRef .tc main_arg0) :=
  calc W8 m ρ c (Proc.devRef .tc main_arg0)
    _ = W7 m ρ c (Proc.devRef .tc main_arg0) := by untouched hostOps3
    _ = W6 m ρ c (Proc.devRef .tc main_arg0) := W7_of_ne m ρ c main_arg0 (by decide)
    _ = W5 m ρ c (Proc.devRef .tc main_arg0) := W6_of_ne m ρ c main_arg0 (by decide)
    _ = W4 m ρ c (Proc.devRef .tc main_arg0) := by untouched hostOps1
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := by untouched hostOps0_2
    _ = W1 m ρ c (Proc.devRef .tc main_arg0) := by untouched hostOps0_1
    _ = W0 m ρ c (Proc.devRef .tc main_arg0) := by untouched hostOps0

theorem keep_arg10_8_0 (c : Dev nD) : W8 m ρ c (Proc.devRef .tc main_arg10) = W0 m ρ c (Proc.devRef .tc main_arg10) :=
  calc W8 m ρ c (Proc.devRef .tc main_arg10)
    _ = W7 m ρ c (Proc.devRef .tc main_arg10) := by untouched hostOps3
    _ = W6 m ρ c (Proc.devRef .tc main_arg10) := W7_of_ne m ρ c main_arg10 (by decide)
    _ = W5 m ρ c (Proc.devRef .tc main_arg10) := W6_of_ne m ρ c main_arg10 (by decide)
    _ = W4 m ρ c (Proc.devRef .tc main_arg10) := by untouched hostOps1
    _ = W3 m ρ c (Proc.devRef .tc main_arg10) := W4_of_ne m ρ c main_arg10 (by decide)
    _ = W2 m ρ c (Proc.devRef .tc main_arg10) := by untouched hostOps0_2
    _ = W1 m ρ c (Proc.devRef .tc main_arg10) := by untouched hostOps0_1
    _ = W0 m ρ c (Proc.devRef .tc main_arg10) := by untouched hostOps0

theorem keep_arg12_8_0 (c : Dev nD) : W8 m ρ c (Proc.devRef .tc main_arg12) = W0 m ρ c (Proc.devRef .tc main_arg12) :=
  calc W8 m ρ c (Proc.devRef .tc main_arg12)
    _ = W7 m ρ c (Proc.devRef .tc main_arg12) := by untouched hostOps3
    _ = W6 m ρ c (Proc.devRef .tc main_arg12) := W7_of_ne m ρ c main_arg12 (by decide)
    _ = W5 m ρ c (Proc.devRef .tc main_arg12) := W6_of_ne m ρ c main_arg12 (by decide)
    _ = W4 m ρ c (Proc.devRef .tc main_arg12) := by untouched hostOps1
    _ = W3 m ρ c (Proc.devRef .tc main_arg12) := W4_of_ne m ρ c main_arg12 (by decide)
    _ = W2 m ρ c (Proc.devRef .tc main_arg12) := by untouched hostOps0_2
    _ = W1 m ρ c (Proc.devRef .tc main_arg12) := by untouched hostOps0_1
    _ = W0 m ρ c (Proc.devRef .tc main_arg12) := by untouched hostOps0

/-- The launch contents are the memory the run starts from. -/
theorem W0_eq (c : Dev nD) (b : Ref sig .tc) : W0 m ρ c (Proc.devRef .tc b) = m ((c : Thread nD τ).loc b) := rfl

end Cert.Gcn.Fold

end
-- ==== Proof.Spec.lean ====
/-
  The mathematics both programs compute: two graph-convolution layers with symmetric normalisation and doubled
  self-loops, each followed by a layer normalisation over the 128 features, then a squeeze-and-excite gate and the
  residual, on 50000 nodes and 1600000 edges, as functions on the extended reals.

  A node's degree factor `d r` is kept as a parameter. An edge `e` carries a source row `rowOf (src e)` (a start
  index read signed and clamped into 0 … 49999) and a target row number `dst e` read signed; an edge whose target row
  number is outside 0 … 49999 contributes nowhere.

  The two programs arrange one layer's aggregation differently:
    * `ZK`: the rows are scaled by the source's factor first, accumulated, and the sum is scaled by the target's
      factor: `d r · (0 + Σ_e [dst e = r] xw (src e) · d (src e))`;
    * `ZR`: each edge's row is scaled by the product of both factors before it is accumulated:
      `0 + Σ_e [dst e = r] xw (src e) · (d (src e) · d (dst e))`.
  Everything after the aggregation is the same function of it, so the whole result is stated once, over the
  pre-activation `Z`, as `out Z`.
-/
import Idealize.ShloMosaic.PureOps.Ideal.Laws
import Idealize.ShloMosaic.Lib.ValueIdx

noncomputable section

namespace Cert.Gcn

open Idealize.ShloMosaic Idealize.ShloMosaic.ValueIdx

/-- Node features: 50000 rows of 128. -/
abbrev SN : Shape := ⟨2, ![50000, 128]⟩
/-- One number per node. -/
abbrev SV : Shape := ⟨1, ![50000]⟩
/-- One row number per edge, kept as a column. -/
abbrev SEc : Shape := ⟨2, ![1600000, 1]⟩
/-- One number per feature. -/
abbrev SD : Shape := ⟨1, ![128]⟩
abbrev SDD : Shape := ⟨2, ![128, 128]⟩
abbrev SDH : Shape := ⟨2, ![128, 16]⟩
abbrev SH : Shape := ⟨1, ![16]⟩
abbrev SHD : Shape := ⟨2, ![16, 128]⟩

/-- The f32 words both programs print, never evaluated: 0, 2, 128 and the variance floor. -/
def zeroW : EReal := Ideal.ofBits .f32 0x00000000#32
def twoW : EReal := Ideal.ofBits .f32 0x40000000#32
def c128 : EReal := Ideal.ofBits .f32 0x43000000#32
def epsW : EReal := Ideal.ofBits .f32 0x3727C5AC#32

/-! ## One row -/

/-- The mean of a row of 128. -/
def meanRow (z : Fin 128 → EReal) : EReal := Ideal.div (∑ k : Fin 128, z k) c128

/-- The mean of the squared deviations of a row from its mean. -/
def varRow (z : Fin 128 → EReal) : EReal :=
  Ideal.div (∑ k : Fin 128, (z k - meanRow z) * (z k - meanRow z)) c128

/-- Layer normalisation of a row: `(z q − mean) · rsqrt (var + ε) · g q + b q`. -/
def lnRow (z g b : Fin 128 → EReal) (q : Fin 128) : EReal :=
  ((z q - meanRow z) * Ideal.rsqrt (varRow z + epsW)) * g q + b q

/-- A row times a 128 × n matrix. -/
def rowTimes {n : Nat} (h : Fin 128 → EReal) (w : Fin 128 → Fin n → EReal) (j : Fin n) : EReal :=
  ∑ k : Fin 128, h k * w k j

/-- The squeeze-and-excite gate and the residual on one row: `s = max (h·Ws + bs) 0`,
    `max (h q · logistic ((s·We) q + be q) + skip q) 0`. -/
def gateRow (h : Fin 128 → EReal) (ws : Fin 128 → Fin 16 → EReal) (bs : Fin 16 → EReal)
    (we : Fin 16 → Fin 128 → EReal) (be skip : Fin 128 → EReal) (q : Fin 128) : EReal :=
  max (h q * Ideal.logistic ((∑ j : Fin 16, max (rowTimes h ws j + bs j) zeroW * we j q) + be q) + skip q) zeroW

/-! ## The arrays -/

/-- The row a start index names: read signed, clamped into 0 … 49999. -/
def rowOf (b : BitVec 32) : Fin 50000 := ⟨min b.toInt.toNat (50000 - 1), by omega⟩

/-- `x · w` for 50000 × 128 times 128 × 128. -/
def times (x : SN.Idx → EReal) (w : SDD.Idx → EReal) : SN.Idx → EReal :=
  fun i => ∑ k : Fin 128, x (ix2 (i 0 : Fin 50000) k) * w (ix2 k (i 1 : Fin 128))

/-- The rows scaled by the source's factor and accumulated at their targets:
    `0 + Σ_e [dst e = r] xw (src e, c) · d (src e)`. -/
def accK (d : SV.Idx → EReal) (src dst : IVec SEc 32) (xw : SN.Idx → EReal) : SN.Idx → EReal :=
  fun i => zeroW + ∑ e : Fin 1600000,
    if (dst (ix2 e (0 : Fin 1))).toInt = (((i 0 : Fin 50000)).val : Int)
    then xw (ix2 (rowOf (src (ix2 e (0 : Fin 1)))) (i 1 : Fin 128)) * d (ix1 (rowOf (src (ix2 e (0 : Fin 1))))) else 0

/-- The rows scaled by both factors and accumulated at their targets:
    `0 + Σ_e [dst e = r] xw (src e, c) · (d (src e) · d (dstw e))`. -/
def accR (d : SV.Idx → EReal) (src dstw dst : IVec SEc 32) (xw : SN.Idx → EReal) : SN.Idx → EReal :=
  fun i => zeroW + ∑ e : Fin 1600000,
    if (dst (ix2 e (0 : Fin 1))).toInt = (((i 0 : Fin 50000)).val : Int)
    then xw (ix2 (rowOf (src (ix2 e (0 : Fin 1)))) (i 1 : Fin 128))
      * (d (ix1 (rowOf (src (ix2 e (0 : Fin 1))))) * d (ix1 (rowOf (dstw (ix2 e (0 : Fin 1)))))) else 0

/-- The self-loop coefficient `(2 · d r) · d r`. -/
def coef (d : SV.Idx → EReal) (r : Fin 50000) : EReal := (twoW * d (ix1 r)) * d (ix1 r)

/-- A layer's pre-activation, the sum scaled last: `(d r · acc + coef r · xw) + b`. -/
def ZK (d : SV.Idx → EReal) (src dst : IVec SEc 32) (xw : SN.Idx → EReal) (b : SD.Idx → EReal) : SN.Idx → EReal :=
  fun i => (d (ix1 (i 0 : Fin 50000)) * accK d src dst xw i + coef d (i 0 : Fin 50000) * xw i) + b (ix1 (i 1 : Fin 128))

/-- A layer's pre-activation, every edge scaled first: `(acc + xw · coef r) + b`. -/
def ZR (d : SV.Idx → EReal) (src dstw dst : IVec SEc 32) (xw : SN.Idx → EReal) (b : SD.Idx → EReal) : SN.Idx → EReal :=
  fun i => (accR d src dstw dst xw i + xw i * coef d (i 0 : Fin 50000)) + b (ix1 (i 1 : Fin 128))

/-- Row `r` of an array. -/
def rowAt (z : SN.Idx → EReal) (r : Fin 50000) : Fin 128 → EReal := fun k => z (ix2 r k)

/-- A vector of 128 by its coordinate. -/
def vec (g : SD.Idx → EReal) : Fin 128 → EReal := fun k => g (ix1 k)

/-- Layer 1: normalise each row of the pre-activation, then the maximum with zero. -/
def hidden (z : SN.Idx → EReal) (g b : SD.Idx → EReal) : SN.Idx → EReal :=
  fun i => max (lnRow (rowAt z (i 0 : Fin 50000)) (vec g) (vec b) (i 1 : Fin 128)) zeroW

/-- Layer 2: normalise each row, gate it and add the input row. -/
def gated (z : SN.Idx → EReal) (g b : SD.Idx → EReal) (ws : SDH.Idx → EReal) (bs : SH.Idx → EReal)
    (we : SHD.Idx → EReal) (be : SD.Idx → EReal) (x : SN.Idx → EReal) : SN.Idx → EReal :=
  fun i => gateRow (lnRow (rowAt z (i 0 : Fin 50000)) (vec g) (vec b)) (fun k j => ws (ix2 k j)) (fun j => bs (ix1 j))
    (fun j q => we (ix2 j q)) (vec be) (rowAt x (i 0 : Fin 50000)) (i 1 : Fin 128)

/-- The whole block over a pre-activation builder `Z` (which takes a layer's `x · w` and its bias). -/
def out (Z : (SN.Idx → EReal) → (SD.Idx → EReal) → SN.Idx → EReal)
    (x : SN.Idx → EReal) (w1 : SDD.Idx → EReal) (b1 g1 t1 : SD.Idx → EReal)
    (w2 : SDD.Idx → EReal) (b2 g2 t2 : SD.Idx → EReal)
    (ws : SDH.Idx → EReal) (bs : SH.Idx → EReal) (we : SHD.Idx → EReal) (be : SD.Idx → EReal) : SN.Idx → EReal :=
  gated (Z (times (hidden (Z (times x w1) b1) g1 t1) w2) b2) g2 t2 ws bs we be x

end Cert.Gcn

end
-- ==== Proof.SpecAcc.lean ====
/-
  The accumulation of gathered rows over an arbitrary table, and the kernel's arrangement as an instance of it.

  `accT src dst tbl` at `(r, c)` is `0 + Σ_e [dst e = r] tbl (src e, c)`: row `src e` of the table added onto row `dst e`.
  The kernel gathers from the table `(x · w) · d`, whose entry `(k, c)` is `(x · w) (k, c) · d k`: that is `accK`.
-/
import proofs.«136372_j15109694947953_2_alg».proof.Proof.Spec

noncomputable section

namespace Cert.Gcn

open Idealize.ShloMosaic Idealize.ShloMosaic.ValueIdx

/-- Rows of a table gathered at the sources and accumulated at the targets. -/
def accT (src dst : IVec SEc 32) (tbl : SN.Idx → EReal) : SN.Idx → EReal :=
  fun i => zeroW + ∑ e : Fin 1600000,
    if (dst (ix2 e (0 : Fin 1))).toInt = (((i 0 : Fin 50000)).val : Int)
    then tbl (ix2 (rowOf (src (ix2 e (0 : Fin 1)))) (i 1 : Fin 128)) else 0

/-- The kernel's accumulation is the accumulation of the table scaled row by row. -/
theorem accK_eq_accT (d : SV.Idx → EReal) (src dst : IVec SEc 32) (xw : SN.Idx → EReal) :
    accK d src dst xw = accT src dst (fun j => xw j * d (ix1 (j 0 : Fin 50000))) := rfl

end Cert.Gcn

end
-- ==== Proof.LibRowScatterAdd.lean ====
/-
  A general fact about accumulating rows into a matrix.

  Take an operand with N rows and C columns, a column of R row numbers (an R × 1 integer array) and an R × C array of
  update rows. Scattering with one window axis (the columns), one inserted axis (the rows) and the row number naming
  the row axis adds update row e onto operand row k, where k is the e-th row number read as a signed integer; a row
  number outside 0 … N − 1 drops its update row. On the extended reals the result at (r, c) is therefore the operand's
  entry plus the sum, over the update rows e whose row number is r, of the update entry (e, c). Nothing here depends on
  a particular program.
-/
import Idealize.ShloMosaic.PureOps.Ideal
import Idealize.ShloMosaic.Lib.ValueIdx

noncomputable section

namespace Idealize.ShloMosaic.RowScatter

open Idealize.ShloMosaic Idealize.ShloMosaic.ValueIdx

/-- The dimension numbers of a whole-row accumulation into an `N × C` operand at an `R × 1` column of row numbers. -/
abbrev rowDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- On the row axis the window of update entry `(e, c)` starts at the `e`-th row number, read signed. -/
theorem start_row (idx : IVec ⟨2, ![R, 1]⟩ w) (e : Fin R) (c : Fin C) :
    (rowDims N R C wf).start (ix2 e c) idx 0 = (idx (ix2 e (0 : Fin 1))).toInt := by
  unfold ScatterDims.start
  rw [dif_pos (show (0 : Fin 2) ∈ (rowDims N R C wf).scatterDimsToOperandDims from List.mem_singleton.mpr rfl)]
  have hsi : (rowDims N R C wf).siIdx (ix2 e c) ⟨List.idxOf (0 : Fin 2) (rowDims N R C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis it starts at 0. -/
theorem start_col (idx : IVec ⟨2, ![R, 1]⟩ w) (j : (⟨2, ![R, C]⟩ : Shape).Idx) :
    (rowDims N R C wf).start j idx 1 = 0 := by
  unfold ScatterDims.start
  rw [dif_neg (show ¬ (1 : Fin 2) ∈ (rowDims N R C wf).scatterDimsToOperandDims from
    fun h => absurd (List.mem_singleton.mp h) (show ¬ (1 : Fin 2) = 0 by decide))]

/-- The operand's axes that are not inserted: the columns only. -/
theorem sKept_eq : (rowDims N R C wf).sKept = [(1 : Fin 2)] := rfl

/-- The row axis is inserted: no window coordinate. -/
theorem window_row (j : (⟨2, ![R, C]⟩ : Shape).Idx) : (rowDims N R C wf).window j 0 = 0 := by
  unfold ScatterDims.window
  rw [dif_neg (show ¬ (0 : Fin 2) ∈ (rowDims N R C wf).sKept from by
    rw [sKept_eq]; exact fun h => absurd (List.mem_singleton.mp h) (show ¬ (0 : Fin 2) = 1 by decide))]

/-- The column axis carries the update's column. -/
theorem window_col (e : Fin R) (c : Fin C) : (rowDims N R C wf).window (ix2 e c) 1 = c.val := by
  unfold ScatterDims.window
  rw [dif_pos (show (1 : Fin 2) ∈ (rowDims N R C wf).sKept from by
    rw [sKept_eq]; exact List.mem_singleton.mpr rfl)]
  rfl

/-- WHERE AN UPDATE ENTRY LANDS: update entry `(e, c)` lands on operand entry `i` exactly when the `e`-th row number, read
    signed, is `i`'s row and `c` is `i`'s column. (A row number outside the operand lands nowhere.) -/
theorem resultIdx?_eq_some_iff (idx : IVec ⟨2, ![R, 1]⟩ w) (e : Fin R) (c : Fin C) (i : (⟨2, ![N, C]⟩ : Shape).Idx) :
    (rowDims N R C wf).resultIdx? (ix2 e c) idx = some i
      ↔ (idx (ix2 e (0 : Fin 1))).toInt = ((i 0).val : Int) ∧ c.val = (i 1).val := by
  have hs0 := start_row wf idx e c
  have hs1 := start_col wf idx (ix2 e c)
  have hw0 := window_row wf (ix2 e c)
  have hw1 := window_col wf e c
  have hi0 : (i 0).val < N := (i 0).isLt
  have hi1 : (i 1).val < C := (i 1).isLt
  have hc : c.val < C := c.isLt
  unfold ScatterDims.resultIdx?
  split
  · rename_i h
    rw [Option.some.injEq]
    have h0 := h 0
    rw [hs0, hw0] at h0
    constructor
    · intro he
      have e0 : ((rowDims N R C wf).start (ix2 e c) idx 0 + ((rowDims N R C wf).window (ix2 e c) 0 : Nat)).toNat = (i 0).val :=
        congrArg (fun f : (⟨2, ![N, C]⟩ : Shape).Idx => (f 0).val) he
      have e1 : ((rowDims N R C wf).start (ix2 e c) idx 1 + ((rowDims N R C wf).window (ix2 e c) 1 : Nat)).toNat = (i 1).val :=
        congrArg (fun f : (⟨2, ![N, C]⟩ : Shape).Idx => (f 1).val) he
      rw [hs0, hw0] at e0
      rw [hs1, hw1] at e1
      constructor <;> omega
    · rintro ⟨g0, g1⟩
      funext a; apply Fin.ext
      match a with
      | ⟨0, _⟩ =>
        show ((rowDims N R C wf).start (ix2 e c) idx 0 + ((rowDims N R C wf).window (ix2 e c) 0 : Nat)).toNat = (i 0).val
        rw [hs0, hw0]; omega
      | ⟨1, _⟩ =>
        show ((rowDims N R C wf).start (ix2 e c) idx 1 + ((rowDims N R C wf).window (ix2 e c) 1 : Nat)).toNat = (i 1).val
        rw [hs1, hw1]; omega
  · rename_i h
    constructor
    · intro he; cases he
    · rintro ⟨g0, g1⟩
      exfalso; apply h
      intro a
      match a with
      | ⟨0, _⟩ =>
        show 0 ≤ (rowDims N R C wf).start (ix2 e c) idx 0 + ((rowDims N R C wf).window (ix2 e c) 0 : Nat)
          ∧ (rowDims N R C wf).start (ix2 e c) idx 0 + ((rowDims N R C wf).window (ix2 e c) 0 : Nat) < (N : Int)
        rw [hs0, hw0]; omega
      | ⟨1, _⟩ =>
        show 0 ≤ (rowDims N R C wf).start (ix2 e c) idx 1 + ((rowDims N R C wf).window (ix2 e c) 1 : Nat)
          ∧ (rowDims N R C wf).start (ix2 e c) idx 1 + ((rowDims N R C wf).window (ix2 e c) 1 : Nat) < (C : Int)
        rw [hs1, hw1]; omega

/-- THE ACCUMULATED ROWS AT AN ENTRY: the operand's entry plus the sum, over the update rows whose row number is
    `r`, of their entries in column `c`. -/
theorem scatterAdd_row_apply (x : (⟨2, ![N, C]⟩ : Shape).Idx → EReal) (idx : IVec ⟨2, ![R, 1]⟩ w)
    (upd : (⟨2, ![R, C]⟩ : Shape).Idx → EReal) (r : Fin N) (c : Fin C) :
    Ideal.hostScatterAdd (rowDims N R C wf) x idx upd (ix2 r c)
      = x (ix2 r c) + ∑ e : Fin R, if (idx (ix2 e (0 : Fin 1))).toInt = (r.val : Int) then upd (ix2 e c) else 0 := by
  unfold Ideal.hostScatterAdd
  congr 1
  rw [Finset.sum_filter, sum_idx2]
  refine Finset.sum_congr rfl fun e _ => ?_
  have hiff : ∀ c' : Fin C, ((rowDims N R C wf).resultIdx? (ix2 e c') idx = some (ix2 r c))
      ↔ ((idx (ix2 e (0 : Fin 1))).toInt = (r.val : Int) ∧ c' = c) := fun c' =>
    (resultIdx?_eq_some_iff wf idx e c' (ix2 r c)).trans (and_congr Iff.rfl Fin.val_inj)
  simp only [hiff]
  by_cases hr : (idx (ix2 e (0 : Fin 1))).toInt = (r.val : Int)
  · simp only [hr, true_and, if_true, Finset.sum_ite_eq', Finset.mem_univ]
  · simp only [hr, false_and, if_false, Finset.sum_const_zero]

/-- The same, spelt as the host's operation at the extended reals. -/
theorem host_scatterAdd_row_apply (x : FVec Ideal ⟨2, ![N, C]⟩ .f32) (idx : IVec ⟨2, ![R, 1]⟩ w)
    (upd : FVec Ideal ⟨2, ![R, C]⟩ .f32) (r : Fin N) (c : Fin C) :
    Host.scatterAdd (F := Ideal) (rowDims N R C wf) x idx upd (ix2 r c)
      = x (ix2 r c) + ∑ e : Fin R, if (idx (ix2 e (0 : Fin 1))).toInt = (r.val : Int) then upd (ix2 e c) else 0 :=
  scatterAdd_row_apply wf x idx upd r c

end Idealize.ShloMosaic.RowScatter

end
-- ==== Proof.LibRowGather.lean ====
/-
  A general fact about gathering whole rows of a matrix.

  Take a table with N rows and C columns and a column of R start indices (an R × 1 integer array). Gathering with one
  collapsed axis (the rows), one offset axis (the columns), the start index naming the row axis and slices of one
  whole row produces an R × C array whose entry (r, o) is the table's entry (k, o), where k is the r-th start index
  read as a signed integer and clamped into 0 … N − 1. Nothing here depends on a particular program.
-/
import Idealize.ShloMosaic.PureOps.Ideal
import Idealize.ShloMosaic.Lib.ValueIdx

noncomputable section

namespace Idealize.ShloMosaic.RowGather

open Idealize.ShloMosaic Idealize.ShloMosaic.ValueIdx

variable {α : Type}

/-- The dimension numbers of a whole-row gather from an `N × C` table at an `R × 1` column of start indices. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Entry `(r, o)` of a whole-row gather is the table's entry `(k, o)`, `k` the `r`-th start index read signed and
    clamped into `0 … N − 1`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (o : Fin C) :
    Host.gather (rowDims N R C wf) x idx (ix2 r o)
      = x (ix2 (⟨min (idx (ix2 r (0 : Fin 1))).toInt.toNat (N - 1), by omega⟩ : Fin N) o) := by
  unfold Host.gather
  congr 1
  funext a
  refine Fin.ext ?_
  match a with
  | ⟨0, _⟩ =>
    show (rowDims N R C wf).start (ix2 r o) idx 0 + (rowDims N R C wf).batchCoord (ix2 r o) 0
        + (rowDims N R C wf).offCoord (ix2 r o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r o) ⟨List.idxOf (0 : Fin 2) (rowDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowDims N R C wf).start (ix2 r o) idx 1 + (rowDims N R C wf).batchCoord (ix2 r o) 1
        + (rowDims N R C wf).offCoord (ix2 r o) 1 = o.val
    rw [GatherDims.batchCoord_eq_zero _ _ _ List.not_mem_nil]
    unfold GatherDims.start
    rw [dif_neg (show ¬ (1 : Fin 2) ∈ (rowDims N R C wf).startIndexMap from
      fun h => absurd (List.mem_singleton.mp h) (show ¬ (1 : Fin 2) = 0 by decide))]
    simp only [Nat.add_zero, Nat.zero_add]
    rfl

end Idealize.ShloMosaic.RowGather

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KernelHost.lean ====
/-
  The idealized kernel's stretches of host operations, read against the reference's stages of the same edge array
  and against the specification: the degree factor and its two columns, the two accumulations of gathered rows, and
  the row vectors handed to the regions.
-/
import proofs.«136372_j15109694947953_2_alg».proof.Proof.KernelFold
import proofs.«136372_j15109694947953_2_alg».proof.Proof.RefReadP
import proofs.«136372_j15109694947953_2_alg».proof.Proof.SpecAcc
import proofs.«136372_j15109694947953_2_alg».proof.Proof.LibRowScatterAdd
import proofs.«136372_j15109694947953_2_alg».proof.Proof.LibRowGather
import proofs.«136372_j15109694947953_2_alg».proof.Proof.LibColumnLayout
import Idealize.ShloMosaic.Lib.StableHlo.Run
import Idealize.ShloMosaic.PureOps.Ideal
import Idealize.ShloMosaic.Lib.Pipeline.Value
import Idealize.ShloMosaic.Lib.ValueIdx
import Idealize.ShloMosaic.Lib.ValueLayout

set_option maxRecDepth 16384

noncomputable section

namespace Cert.Gcn.KHost

open Cert.KernelIdeal Cert.KernelIdeal.Gen
open Idealize.ShloMosaic Idealize.ShloMosaic.TcCoe Idealize.SL.Sem Idealize.ShloMosaic.StableHlo
open Idealize.ShloMosaic.ValueIdx Cert.Gcn.Fold

variable (m : (ℓ : Loc nD τ sig) → Buf (Elt Ideal) ℓ) (ρ : Dev nD → PrngReg)

/-! ## The first stretch: the edge columns and the degree, as the reference computes them -/

/-- The source column. -/
theorem v1_eq (c : Dev nD) : W1 m ρ c (Proc.devRef .tc main_v1)
    = Cert.ReferenceIdeal.ReadP.val_main_v1 (F := Ideal) (m ((c : Thread nD τ).loc main_arg1)) := by
  show StableHlo.after hostOps0 (W0 m ρ c) (Proc.devRef .tc main_v1) = _
  after_results
  rfl

/-- The target column. -/
theorem v3_eq (c : Dev nD) : W1 m ρ c (Proc.devRef .tc main_v3)
    = Cert.ReferenceIdeal.ReadP.val_main_v3 (F := Ideal) (m ((c : Thread nD τ).loc main_arg1)) := by
  show StableHlo.after hostOps0 (W0 m ρ c) (Proc.devRef .tc main_v3) = _
  after_results
  rfl

/-- "The degree sum is above zero". -/
theorem v11_eq (c : Dev nD) : W1 m ρ c (Proc.devRef .tc main_v11)
    = Cert.ReferenceIdeal.ReadP.val_main_v12 (F := Ideal) (m ((c : Thread nD τ).loc main_arg1)) := by
  show StableHlo.after hostOps0 (W0 m ρ c) (Proc.devRef .tc main_v11) = _
  after_results
  rfl

/-- The reciprocal square root of the degree sum. -/
theorem v12_eq (c : Dev nD) : W1 m ρ c (Proc.devRef .tc main_v12)
    = Cert.ReferenceIdeal.ReadP.val_main_v13 (F := Ideal) (m ((c : Thread nD τ).loc main_arg1)) := by
  show StableHlo.after hostOps0 (W0 m ρ c) (Proc.devRef .tc main_v12) = _
  after_results
  rfl

/-- The zero the selection falls back to. -/
theorem cst3_eq (c : Dev nD) : W1 m ρ c (Proc.devRef .tc main_cst_3)
    = Cert.ReferenceIdeal.ReadP.val_main_cst_3 (F := Ideal) := by
  show StableHlo.after hostOps0 (W0 m ρ c) (Proc.devRef .tc main_cst_3) = _
  after_results
  rfl

/-- (1) The degree factor is the reference's. -/
theorem dinv_eq (c : Dev nD) : W2 m ρ c (Proc.devRef .tc main_v13)
    = Cert.ReferenceIdeal.ReadP.val_main_v14 (F := Ideal) (m ((c : Thread nD τ).loc main_arg1)) := by
  show StableHlo.after hostOps0_1 (W1 m ρ c) (Proc.devRef .tc main_v13) = _
  generalize hV : W1 m ρ c = V
  after_results
  show select (V (Proc.devRef .tc main_v11)) (V (Proc.devRef .tc main_v12))
    (broadcastInDim S50000 ![] bcast_S_S50000 (id (V (Proc.devRef .tc main_cst_3)))) = _
  subst hV
  rw [v11_eq, v12_eq, cst3_eq]
  rfl

/-! ## The third stretch: the degree factor and the self-loop coefficient as columns -/

/-- The degree factor kept as a column. -/
theorem v14_eq (c : Dev nD) : W3 m ρ c (Proc.devRef .tc main_v14)
    = shapeCast S50000x1 (W2 m ρ c (Proc.devRef .tc main_v13)) shapeCasts_S50000_S50000x1 := by
  show StableHlo.after hostOps0_2 (W2 m ρ c) (Proc.devRef .tc main_v14) = _
  generalize hV : W2 m ρ c = V
  after_results
  rfl

/-- (2) The degree column at a row. -/
theorem dcol_apply (c : Dev nD) (r : Fin 50000) :
    (W3 m ρ c (Proc.devRef .tc main_v14) : S50000x1.Idx → EReal) (ix2 r (0 : Fin 1))
      = Cert.ReferenceIdeal.ReadP.val_main_v14 (F := Ideal) (m ((c : Thread nD τ).loc main_arg1)) (ix1 r) := by
  rw [v14_eq, dinv_eq]
  exact ColumnLayout.shapeCast_a_a1_apply _ _ r 0

/-- The self-loop coefficient kept as a column. -/
theorem v18_eq (c : Dev nD) : W3 m ρ c (Proc.devRef .tc main_v18)
    = shapeCast S50000x1 (mulf (F := Ideal) (mulf (F := Ideal)
        (broadcastInDim S50000 ![] bcast_S_S50000 (constant (F := Ideal) S_ .f32 0x40000000#32))
        (W2 m ρ c (Proc.devRef .tc main_v13))) (W2 m ρ c (Proc.devRef .tc main_v13))) shapeCasts_S50000_S50000x1 := by
  show StableHlo.after hostOps0_2 (W2 m ρ c) (Proc.devRef .tc main_v18) = _
  generalize hV : W2 m ρ c = V
  after_results
  rfl

/-- (3) The coefficient column at a row. -/
theorem ccol_apply (c : Dev nD) (r : Fin 50000) :
    (W3 m ρ c (Proc.devRef .tc main_v18) : S50000x1.Idx → EReal) (ix2 r (0 : Fin 1))
      = Cert.Gcn.coef (Cert.ReferenceIdeal.ReadP.val_main_v14 (F := Ideal) (m ((c : Thread nD τ).loc main_arg1))) r := by
  have h2 : broadcastInDim S50000 ![] bcast_S_S50000 (constant (F := Ideal) S_ .f32 0x40000000#32) (ix1 r)
      = Cert.Gcn.twoW :=
    broadcastInDim_apply _ bcast_S_S50000 (constant (F := Ideal) S_ .f32 0x40000000#32) (ix1 r) ix0 (fun a => a.elim0)
  rw [v18_eq, dinv_eq]
  refine (ColumnLayout.shapeCast_a_a1_apply _ _ r 0).trans ?_
  rw [mulf_apply, mulf_apply, h2]
  rfl

/-! ## The accumulations: rows of a table gathered at the sources and added at the targets -/

/-- The printed scatter record is the generic whole-row one. -/
theorem scatter_rec : scatter_S50000x128_S1600000x1_S1600000x128_1_0_0_1
    = RowScatter.rowDims 50000 1600000 128 Cert.KernelIdeal.Gen.scatter_S50000x128_S1600000x1_S1600000x128_1_0_0_1_wf := rfl

/-- The printed gather record is the generic whole-row one. -/
theorem gatherRow_rec : gather_S50000x128_S1600000x1_S1600000x128_1_0_n_n_0_1_1128
    = RowGather.rowDims 50000 1600000 128 Cert.KernelIdeal.Gen.gather_S50000x128_S1600000x1_S1600000x128_1_0_n_n_0_1_1128_wf := rfl

/-- The zero array the rows are added onto. -/
theorem zeros_apply (i : S50000x128.Idx) :
    broadcastInDim S50000x128 ![] bcast_S_S50000x128 (constant (F := Ideal) S_ .f32 0x00000000#32) i = Cert.Gcn.zeroW :=
  broadcastInDim_apply _ bcast_S_S50000x128 (constant (F := Ideal) S_ .f32 0x00000000#32) i ix0 (fun a => a.elim0)

/-- Whole rows gathered at the source column and added, onto zeros, at the target column: the specification's
    accumulation over the table. -/
theorem scatter_gather_eq (src dst : (⟨S1600000x1, .i32⟩ : BufTy).Contents (Elt Ideal))
    (tbl : (⟨S50000x128, .f32⟩ : BufTy).Contents (Elt Ideal)) :
    Host.scatterAdd (F := Ideal) scatter_S50000x128_S1600000x1_S1600000x128_1_0_0_1
        (broadcastInDim S50000x128 ![] bcast_S_S50000x128 (constant (F := Ideal) S_ .f32 0x00000000#32)) dst
        (Host.gather gather_S50000x128_S1600000x1_S1600000x128_1_0_n_n_0_1_1128 tbl src)
      = Cert.Gcn.accT src dst tbl := by
  funext i
  obtain ⟨r, q, rfl⟩ : ∃ (r : Fin 50000) (q : Fin 128), i = ix2 r q := ⟨i 0, i 1, eq_ix2 i⟩
  rw [scatter_rec, RowScatter.host_scatterAdd_row_apply, zeros_apply, gatherRow_rec]
  unfold Cert.Gcn.accT
  refine congrArg (fun s => Cert.Gcn.zeroW + s) (Finset.sum_congr rfl fun e _ => ?_)
  rw [RowGather.gather_row_apply (by decide : 0 < 50000)]
  rfl

/-- The first accumulation as a term over the stretch's entry contents. -/
theorem v29_term (V : Valuation τ sig (Elt Ideal)) : StableHlo.after hostOps1 V (Proc.devRef .tc main_v29)
    = Host.scatterAdd (F := Ideal) scatter_S50000x128_S1600000x1_S1600000x128_1_0_0_1
        (broadcastInDim S50000x128 ![] bcast_S_S50000x128 (constant (F := Ideal) S_ .f32 0x00000000#32))
        (broadcastInDim S1600000x1 ![0] bcast_S1600000_S1600000x1_0 (V (Proc.devRef .tc main_v3)))
        (Host.gather gather_S50000x128_S1600000x1_S1600000x128_1_0_n_n_0_1_1128 (V (Proc.devRef .tc main_v19_1))
          (broadcastInDim S1600000x1 ![0] bcast_S1600000_S1600000x1_0
            (select (cmpi .slt (V (Proc.devRef .tc main_v1)) (broadcastInDim S1600000 ![] bcast_S_S1600000 (constantI S_ 32 0#32)))
              (addi (V (Proc.devRef .tc main_v1)) (broadcastInDim S1600000 ![] bcast_S_S1600000 (constantI S_ 32 50000#32)))
              (V (Proc.devRef .tc main_v1))))) := by
  after_results

/-- The wrapped source column and the target column of a stretch's entry contents that hold the reference's two
    edge columns are the reference's. -/
theorem cols_eq (E : (⟨S2x1600000, .i32⟩ : BufTy).Contents (Elt Ideal)) (tbl : (⟨S50000x128, .f32⟩ : BufTy).Contents (Elt Ideal)) :
    Host.scatterAdd (F := Ideal) scatter_S50000x128_S1600000x1_S1600000x128_1_0_0_1
        (broadcastInDim S50000x128 ![] bcast_S_S50000x128 (constant (F := Ideal) S_ .f32 0x00000000#32))
        (broadcastInDim S1600000x1 ![0] bcast_S1600000_S1600000x1_0 (Cert.ReferenceIdeal.ReadP.val_main_v3 (F := Ideal) E))
        (Host.gather gather_S50000x128_S1600000x1_S1600000x128_1_0_n_n_0_1_1128 tbl
          (broadcastInDim S1600000x1 ![0] bcast_S1600000_S1600000x1_0
            (select (cmpi .slt (Cert.ReferenceIdeal.ReadP.val_main_v1 (F := Ideal) E) (broadcastInDim S1600000 ![] bcast_S_S1600000 (constantI S_ 32 0#32)))
              (addi (Cert.ReferenceIdeal.ReadP.val_main_v1 (F := Ideal) E) (broadcastInDim S1600000 ![] bcast_S_S1600000 (constantI S_ 32 50000#32)))
              (Cert.ReferenceIdeal.ReadP.val_main_v1 (F := Ideal) E))))
      = Cert.Gcn.accT (Cert.ReferenceIdeal.ReadP.val_main_v35 (F := Ideal) E) (Cert.ReferenceIdeal.ReadP.val_main_v41 (F := Ideal) E) tbl :=
  scatter_gather_eq (Cert.ReferenceIdeal.ReadP.val_main_v35 (F := Ideal) E) (Cert.ReferenceIdeal.ReadP.val_main_v41 (F := Ideal) E) tbl

/-- (4) The first accumulation is the specification's over the first region's table. -/
theorem agg1_eq (c : Dev nD) : W5 m ρ c (Proc.devRef .tc main_v29)
    = Cert.Gcn.accT (Cert.ReferenceIdeal.ReadP.val_main_v35 (F := Ideal) (m ((c : Thread nD τ).loc main_arg1)))
        (Cert.ReferenceIdeal.ReadP.val_main_v41 (F := Ideal) (m ((c : Thread nD τ).loc main_arg1)))
        (W4 m ρ c (Proc.devRef .tc main_v19_1)) := by
  refine (v29_term (W4 m ρ c)).trans ?_
  rw [keep_v1_4_1, keep_v3_4_1, v1_eq, v3_eq]
  exact cols_eq _ _

set_option maxHeartbeats 400000 in
/-- The second accumulation as a term over the stretch's entry contents. -/
theorem v44_term (V : Valuation τ sig (Elt Ideal)) : StableHlo.after hostOps3 V (Proc.devRef .tc main_v44)
    = Host.scatterAdd (F := Ideal) scatter_S50000x128_S1600000x1_S1600000x128_1_0_0_1
        (broadcastInDim S50000x128 ![] bcast_S_S50000x128 (constant (F := Ideal) S_ .f32 0x00000000#32))
        (broadcastInDim S1600000x1 ![0] bcast_S1600000_S1600000x1_0 (V (Proc.devRef .tc main_v3)))
        (Host.gather gather_S50000x128_S1600000x1_S1600000x128_1_0_n_n_0_1_1128 (V (Proc.devRef .tc main_v34_1))
          (broadcastInDim S1600000x1 ![0] bcast_S1600000_S1600000x1_0
            (select (cmpi .slt (V (Proc.devRef .tc main_v1)) (broadcastInDim S1600000 ![] bcast_S_S1600000 (constantI S_ 32 0#32)))
              (addi (V (Proc.devRef .tc main_v1)) (broadcastInDim S1600000 ![] bcast_S_S1600000 (constantI S_ 32 50000#32)))
              (V (Proc.devRef .tc main_v1))))) := by
  after_results

/-- (5) The second accumulation is the specification's over the third region's table. -/
theorem agg2_eq (c : Dev nD) : W8 m ρ c (Proc.devRef .tc main_v44)
    = Cert.Gcn.accT (Cert.ReferenceIdeal.ReadP.val_main_v35 (F := Ideal) (m ((c : Thread nD τ).loc main_arg1)))
        (Cert.ReferenceIdeal.ReadP.val_main_v41 (F := Ideal) (m ((c : Thread nD τ).loc main_arg1)))
        (W7 m ρ c (Proc.devRef .tc main_v34_1)) := by
  refine (v44_term (W7 m ρ c)).trans ?_
  rw [keep_v1_7_1, keep_v3_7_1, v1_eq, v3_eq]
  exact cols_eq _ _

/-! ## The row vectors handed to the regions: an argument with a leading unit axis -/

/-- A parameter vector given a leading unit axis reads the vector at the column. -/
theorem rowvec_apply {a : Nat} (x : (⟨1, ![a]⟩ : Shape).Idx → EReal) (h : (⟨1, ![a]⟩ : Shape).ShapeCasts ⟨2, ![1, a]⟩)
    (k : Fin a) : shapeCast ⟨2, ![1, a]⟩ x h (ix2 (0 : Fin 1) k) = x (ix1 k) :=
  shapeCast_a_1a_apply x h 0 k

/-- (6) The first layer's bias as a row. -/
theorem v30_apply (c : Dev nD) (k : Fin 128) :
    (W5 m ρ c (Proc.devRef .tc main_v30) : S1x128.Idx → EReal) (ix2 (0 : Fin 1) k)
      = m ((c : Thread nD τ).loc main_arg3) (ix1 k) := by
  have h : W5 m ρ c (Proc.devRef .tc main_v30)
      = shapeCast S1x128 (W4 m ρ c (Proc.devRef .tc main_arg3)) shapeCasts_S128_S1x128 := by
    show StableHlo.after hostOps1 (W4 m ρ c) (Proc.devRef .tc main_v30) = _
    after_results
    rfl
  rw [h, keep_arg3_4_0, W0_eq]
  exact rowvec_apply _ _ k

/-- The first layer norm's scale as a row. -/
theorem v31_apply (c : Dev nD) (k : Fin 128) :
    (W5 m ρ c (Proc.devRef .tc main_v31) : S1x128.Idx → EReal) (ix2 (0 : Fin 1) k)
      = m ((c : Thread nD τ).loc main_arg4) (ix1 k) := by
  have h : W5 m ρ c (Proc.devRef .tc main_v31)
      = shapeCast S1x128 (W4 m ρ c (Proc.devRef .tc main_arg4)) shapeCasts_S128_S1x128 := by
    show StableHlo.after hostOps1 (W4 m ρ c) (Proc.devRef .tc main_v31) = _
    after_results
    rfl
  rw [h, keep_arg4_4_0, W0_eq]
  exact rowvec_apply _ _ k

/-- The first layer norm's shift as a row. -/
theorem v32_apply (c : Dev nD) (k : Fin 128) :
    (W5 m ρ c (Proc.devRef .tc main_v32) : S1x128.Idx → EReal) (ix2 (0 : Fin 1) k)
      = m ((c : Thread nD τ).loc main_arg5) (ix1 k) := by
  have h : W5 m ρ c (Proc.devRef .tc main_v32)
      = shapeCast S1x128 (W4 m ρ c (Proc.devRef .tc main_arg5)) shapeCasts_S128_S1x128 := by
    show StableHlo.after hostOps1 (W4 m ρ c) (Proc.devRef .tc main_v32) = _
    after_results
    rfl
  rw [h, keep_arg5_4_0, W0_eq]
  exact rowvec_apply _ _ k

/-- The second layer's bias as a row. -/
theorem v45_apply (c : Dev nD) (k : Fin 128) :
    (W8 m ρ c (Proc.devRef .tc main_v45) : S1x128.Idx → EReal) (ix2 (0 : Fin 1) k)
      = m ((c : Thread nD τ).loc main_arg7) (ix1 k) := by
  have h : W8 m ρ c (Proc.devRef .tc main_v45)
      = shapeCast S1x128 (W7 m ρ c (Proc.devRef .tc main_arg7)) shapeCasts_S128_S1x128 := by
    show StableHlo.after hostOps3 (W7 m ρ c) (Proc.devRef .tc main_v45) = _
    after_results
    rfl
  rw [h, keep_arg7_7_0, W0_eq]
  exact rowvec_apply _ _ k

/-- The second layer norm's scale as a row. -/
theorem v46_apply (c : Dev nD) (k : Fin 128) :
    (W8 m ρ c (Proc.devRef .tc main_v46) : S1x128.Idx → EReal) (ix2 (0 : Fin 1) k)
      = m ((c : Thread nD τ).loc main_arg8) (ix1 k) := by
  have h : W8 m ρ c (Proc.devRef .tc main_v46)
      = shapeCast S1x128 (W7 m ρ c (Proc.devRef .tc main_arg8)) shapeCasts_S128_S1x128 := by
    show StableHlo.after hostOps3 (W7 m ρ c) (Proc.devRef .tc main_v46) = _
    after_results
    rfl
  rw [h, keep_arg8_7_0, W0_eq]
  exact rowvec_apply _ _ k

/-- The second layer norm's shift as a row. -/
theorem v47_apply (c : Dev nD) (k : Fin 128) :
    (W8 m ρ c (Proc.devRef .tc main_v47) : S1x128.Idx → EReal) (ix2 (0 : Fin 1) k)
      = m ((c : Thread nD τ).loc main_arg9) (ix1 k) := by
  have h : W8 m ρ c (Proc.devRef .tc main_v47)
      = shapeCast S1x128 (W7 m ρ c (Proc.devRef .tc main_arg9)) shapeCasts_S128_S1x128 := by
    show StableHlo.after hostOps3 (W7 m ρ c) (Proc.devRef .tc main_v47) = _
    after_results
    rfl
  rw [h, keep_arg9_7_0, W0_eq]
  exact rowvec_apply _ _ k

/-- The squeeze bias as a row. -/
theorem v48_apply (c : Dev nD) (j : Fin 16) :
    (W8 m ρ c (Proc.devRef .tc main_v48) : S1x16.Idx → EReal) (ix2 (0 : Fin 1) j)
      = m ((c : Thread nD τ).loc main_arg11) (ix1 j) := by
  have h : W8 m ρ c (Proc.devRef .tc main_v48)
      = shapeCast S1x16 (W7 m ρ c (Proc.devRef .tc main_arg11)) shapeCasts_S16_S1x16 := by
    show StableHlo.after hostOps3 (W7 m ρ c) (Proc.devRef .tc main_v48) = _
    after_results
    rfl
  rw [h, keep_arg11_7_0, W0_eq]
  exact rowvec_apply _ _ j

/-- The excite bias as a row. -/
theorem v49_apply (c : Dev nD) (k : Fin 128) :
    (W8 m ρ c (Proc.devRef .tc main_v49) : S1x128.Idx → EReal) (ix2 (0 : Fin 1) k)
      = m ((c : Thread nD τ).loc main_arg13) (ix1 k) := by
  have h : W8 m ρ c (Proc.devRef .tc main_v49)
      = shapeCast S1x128 (W7 m ρ c (Proc.devRef .tc main_arg13)) shapeCasts_S128_S1x128 := by
    show StableHlo.after hostOps3 (W7 m ρ c) (Proc.devRef .tc main_v49) = _
    after_results
    rfl
  rw [h, keep_arg13_7_0, W0_eq]
  exact rowvec_apply _ _ k

end Cert.Gcn.KHost

end
-- ==== Proof.Bodies.lean ====
/-
  The kernel bodies' arithmetic read at one coordinate (p, q) of a 2000 × 128 block: the two matrix-product bodies are a
  row-by-column sum (times the row's factor), the layer-normalisation body is the row's layer normalisation followed by the
  maximum with zero, and the gate body is the squeeze-and-excite gate of the normalised row plus the skip row.

  A narrowing format change is the identity on the extended reals, a shape cast to the same shape is the identity, a
  one-column block broadcast along the lanes reads its column at the row, a one-row block broadcast down the rows reads
  its row at the lane, and a lane sum is the sum over the lane coordinate.
-/
import proofs.«136372_j15109694947953_2_alg».proof.Proof.Gen.KernelIdeal.Skeleton
import proofs.«136372_j15109694947953_2_alg».proof.Proof.Spec
import proofs.«136372_j15109694947953_2_alg».proof.Proof.LibColumnLayout
import Idealize.ShloMosaic.PureOps.Ideal.Laws
import Idealize.ShloMosaic.Lib.ValueIdx
import Idealize.ShloMosaic.Lib.ValueLayout
import Idealize.ShloMosaic.Lib.Pipeline.Value

noncomputable section

namespace Cert.Gcn.Body

open Idealize.ShloMosaic Idealize.ShloMosaic.ValueIdx Idealize.ShloMosaic.ColumnLayout Cert.KernelIdeal Cert.KernelIdeal.Gen

variable [Cert.KernelIdeal.Facts]

/-! ## A matrix product into the zero constant, read at an index -/

/-- A product of a 2000 × 128 by a 128 × 128 matrix accumulated into the zero constant, read at (p, q):
    the sum over the contracted coordinate of the products of the entries. -/
theorem matmul_2000_128_128 {φ₁ φ₂ : FTy} (A : FVec Ideal S2000x128 φ₁) (B : FVec Ideal S128x128 φ₂) (p : Fin 2000) (q : Fin 128) :
    matmul dot_S2000x128_S128x128_S2000x128_1_0_0_1_n_n none A B (constant S2000x128 .f32 0x00000000#32) (ix2 p q)
      = ∑ k : Fin 128, A (ix2 p k) * B (ix2 k q) := by
  show FloatOps.matmul dot_S2000x128_S128x128_S2000x128_1_0_0_1_n_n none A B (constant S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have l0 : ∀ (i : S2000x128.Idx) (c : dot_S2000x128_S128x128_S2000x128_1_0_0_1_n_n.contr.Idx), (dot_S2000x128_S128x128_S2000x128_1_0_0_1_n_n.lhsIdx i c 0).val = (i 0).val := fun i c => by
    unfold DotDims.lhsIdx
    rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
    rfl
  have l1 : ∀ (i : S2000x128.Idx) (c : dot_S2000x128_S128x128_S2000x128_1_0_0_1_n_n.contr.Idx), (dot_S2000x128_S128x128_S2000x128_1_0_0_1_n_n.lhsIdx i c 1).val = (c ⟨0, by decide⟩).val := fun i c =>
    dot_S2000x128_S128x128_S2000x128_1_0_0_1_n_n.lhsIdx_val_of_single rfl i c
  have r0 : ∀ (i : S2000x128.Idx) (c : dot_S2000x128_S128x128_S2000x128_1_0_0_1_n_n.contr.Idx), (dot_S2000x128_S128x128_S2000x128_1_0_0_1_n_n.rhsIdx i c 0).val = (c ⟨0, by decide⟩).val := fun i c =>
    dot_S2000x128_S128x128_S2000x128_1_0_0_1_n_n.rhsIdx_val_of_single rfl i c
  have r1 : ∀ (i : S2000x128.Idx) (c : dot_S2000x128_S128x128_S2000x128_1_0_0_1_n_n.contr.Idx), (dot_S2000x128_S128x128_S2000x128_1_0_0_1_n_n.rhsIdx i c 1).val = (i 1).val := fun i c => by
    unfold DotDims.rhsIdx
    rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
    rfl
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact l0 _ _
    | ⟨1, _⟩ => exact (l1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (r0 _ _).trans hk
    | ⟨1, _⟩ => exact r1 _ _)
  rw [el, er]

/-- A product of a 2000 × 128 by a 128 × 16 matrix accumulated into the zero constant, read at (p, q):
    the sum over the contracted coordinate of the products of the entries. -/
theorem matmul_2000_128_16 {φ₁ φ₂ : FTy} (A : FVec Ideal S2000x128 φ₁) (B : FVec Ideal S128x16 φ₂) (p : Fin 2000) (q : Fin 16) :
    matmul dot_S2000x128_S128x16_S2000x16_1_0_0_1_n_n none A B (constant S2000x16 .f32 0x00000000#32) (ix2 p q)
      = ∑ k : Fin 128, A (ix2 p k) * B (ix2 k q) := by
  show FloatOps.matmul dot_S2000x128_S128x16_S2000x16_1_0_0_1_n_n none A B (constant S2000x16 .f32 0x00000000#32) (ix2 p q) = _
  rw [Ideal.matmul_constant_zero_apply, ← Equiv.sum_comp (contrEquiv1 dot_S2000x128_S128x16_S2000x16_1_0_0_1_n_n 128 rfl rfl).symm]
  refine Finset.sum_congr rfl fun k _ => ?_
  have hk := contrEquiv1_symm_val dot_S2000x128_S128x16_S2000x16_1_0_0_1_n_n 128 rfl rfl k
  have l0 : ∀ (i : S2000x16.Idx) (c : dot_S2000x128_S128x16_S2000x16_1_0_0_1_n_n.contr.Idx), (dot_S2000x128_S128x16_S2000x16_1_0_0_1_n_n.lhsIdx i c 0).val = (i 0).val := fun i c => by
    unfold DotDims.lhsIdx
    rw [dif_neg (show ¬(0 : Fin S2000x128.rank) ∈ dot_S2000x128_S128x16_S2000x16_1_0_0_1_n_n.lhsBatch by decide), dif_pos (show (0 : Fin S2000x128.rank) ∈ dot_S2000x128_S128x16_S2000x16_1_0_0_1_n_n.lhsNonContracting by decide)]
    rfl
  have l1 : ∀ (i : S2000x16.Idx) (c : dot_S2000x128_S128x16_S2000x16_1_0_0_1_n_n.contr.Idx), (dot_S2000x128_S128x16_S2000x16_1_0_0_1_n_n.lhsIdx i c 1).val = (c ⟨0, by decide⟩).val := fun i c =>
    dot_S2000x128_S128x16_S2000x16_1_0_0_1_n_n.lhsIdx_val_of_single rfl i c
  have r0 : ∀ (i : S2000x16.Idx) (c : dot_S2000x128_S128x16_S2000x16_1_0_0_1_n_n.contr.Idx), (dot_S2000x128_S128x16_S2000x16_1_0_0_1_n_n.rhsIdx i c 0).val = (c ⟨0, by decide⟩).val := fun i c =>
    dot_S2000x128_S128x16_S2000x16_1_0_0_1_n_n.rhsIdx_val_of_single rfl i c
  have r1 : ∀ (i : S2000x16.Idx) (c : dot_S2000x128_S128x16_S2000x16_1_0_0_1_n_n.contr.Idx), (dot_S2000x128_S128x16_S2000x16_1_0_0_1_n_n.rhsIdx i c 1).val = (i 1).val := fun i c => by
    unfold DotDims.rhsIdx
    rw [dif_neg (show ¬(1 : Fin S128x16.rank) ∈ dot_S2000x128_S128x16_S2000x16_1_0_0_1_n_n.rhsBatch by decide), dif_pos (show (1 : Fin S128x16.rank) ∈ dot_S2000x128_S128x16_S2000x16_1_0_0_1_n_n.rhsNonContracting by decide)]
    rfl
  have el : dot_S2000x128_S128x16_S2000x16_1_0_0_1_n_n.lhsIdx (ix2 p q) ((contrEquiv1 dot_S2000x128_S128x16_S2000x16_1_0_0_1_n_n 128 rfl rfl).symm k) = ix2 p k := funext fun a => Fin.ext (by
    match a with
    | ⟨0, _⟩ => exact l0 _ _
    | ⟨1, _⟩ => exact (l1 _ _).trans hk)
  have er : dot_S2000x128_S128x16_S2000x16_1_0_0_1_n_n.rhsIdx (ix2 p q) ((contrEquiv1 dot_S2000x128_S128x16_S2000x16_1_0_0_1_n_n 128 rfl rfl).symm k) = ix2 k q := funext fun a => Fin.ext (by
    match a with
    | ⟨0, _⟩ => exact (r0 _ _).trans hk
    | ⟨1, _⟩ => exact r1 _ _)
  rw [el, er]

/-- A product of a 2000 × 16 by a 16 × 128 matrix accumulated into the zero constant, read at (p, q):
    the sum over the contracted coordinate of the products of the entries. -/
theorem matmul_2000_16_128 {φ₁ φ₂ : FTy} (A : FVec Ideal S2000x16 φ₁) (B : FVec Ideal S16x128 φ₂) (p : Fin 2000) (q : Fin 128) :
    matmul dot_S2000x16_S16x128_S2000x128_1_0_0_1_n_n none A B (constant S2000x128 .f32 0x00000000#32) (ix2 p q)
      = ∑ k : Fin 16, A (ix2 p k) * B (ix2 k q) := by
  show FloatOps.matmul dot_S2000x16_S16x128_S2000x128_1_0_0_1_n_n none A B (constant S2000x128 .f32 0x00000000#32) (ix2 p q) = _
  rw [Ideal.matmul_constant_zero_apply, ← Equiv.sum_comp (contrEquiv1 dot_S2000x16_S16x128_S2000x128_1_0_0_1_n_n 16 rfl rfl).symm]
  refine Finset.sum_congr rfl fun k _ => ?_
  have hk := contrEquiv1_symm_val dot_S2000x16_S16x128_S2000x128_1_0_0_1_n_n 16 rfl rfl k
  have l0 : ∀ (i : S2000x128.Idx) (c : dot_S2000x16_S16x128_S2000x128_1_0_0_1_n_n.contr.Idx), (dot_S2000x16_S16x128_S2000x128_1_0_0_1_n_n.lhsIdx i c 0).val = (i 0).val := fun i c => by
    unfold DotDims.lhsIdx
    rw [dif_neg (show ¬(0 : Fin S2000x16.rank) ∈ dot_S2000x16_S16x128_S2000x128_1_0_0_1_n_n.lhsBatch by decide), dif_pos (show (0 : Fin S2000x16.rank) ∈ dot_S2000x16_S16x128_S2000x128_1_0_0_1_n_n.lhsNonContracting by decide)]
    rfl
  have l1 : ∀ (i : S2000x128.Idx) (c : dot_S2000x16_S16x128_S2000x128_1_0_0_1_n_n.contr.Idx), (dot_S2000x16_S16x128_S2000x128_1_0_0_1_n_n.lhsIdx i c 1).val = (c ⟨0, by decide⟩).val := fun i c =>
    dot_S2000x16_S16x128_S2000x128_1_0_0_1_n_n.lhsIdx_val_of_single rfl i c
  have r0 : ∀ (i : S2000x128.Idx) (c : dot_S2000x16_S16x128_S2000x128_1_0_0_1_n_n.contr.Idx), (dot_S2000x16_S16x128_S2000x128_1_0_0_1_n_n.rhsIdx i c 0).val = (c ⟨0, by decide⟩).val := fun i c =>
    dot_S2000x16_S16x128_S2000x128_1_0_0_1_n_n.rhsIdx_val_of_single rfl i c
  have r1 : ∀ (i : S2000x128.Idx) (c : dot_S2000x16_S16x128_S2000x128_1_0_0_1_n_n.contr.Idx), (dot_S2000x16_S16x128_S2000x128_1_0_0_1_n_n.rhsIdx i c 1).val = (i 1).val := fun i c => by
    unfold DotDims.rhsIdx
    rw [dif_neg (show ¬(1 : Fin S16x128.rank) ∈ dot_S2000x16_S16x128_S2000x128_1_0_0_1_n_n.rhsBatch by decide), dif_pos (show (1 : Fin S16x128.rank) ∈ dot_S2000x16_S16x128_S2000x128_1_0_0_1_n_n.rhsNonContracting by decide)]
    rfl
  have el : dot_S2000x16_S16x128_S2000x128_1_0_0_1_n_n.lhsIdx (ix2 p q) ((contrEquiv1 dot_S2000x16_S16x128_S2000x128_1_0_0_1_n_n 16 rfl rfl).symm k) = ix2 p k := funext fun a => Fin.ext (by
    match a with
    | ⟨0, _⟩ => exact l0 _ _
    | ⟨1, _⟩ => exact (l1 _ _).trans hk)
  have er : dot_S2000x16_S16x128_S2000x128_1_0_0_1_n_n.rhsIdx (ix2 p q) ((contrEquiv1 dot_S2000x16_S16x128_S2000x128_1_0_0_1_n_n 16 rfl rfl).symm k) = ix2 k q := funext fun a => Fin.ext (by
    match a with
    | ⟨0, _⟩ => exact (r0 _ _).trans hk
    | ⟨1, _⟩ => exact r1 _ _)
  rw [el, er]

/-! ## The two matrix-product kernels -/

theorem pay_times (v0 : Vec Ideal S2000x128 .f32) (v2 : Vec Ideal S128x128 .f32) (p : Fin 2000) (q : Fin 128) :
    k0_pay1 (F := Ideal) v0 v2 (ix2 p q) = ∑ k : Fin 128, v0 (ix2 p k) * v2 (ix2 k q) :=
  matmul_2000_128_128 (truncf .bf16 v0 bitsLt_bf16_f32) (truncf .bf16 v2 bitsLt_bf16_f32) p q

theorem pay_times_scaled (v0 : Vec Ideal S2000x128 .f32) (v2 : Vec Ideal S128x128 .f32) (v6 : Vec Ideal S2000x1 .f32)
    (p : Fin 2000) (q : Fin 128) :
    k0_pay2 (F := Ideal) v0 v2 v6 (ix2 p q) = (∑ k : Fin 128, v0 (ix2 p k) * v2 (ix2 k q)) * v6 (ix2 p (0 : Fin 1)) := by
  show k0_pay1 (F := Ideal) v0 v2 (ix2 p q)
      * broadcastTo S2000x128 (shapeCast S2000x1 v6 shapeCasts_S2000x1_S2000x1) broadcasts_S2000x1_S2000x128 (ix2 p q) = _
  rw [pay_times, broadcastTo_a1_ab_apply, shapeCast_self]

theorem pay_times' (v0 : Vec Ideal S2000x128 .f32) (v3 : Vec Ideal S128x128 .f32) (p : Fin 2000) (q : Fin 128) :
    k2_pay1 (F := Ideal) v0 v3 (ix2 p q) = ∑ k : Fin 128, v0 (ix2 p k) * v3 (ix2 k q) := by
  refine (matmul_2000_128_128 (truncf .bf16 (shapeCast S2000x128 v0 shapeCasts_S2000x128_S2000x128) bitsLt_bf16_f32)
    (truncf .bf16 v3 bitsLt_bf16_f32) p q).trans ?_
  show ∑ k : Fin 128, shapeCast S2000x128 v0 shapeCasts_S2000x128_S2000x128 (ix2 p k) * v3 (ix2 k q) = _
  rw [shapeCast_self]

theorem pay_times_scaled' (v0 : Vec Ideal S2000x128 .f32) (v3 : Vec Ideal S128x128 .f32) (v7 : Vec Ideal S2000x1 .f32)
    (p : Fin 2000) (q : Fin 128) :
    k2_pay2 (F := Ideal) v0 v3 v7 (ix2 p q) = (∑ k : Fin 128, v0 (ix2 p k) * v3 (ix2 k q)) * v7 (ix2 p (0 : Fin 1)) := by
  show k2_pay1 (F := Ideal) v0 v3 (ix2 p q)
      * broadcastTo S2000x128 (shapeCast S2000x1 v7 shapeCasts_S2000x1_S2000x1) broadcasts_S2000x1_S2000x128 (ix2 p q) = _
  rw [pay_times', broadcastTo_a1_ab_apply, shapeCast_self]

/-! ## Layer normalisation of the rows of a 2000 × 128 block -/

/-- The index a lane reduction inserts at row p and lane k is (p, k). -/
theorem lift_row (p : Fin 2000) (k : Fin 128) : reduces_S2000x128_S2000.lift (ix1 p) k = ix2 p k :=
  funext fun a => Fin.ext (by
    match a with
    | ⟨0, _⟩ => rfl
    | ⟨1, _⟩ => rfl)

/-- The lane sums of a block divided by 128, kept as a column. -/
def meanCol (x : FVec Ideal S2000x128 .f32) : FVec Ideal S2000x1 .f32 :=
  divf (shapeCast S2000x1 (multiReduction .add [1] S2000 x 0x00000000#32 reduces_S2000x128_S2000 (.inl rfl) rfl) shapeCasts_S2000_S2000x1)
    (broadcast S2000x1 (Scalar.ofBits .f32 0x43000000#32))

/-- The column of row means reads, at row p, the mean of that row. -/
theorem meanCol_apply (x : FVec Ideal S2000x128 .f32) (p : Fin 2000) :
    meanCol x (ix2 p (0 : Fin 1)) = Cert.Gcn.meanRow (fun k => x (ix2 p k)) := by
  have h1 : shapeCast S2000x1 (multiReduction .add [1] S2000 x 0x00000000#32 reduces_S2000x128_S2000 (.inl rfl) rfl) shapeCasts_S2000_S2000x1
      (ix2 p (0 : Fin 1)) = ∑ k : Fin 128, x (ix2 p k) :=
    (shapeCast_a_a1_apply _ _ p 0).trans
      ((Ideal.multiReduction_add_single x _ reduces_S2000x128_S2000 _ _ (ix1 p)).trans
        (Finset.sum_congr rfl fun k _ => congrArg x (lift_row p k)))
  exact congrArg (Ideal.div · Cert.Gcn.c128) h1

/-- The block minus its row means. -/
def centred (x : FVec Ideal S2000x128 .f32) : FVec Ideal S2000x128 .f32 :=
  subf x (broadcastTo S2000x128 (meanCol x) broadcasts_S2000x1_S2000x128)

theorem centred_apply (x : FVec Ideal S2000x128 .f32) (p : Fin 2000) (q : Fin 128) :
    centred x (ix2 p q) = x (ix2 p q) - Cert.Gcn.meanRow (fun k => x (ix2 p k)) := by
  unfold centred
  rw [subf_apply, broadcastTo_a1_ab_apply, meanCol_apply]

/-- The reciprocal square root of the row variances plus the floor, as a column. -/
def rstdCol (x : FVec Ideal S2000x128 .f32) : FVec Ideal S2000x1 .f32 :=
  rsqrt (addf (meanCol (mulf (centred x) (centred x))) (broadcast S2000x1 (Scalar.ofBits .f32 0x3727C5AC#32)))

theorem rstdCol_apply (x : FVec Ideal S2000x128 .f32) (p : Fin 2000) :
    rstdCol x (ix2 p (0 : Fin 1)) = Ideal.rsqrt (Cert.Gcn.varRow (fun k => x (ix2 p k)) + Cert.Gcn.epsW) := by
  show Ideal.rsqrt (meanCol (mulf (centred x) (centred x)) (ix2 p (0 : Fin 1)) + Cert.Gcn.epsW) = _
  rw [meanCol_apply]
  have h : (fun k => mulf (centred x) (centred x) (ix2 p k))
      = fun k : Fin 128 => (x (ix2 p k) - Cert.Gcn.meanRow (fun k => x (ix2 p k))) * (x (ix2 p k) - Cert.Gcn.meanRow (fun k => x (ix2 p k))) :=
    funext fun k => by rw [mulf_apply, centred_apply]
  rw [h]
  rfl

/-- The normalised block times the scale row. -/
def lnScaled (x : FVec Ideal S2000x128 .f32) (g : Vec Ideal S1x128 .f32) : FVec Ideal S2000x128 .f32 :=
  mulf (mulf (centred x) (broadcastTo S2000x128 (rstdCol x) broadcasts_S2000x1_S2000x128))
    (broadcastTo S2000x128 (shapeCast S1x128 g shapeCasts_S1x128_S1x128) broadcasts_S1x128_S2000x128)

theorem lnScaled_apply (x : FVec Ideal S2000x128 .f32) (g : Vec Ideal S1x128 .f32) (p : Fin 2000) (q : Fin 128) :
    lnScaled x g (ix2 p q)
      = ((x (ix2 p q) - Cert.Gcn.meanRow (fun k => x (ix2 p k)))
          * Ideal.rsqrt (Cert.Gcn.varRow (fun k => x (ix2 p k)) + Cert.Gcn.epsW)) * g (ix2 (0 : Fin 1) q) := by
  unfold lnScaled
  rw [mulf_apply, mulf_apply, centred_apply, broadcastTo_a1_ab_apply, rstdCol_apply, broadcastTo_1b_ab_apply, shapeCast_self]

/-- The shift row broadcast down the block. -/
theorem shift_apply (b : Vec Ideal S1x128 .f32) (p : Fin 2000) (q : Fin 128) :
    broadcastTo S2000x128 (shapeCast S1x128 b shapeCasts_S1x128_S1x128) broadcasts_S1x128_S2000x128 (ix2 p q) = b (ix2 (0 : Fin 1) q) := by
  rw [broadcastTo_1b_ab_apply, shapeCast_self]

/-- The pre-activation block: two blocks scaled by their columns, added, plus the bias row. -/
def pre (v0 : Vec Ideal S2000x1 .f32) (v2 : Vec Ideal S2000x128 .f32) (v6 : Vec Ideal S2000x1 .f32) (v8 : Vec Ideal S2000x128 .f32)
    (v13 : Vec Ideal S1x128 .f32) : FVec Ideal S2000x128 .f32 :=
  addf (addf (mulf (broadcastTo S2000x128 (shapeCast S2000x1 v0 shapeCasts_S2000x1_S2000x1) broadcasts_S2000x1_S2000x128)
                (shapeCast S2000x128 v2 shapeCasts_S2000x128_S2000x128))
          (mulf (broadcastTo S2000x128 (shapeCast S2000x1 v6 shapeCasts_S2000x1_S2000x1) broadcasts_S2000x1_S2000x128)
                (shapeCast S2000x128 v8 shapeCasts_S2000x128_S2000x128)))
    (broadcastTo S2000x128 (shapeCast S1x128 v13 shapeCasts_S1x128_S1x128) broadcasts_S1x128_S2000x128)

theorem pre_apply (v0 : Vec Ideal S2000x1 .f32) (v2 : Vec Ideal S2000x128 .f32) (v6 : Vec Ideal S2000x1 .f32) (v8 : Vec Ideal S2000x128 .f32)
    (v13 : Vec Ideal S1x128 .f32) (p : Fin 2000) (k : Fin 128) :
    pre v0 v2 v6 v8 v13 (ix2 p k)
      = (v0 (ix2 p (0 : Fin 1)) * v2 (ix2 p k) + v6 (ix2 p (0 : Fin 1)) * v8 (ix2 p k)) + v13 (ix2 (0 : Fin 1) k) := by
  unfold pre
  rw [addf_apply, addf_apply, mulf_apply, mulf_apply, shift_apply, broadcastTo_a1_ab_apply, broadcastTo_a1_ab_apply,
    shapeCast_self, shapeCast_self, shapeCast_self, shapeCast_self]

theorem k1_pay2_eq (v0 : Vec Ideal S2000x1 .f32) (v2 : Vec Ideal S2000x128 .f32) (v6 : Vec Ideal S2000x1 .f32) (v8 : Vec Ideal S2000x128 .f32)
    (v13 v33 : Vec Ideal S1x128 .f32) :
    k1_pay2 (F := Ideal) v0 v2 v6 v8 v13 v33 = lnScaled (pre v0 v2 v6 v8 v13) v33 := rfl

theorem k3_pay2_eq (v0 : Vec Ideal S2000x1 .f32) (v2 : Vec Ideal S2000x128 .f32) (v6 : Vec Ideal S2000x1 .f32) (v8 : Vec Ideal S2000x128 .f32)
    (v13 v33 : Vec Ideal S1x128 .f32) :
    k3_pay2 (F := Ideal) v0 v2 v6 v8 v13 v33 = lnScaled (pre v0 v2 v6 v8 v13) v33 := rfl

/-- The normalised, scaled and shifted pre-activation at (p, q) is the row's layer normalisation. -/
theorem ln_apply (v0 : Vec Ideal S2000x1 .f32) (v2 : Vec Ideal S2000x128 .f32) (v6 : Vec Ideal S2000x1 .f32) (v8 : Vec Ideal S2000x128 .f32)
    (v13 v33 v37 : Vec Ideal S1x128 .f32) (p : Fin 2000) (q : Fin 128) :
    addf (lnScaled (pre v0 v2 v6 v8 v13) v33)
        (broadcastTo S2000x128 (shapeCast S1x128 v37 shapeCasts_S1x128_S1x128) broadcasts_S1x128_S2000x128) (ix2 p q)
      = Cert.Gcn.lnRow (fun k => (v0 (ix2 p (0 : Fin 1)) * v2 (ix2 p k) + v6 (ix2 p (0 : Fin 1)) * v8 (ix2 p k)) + v13 (ix2 (0 : Fin 1) k))
          (fun k => v33 (ix2 (0 : Fin 1) k)) (fun k => v37 (ix2 (0 : Fin 1) k)) q := by
  rw [addf_apply, lnScaled_apply, shift_apply]
  have h : (fun k => pre v0 v2 v6 v8 v13 (ix2 p k))
      = fun k : Fin 128 => (v0 (ix2 p (0 : Fin 1)) * v2 (ix2 p k) + v6 (ix2 p (0 : Fin 1)) * v8 (ix2 p k)) + v13 (ix2 (0 : Fin 1) k) :=
    funext fun k => pre_apply v0 v2 v6 v8 v13 p k
  rw [h, pre_apply]
  rfl

theorem pay_ln (v0 : Vec Ideal S2000x1 .f32) (v2 : Vec Ideal S2000x128 .f32) (v6 : Vec Ideal S2000x1 .f32) (v8 : Vec Ideal S2000x128 .f32)
    (v13 v33 v37 : Vec Ideal S1x128 .f32) (p : Fin 2000) (q : Fin 128) :
    k1_pay1 (F := Ideal) (k1_pay2 v0 v2 v6 v8 v13 v33) (k1_pay3 v37) (ix2 p q)
      = max (Cert.Gcn.lnRow (fun k => (v0 (ix2 p (0 : Fin 1)) * v2 (ix2 p k) + v6 (ix2 p (0 : Fin 1)) * v8 (ix2 p k)) + v13 (ix2 (0 : Fin 1) k))
          (fun k => v33 (ix2 (0 : Fin 1) k)) (fun k => v37 (ix2 (0 : Fin 1) k)) q) Cert.Gcn.zeroW := by
  rw [k1_pay2_eq]
  show max (addf (lnScaled (pre v0 v2 v6 v8 v13) v33)
        (broadcastTo S2000x128 (shapeCast S1x128 v37 shapeCasts_S1x128_S1x128) broadcasts_S1x128_S2000x128) (ix2 p q)) Cert.Gcn.zeroW = _
  rw [ln_apply]

/-! ## The squeeze-and-excite gate and the residual -/

/-- The squeeze: the block times a 128 × 16 matrix, plus a bias row, maximum with zero. -/
def squeeze (h : FVec Ideal S2000x128 .f32) (v42 : Vec Ideal S128x16 .f32) (v45 : Vec Ideal S1x16 .f32) : FVec Ideal S2000x16 .f32 :=
  maximumf
    (addf (matmul dot_S2000x128_S128x16_S2000x16_1_0_0_1_n_n none (truncf .bf16 h bitsLt_bf16_f32) (truncf .bf16 v42 bitsLt_bf16_f32)
            (constant S2000x16 .f32 0x00000000#32))
      (broadcastTo S2000x16 (shapeCast S1x16 v45 shapeCasts_S1x16_S1x16) broadcasts_S1x16_S2000x16))
    (broadcast S2000x16 (Scalar.ofBits .f32 0x00000000#32))

theorem squeeze_apply (h : FVec Ideal S2000x128 .f32) (v42 : Vec Ideal S128x16 .f32) (v45 : Vec Ideal S1x16 .f32)
    (p : Fin 2000) (j : Fin 16) :
    squeeze h v42 v45 (ix2 p j)
      = max (Cert.Gcn.rowTimes (fun k => h (ix2 p k)) (fun k j => v42 (ix2 k j)) j + v45 (ix2 (0 : Fin 1) j)) Cert.Gcn.zeroW := by
  show max (matmul dot_S2000x128_S128x16_S2000x16_1_0_0_1_n_n none (truncf .bf16 h bitsLt_bf16_f32) (truncf .bf16 v42 bitsLt_bf16_f32)
            (constant S2000x16 .f32 0x00000000#32) (ix2 p j)
      + broadcastTo S2000x16 (shapeCast S1x16 v45 shapeCasts_S1x16_S1x16) broadcasts_S1x16_S2000x16 (ix2 p j)) Cert.Gcn.zeroW = _
  rw [matmul_2000_128_16, broadcastTo_1b_ab_apply, shapeCast_self]
  rfl

/-- The gate: the squeeze times a 16 × 128 matrix, plus a bias row, through the logistic function; the block times it,
    plus the skip block, maximum with zero. -/
def gate (h : FVec Ideal S2000x128 .f32) (v42 : Vec Ideal S128x16 .f32) (v45 : Vec Ideal S1x16 .f32) (v52 : Vec Ideal S16x128 .f32)
    (v55 : Vec Ideal S1x128 .f32) (v61 : Vec Ideal S2000x128 .f32) : FVec Ideal S2000x128 .f32 :=
  maximumf
    (addf
      (mulf h
        (logistic
          (addf (matmul dot_S2000x16_S16x128_S2000x128_1_0_0_1_n_n none (truncf .bf16 (squeeze h v42 v45) bitsLt_bf16_f32)
                  (truncf .bf16 v52 bitsLt_bf16_f32) (constant S2000x128 .f32 0x00000000#32))
            (broadcastTo S2000x128 (shapeCast S1x128 v55 shapeCasts_S1x128_S1x128) broadcasts_S1x128_S2000x128))))
      v61)
    (broadcast S2000x128 (Scalar.ofBits .f32 0x00000000#32))

theorem gate_apply (h : FVec Ideal S2000x128 .f32) (v42 : Vec Ideal S128x16 .f32) (v45 : Vec Ideal S1x16 .f32) (v52 : Vec Ideal S16x128 .f32)
    (v55 : Vec Ideal S1x128 .f32) (v61 : Vec Ideal S2000x128 .f32) (p : Fin 2000) (q : Fin 128) :
    gate h v42 v45 v52 v55 v61 (ix2 p q)
      = Cert.Gcn.gateRow (fun k => h (ix2 p k)) (fun k j => v42 (ix2 k j)) (fun j => v45 (ix2 (0 : Fin 1) j))
          (fun j q' => v52 (ix2 j q')) (fun q' => v55 (ix2 (0 : Fin 1) q')) (fun k => v61 (ix2 p k)) q := by
  show max (h (ix2 p q) * Ideal.logistic
        (matmul dot_S2000x16_S16x128_S2000x128_1_0_0_1_n_n none (truncf .bf16 (squeeze h v42 v45) bitsLt_bf16_f32)
            (truncf .bf16 v52 bitsLt_bf16_f32) (constant S2000x128 .f32 0x00000000#32) (ix2 p q)
          + broadcastTo S2000x128 (shapeCast S1x128 v55 shapeCasts_S1x128_S1x128) broadcasts_S1x128_S2000x128 (ix2 p q))
      + v61 (ix2 p q)) Cert.Gcn.zeroW = _
  rw [matmul_2000_16_128, shift_apply]
  have hs : (∑ j : Fin 16, truncf .bf16 (squeeze h v42 v45) bitsLt_bf16_f32 (ix2 p j) * truncf .bf16 v52 bitsLt_bf16_f32 (ix2 j q))
      = ∑ j : Fin 16, max (Cert.Gcn.rowTimes (fun k => h (ix2 p k)) (fun k j => v42 (ix2 k j)) j + v45 (ix2 (0 : Fin 1) j)) Cert.Gcn.zeroW
          * v52 (ix2 j q) :=
    Finset.sum_congr rfl fun j _ => congrArg (· * v52 (ix2 j q)) (squeeze_apply h v42 v45 p j)
  rw [hs]
  rfl

theorem k3_pay1_eq (v36 v39 : FVec Ideal S2000x128 .f32) (v42 : Vec Ideal S128x16 .f32) (v45 : Vec Ideal S1x16 .f32)
    (v52 : Vec Ideal S16x128 .f32) (v55 : Vec Ideal S1x128 .f32) (v61 : Vec Ideal S2000x128 .f32) :
    k3_pay1 (F := Ideal) v36 v39 v42 v45 v52 v55 v61 = gate (addf v36 v39) v42 v45 v52 v55 v61 := rfl

theorem pay_gate (v0 : Vec Ideal S2000x1 .f32) (v2 : Vec Ideal S2000x128 .f32) (v6 : Vec Ideal S2000x1 .f32) (v8 : Vec Ideal S2000x128 .f32)
    (v13 v33 v37 : Vec Ideal S1x128 .f32) (v42 : Vec Ideal S128x16 .f32) (v45 : Vec Ideal S1x16 .f32) (v52 : Vec Ideal S16x128 .f32)
    (v55 : Vec Ideal S1x128 .f32) (v61 : Vec Ideal S2000x128 .f32) (p : Fin 2000) (q : Fin 128) :
    k3_pay1 (F := Ideal) (k3_pay2 v0 v2 v6 v8 v13 v33) (k3_pay3 v37) v42 v45 v52 v55 v61 (ix2 p q)
      = Cert.Gcn.gateRow (Cert.Gcn.lnRow (fun k => (v0 (ix2 p (0 : Fin 1)) * v2 (ix2 p k) + v6 (ix2 p (0 : Fin 1)) * v8 (ix2 p k)) + v13 (ix2 (0 : Fin 1) k))
            (fun k => v33 (ix2 (0 : Fin 1) k)) (fun k => v37 (ix2 (0 : Fin 1) k)))
          (fun k j => v42 (ix2 k j)) (fun j => v45 (ix2 (0 : Fin 1) j)) (fun j q' => v52 (ix2 j q')) (fun q' => v55 (ix2 (0 : Fin 1) q'))
          (fun k => v61 (ix2 p k)) q := by
  rw [k3_pay1_eq, k3_pay2_eq, gate_apply]
  have h : (fun k => addf (lnScaled (pre v0 v2 v6 v8 v13) v33) (k3_pay3 (F := Ideal) v37) (ix2 p k))
      = Cert.Gcn.lnRow (fun k => (v0 (ix2 p (0 : Fin 1)) * v2 (ix2 p k) + v6 (ix2 p (0 : Fin 1)) * v8 (ix2 p k)) + v13 (ix2 (0 : Fin 1) k))
            (fun k => v33 (ix2 (0 : Fin 1) k)) (fun k => v37 (ix2 (0 : Fin 1) k)) :=
    funext fun k => ln_apply v0 v2 v6 v8 v13 v33 v37 p k
  rw [h]

end Cert.Gcn.Body

end
-- ==== Proof.Region0.lean ====
/-
  Region 0 of the idealized kernel (a row-blocked matrix product and its product with a per-row factor), read as
  whole arrays.

  The grid has 25 points; point `t` takes rows `2000·t … 2000·t + 1999` of the [50000,128] operand, the whole
  [128,128] weight and the same rows of the [50000,1] column, and writes the same rows of both outputs. A row of a
  product is the product of the row, so block `t` of each output is block `t` of one whole-array function, and the 25
  blocks tile the 50000 rows: the outputs end holding `x · w` and `(x · w) · column`, whatever the region found in
  its buffers on entry (`V`).
-/
import proofs.«136372_j15109694947953_2_alg».proof.Proof.Gen.KernelIdeal.Frame
import proofs.«136372_j15109694947953_2_alg».proof.Proof.Spec
import Idealize.ShloMosaic.Lib.Pipeline.Value
import Idealize.ShloMosaic.PureOps.Ideal.Laws
import proofs.«136372_j15109694947953_2_alg».proof.Proof.Bodies

set_option maxRecDepth 16384

noncomputable section

namespace Cert.Gcn.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The rows' product scaled by a per-row factor kept as a column. -/
def scaled (x : Cert.Gcn.SN.Idx → EReal) (w : Cert.Gcn.SDD.Idx → EReal) (d : (⟨2, ![50000, 1]⟩ : Shape).Idx → EReal) :
    Cert.Gcn.SN.Idx → EReal :=
  fun i => Cert.Gcn.times x w i * d (ix2 (i 0 : Fin 50000) (0 : Fin 1))

/-- The printed index maps over the grid: the row-blocked windows sit at block row `t`, block column 0; the weight
    at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to output window 3 is block `t` of `x · w`. -/
theorem flushed_3_eq (c : Dev nD) (t : Fin cfg0.N) :
    (dat0 V c).flushed 3 t = ((cfg0.win 3).blk t).view.read (Elt Ideal)
      (Cert.Gcn.times (V c main_arg0) (V c main_arg2)) := by
  show (cfg0.win 3).cut (grid0.coords t) ((dat0 V c).after 3 t) = _
  rw [after0_3]
  unfold out0_3
  rw [View.canon_unit_zero hz]
  simp only [View.ld_unit_zero (S := S2000x128) hz, View.ld_unit_zero (S := S128x128) hz]
  obtain ⟨e00, e01, e10, e11, e20, e21, e30, e31, e40, e41⟩ := idx_facts t
  funext j
  obtain ⟨p, q, rfl⟩ : ∃ (p : Fin 2000) (q : Fin 128), j = ix2 p q := ⟨j 0, j 1, eq_ix2 j⟩
  have hx : ∀ k : Fin 128, iblk0 V c 0 t (ix2 p k)
      = V c main_arg0 (ix2 ((((cfg0.win 3).blk t).view.emb (ix2 p q)) 0 : Fin 50000) k) := fun k => by
    show V c main_arg0 (((cfg0.win 0).blk t).view.emb (ix2 p k)) = V c main_arg0 _
    refine congrArg (V c main_arg0) ?_
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  have hw : ∀ k : Fin 128, iblk0 V c 1 t (ix2 k q)
      = V c main_arg2 (ix2 k ((((cfg0.win 3).blk t).view.emb (ix2 p q)) 1 : Fin 128)) := fun k => by
    show V c main_arg2 (((cfg0.win 1).blk t).view.emb (ix2 k q)) = V c main_arg2 _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  refine (Cert.Gcn.Body.pay_times (iblk0 V c 0 t) (iblk0 V c 1 t) p q).trans ?_
  rw [Finset.sum_congr rfl fun k _ => by rw [hx k, hw k]]
  rfl

/-- An index of the array is in point `t`'s block of output window 3 iff each coordinate is in the block's range. -/
theorem mem_blk_3 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v19_0).slice (win0_3.rect t)).set ↔ _
  rw [View.set_slice_whole, Rect.mem_set_unit]
  exact Iff.rfl

/-- Every index of the array is in some point's block: row `r` is in block `r / 2000`. -/
theorem cover_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_3 _, ?_⟩
  rw [mem_blk_3]
  obtain ⟨e00, e01, e10, e11, e20, e21, e30, e31, e40, e41⟩ := idx_facts ⟨(i 0).val / 2000, by rw [hN]; omega⟩
  intro a
  match a with
  | ⟨0, _⟩ => show win0_3.index _ (0 : Fin 2) * 2000 ≤ (i 0).val ∧ (i 0).val < win0_3.index _ (0 : Fin 2) * 2000 + 2000; rw [e30]; show (i 0).val / 2000 * 2000 ≤ (i 0).val ∧ (i 0).val < (i 0).val / 2000 * 2000 + 2000; omega
  | ⟨1, _⟩ => show win0_3.index _ (1 : Fin 2) * 128 ≤ (i 1).val ∧ (i 1).val < win0_3.index _ (1 : Fin 2) * 128 + 128; rw [e31]; omega

/-- Output window 3's array after the region. -/
theorem final_3 (c : Dev nD) : (dat0 V c).arrAt 3 cfg0.N
    = Cert.Gcn.times (V c main_arg0) (V c main_arg2) :=
  (dat0 V c).arrAt_eq_of_cover 3 _ (fun t _ => flushed_3_eq V c t) (cover_3)

/-- What point `t` writes back to output window 4 is block `t` of `(x · w) · column`. -/
theorem flushed_4_eq (c : Dev nD) (t : Fin cfg0.N) :
    (dat0 V c).flushed 4 t = ((cfg0.win 4).blk t).view.read (Elt Ideal)
      (scaled (V c main_arg0) (V c main_arg2) (V c main_v14)) := by
  show (cfg0.win 4).cut (grid0.coords t) ((dat0 V c).after 4 t) = _
  rw [after0_4]
  unfold out0_4
  rw [View.canon_unit_zero hz]
  simp only [View.ld_unit_zero (S := S2000x128) hz, View.ld_unit_zero (S := S128x128) hz, View.ld_unit_zero (S := S2000x1) hz]
  obtain ⟨e00, e01, e10, e11, e20, e21, e30, e31, e40, e41⟩ := idx_facts t
  funext j
  obtain ⟨p, q, rfl⟩ : ∃ (p : Fin 2000) (q : Fin 128), j = ix2 p q := ⟨j 0, j 1, eq_ix2 j⟩
  have hx : ∀ k : Fin 128, iblk0 V c 0 t (ix2 p k)
      = V c main_arg0 (ix2 ((((cfg0.win 4).blk t).view.emb (ix2 p q)) 0 : Fin 50000) k) := fun k => by
    show V c main_arg0 (((cfg0.win 0).blk t).view.emb (ix2 p k)) = V c main_arg0 _
    refine congrArg (V c main_arg0) ?_
    funext a; apply Fin.ext
    match a with
    | ⟨0, _⟩ => show win0_0.index t (0 : Fin 2) * 2000 + 1 * p.val = win0_4.index t (0 : Fin 2) * 2000 + 1 * p.val; omega
    | ⟨1, _⟩ => show win0_0.index t (1 : Fin 2) * 128 + 1 * k.val = k.val; omega
  have hw : ∀ k : Fin 128, iblk0 V c 1 t (ix2 k q)
      = V c main_arg2 (ix2 k ((((cfg0.win 4).blk t).view.emb (ix2 p q)) 1 : Fin 128)) := fun k => by
    show V c main_arg2 (((cfg0.win 1).blk t).view.emb (ix2 k q)) = V c main_arg2 _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 128 + 1 * q.val = win0_4.index t (1 : Fin 2) * 128 + 1 * q.val; omega
  have hd : iblk0 V c 2 t (ix2 p (0 : Fin 1))
      = V c main_v14 (ix2 ((((cfg0.win 4).blk t).view.emb (ix2 p q)) 0 : Fin 50000) (0 : Fin 1)) := by
    show V c main_v14 (((cfg0.win 2).blk t).view.emb (ix2 p (0 : Fin 1))) = V c main_v14 _
    refine congrArg (V c main_v14) ?_
    funext a; apply Fin.ext
    match a with
    | ⟨0, _⟩ => show win0_2.index t (0 : Fin 2) * 2000 + 1 * p.val = win0_4.index t (0 : Fin 2) * 2000 + 1 * p.val; omega
    | ⟨1, _⟩ => show win0_2.index t (1 : Fin 2) * 1 + 1 * 0 = 0; omega
  refine (Cert.Gcn.Body.pay_times_scaled (iblk0 V c 0 t) (iblk0 V c 1 t) (iblk0 V c 2 t) p q).trans ?_
  rw [hd, Finset.sum_congr rfl fun k _ => by rw [hx k, hw k]]
  rfl

/-- An index of the array is in point `t`'s block of output window 4 iff each coordinate is in the block's range. -/
theorem mem_blk_4 (t : Fin cfg0.N) (i : S50000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v19_1).slice (win0_4.rect t)).set ↔ _
  rw [View.set_slice_whole, Rect.mem_set_unit]
  exact Iff.rfl

/-- Every index of the array is in some point's block: row `r` is in block `r / 2000`. -/
theorem cover_4 (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 25 := N_0
  refine ⟨⟨(i 0).val / 2000, by rw [hN]; omega⟩, flush0_4 _, ?_⟩
  rw [mem_blk_4]
  obtain ⟨e00, e01, e10, e11, e20, e21, e30, e31, e40, e41⟩ := idx_facts ⟨(i 0).val / 2000, by rw [hN]; omega⟩
  intro a
  match a with
  | ⟨0, _⟩ => show win0_4.index _ (0 : Fin 2) * 2000 ≤ (i 0).val ∧ (i 0).val < win0_4.index _ (0 : Fin 2) * 2000 + 2000; rw [e40]; show (i 0).val / 2000 * 2000 ≤ (i 0).val ∧ (i 0).val < (i 0).val / 2000 * 2000 + 2000; omega
  | ⟨1, _⟩ => show win0_4.index _ (1 : Fin 2) * 128 ≤ (i 1).val ∧ (i 1).val < win0_4.index _ (1 : Fin 2) * 128 + 128; rw [e41]; omega

/-- Output window 4's array after the region. -/
theorem final_4 (c : Dev nD) : (dat0 V c).arrAt 4 cfg0.N
    = scaled (V c main_arg0) (V c main_arg2) (V c main_v14) :=
  (dat0 V c).arrAt_eq_of_cover 4 _ (fun t _ => flushed_4_eq V c t) (cover_4)

end Cert.Gcn.Region0

end
-- ==== Proof.Region1.lean ====
/-
  Region 1 of the idealized kernel (the aggregated rows scaled and added to the scaled product rows, plus the bias,
  layer-normalised over the 128 lanes, maximum with zero), read as a whole array.

  The grid has 25 points; point `t` takes rows `2000·t … 2000·t + 1999` of the two [50000,128] operands and of the two
  [50000,1] columns, the whole [1,128] bias, scale and shift rows, and writes the same rows of the output. Each output
  row is a function of the same row of the operands alone, so block `t` of the output is block `t` of one whole-array
  function, and the 25 blocks tile the 50000 rows: the output ends holding that function of the operands, whatever the
  region found in its buffers on entry (`V`).
-/
import proofs.«136372_j15109694947953_2_alg».proof.Proof.Gen.KernelIdeal.Frame
import proofs.«136372_j15109694947953_2_alg».proof.Proof.Spec
import Idealize.ShloMosaic.Lib.Pipeline.Value
import Idealize.ShloMosaic.PureOps.Ideal.Laws
import proofs.«136372_j15109694947953_2_alg».proof.Proof.Bodies

set_option maxRecDepth 16384

noncomputable section

namespace Cert.Gcn.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Each row of `Dc · A + Cc · XW + B` layer-normalised with scale `G` and shift `T`, then the maximum with zero;
    the per-row factors are kept as columns, the per-lane vectors as rows. -/
def normed (A XW : Cert.Gcn.SN.Idx → EReal) (Dc Cc : (⟨2, ![50000, 1]⟩ : Shape).Idx → EReal)
    (B G T : (⟨2, ![1, 128]⟩ : Shape).Idx → EReal) : Cert.Gcn.SN.Idx → EReal :=
  fun i => max (Cert.Gcn.lnRow (fun k => (Dc (ix2 (i 0 : Fin 50000) (0 : Fin 1)) * A (ix2 (i 0 : Fin 50000) k) + Cc (ix2 (i 0 : Fin 50000) (0 : Fin 1)) * XW (ix2 (i 0 : Fin 50000) k)) + B (ix2 (0 : Fin 1) k)) (fun k => G (ix2 (0 : Fin 1) k)) (fun k => T (ix2 (0 : Fin 1) k)) (i 1 : Fin 128)) Cert.Gcn.zeroW

/-- The printed index maps over the grid: the row-blocked windows sit at block row `t`, block column 0; the three
    rows at block (0, 0). -/
theorem idx_facts_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- The same for the three whole rows and the output window. -/
theorem idx_facts : ∀ t : Fin cfg1.N, win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Window 0's block at point `t` reads, at (p, k), the array at row `2000·t + p`. -/
theorem blk_0 (c : Dev nD) (t : Fin cfg1.N) (p : Fin 2000) (k : Fin 128) (r : Fin 50000) (hr : r.val = t.val * 2000 + p.val) :
    iblk1 V c 0 t (ix2 p k) = V c main_v29 (ix2 r k) := by
  obtain ⟨e00, e01, e10, e11, e20, e21, e30, e31⟩ := idx_facts_in t
  show V c main_v29 (((cfg1.win 0).blk t).view.emb (ix2 p k)) = V c main_v29 _
  refine congrArg (V c main_v29) ?_
  funext a; apply Fin.ext
  match a with
  | ⟨0, _⟩ => show win1_0.index t (0 : Fin 2) * 2000 + 1 * p.val = r.val; omega
  | ⟨1, _⟩ => show win1_0.index t (1 : Fin 2) * 128 + 1 * k.val = k.val; omega

/-- Window 1's block at point `t` reads, at (p, k), the array at row `2000·t + p`. -/
theorem blk_1 (c : Dev nD) (t : Fin cfg1.N) (p : Fin 2000) (k : Fin 128) (r : Fin 50000) (hr : r.val = t.val * 2000 + p.val) :
    iblk1 V c 1 t (ix2 p k) = V c main_v19_0 (ix2 r k) := by
  obtain ⟨e00, e01, e10, e11, e20, e21, e30, e31⟩ := idx_facts_in t
  show V c main_v19_0 (((cfg1.win 1).blk t).view.emb (ix2 p k)) = V c main_v19_0 _
  refine congrArg (V c main_v19_0) ?_
  funext a; apply Fin.ext
  match a with
  | ⟨0, _⟩ => show win1_1.index t (0 : Fin 2) * 2000 + 1 * p.val = r.val; omega
  | ⟨1, _⟩ => show win1_1.index t (1 : Fin 2) * 128 + 1 * k.val = k.val; omega

/-- Window 2's block at point `t` reads, at (p, 0), the column at row `2000·t + p`. -/
theorem blk_2 (c : Dev nD) (t : Fin cfg1.N) (p : Fin 2000) (r : Fin 50000) (hr : r.val = t.val * 2000 + p.val) :
    iblk1 V c 2 t (ix2 p (0 : Fin 1)) = V c main_v14 (ix2 r (0 : Fin 1)) := by
  obtain ⟨e00, e01, e10, e11, e20, e21, e30, e31⟩ := idx_facts_in t
  show V c main_v14 (((cfg1.win 2).blk t).view.emb (ix2 p (0 : Fin 1))) = V c main_v14 _
  refine congrArg (V c main_v14) ?_
  funext a; apply Fin.ext
  match a with
  | ⟨0, _⟩ => show win1_2.index t (0 : Fin 2) * 2000 + 1 * p.val = r.val; omega
  | ⟨1, _⟩ => show win1_2.index t (1 : Fin 2) * 1 + 1 * 0 = 0; omega

/-- Window 3's block at point `t` reads, at (p, 0), the column at row `2000·t + p`. -/
theorem blk_3 (c : Dev nD) (t : Fin cfg1.N) (p : Fin 2000) (r : Fin 50000) (hr : r.val = t.val * 2000 + p.val) :
    iblk1 V c 3 t (ix2 p (0 : Fin 1)) = V c main_v18 (ix2 r (0 : Fin 1)) := by
  obtain ⟨e00, e01, e10, e11, e20, e21, e30, e31⟩ := idx_facts_in t
  show V c main_v18 (((cfg1.win 3).blk t).view.emb (ix2 p (0 : Fin 1))) = V c main_v18 _
  refine congrArg (V c main_v18) ?_
  funext a; apply Fin.ext
  match a with
  | ⟨0, _⟩ => show win1_3.index t (0 : Fin 2) * 2000 + 1 * p.val = r.val; omega
  | ⟨1, _⟩ => show win1_3.index t (1 : Fin 2) * 1 + 1 * 0 = 0; omega

/-- Window 4's block at every point is the whole row. -/
theorem blk_4 (c : Dev nD) (t : Fin cfg1.N) (k : Fin 128) :
    iblk1 V c 4 t (ix2 (0 : Fin 1) k) = V c main_v30 (ix2 (0 : Fin 1) k) := by
  obtain ⟨e40, e41, e50, e51, e60, e61, e70, e71⟩ := idx_facts t
  show V c main_v30 (((cfg1.win 4).blk t).view.emb (ix2 (0 : Fin 1) k)) = V c main_v30 _
  refine congrArg (V c main_v30) ?_
  funext a; apply Fin.ext
  match a with
  | ⟨0, _⟩ => show win1_4.index t (0 : Fin 2) * 1 + 1 * 0 = 0; omega
  | ⟨1, _⟩ => show win1_4.index t (1 : Fin 2) * 128 + 1 * k.val = k.val; omega

/-- Window 5's block at every point is the whole row. -/
theorem blk_5 (c : Dev nD) (t : Fin cfg1.N) (k : Fin 128) :
    iblk1 V c 5 t (ix2 (0 : Fin 1) k) = V c main_v31 (ix2 (0 : Fin 1) k) := by
  obtain ⟨e40, e41, e50, e51, e60, e61, e70, e71⟩ := idx_facts t
  show V c main_v31 (((cfg1.win 5).blk t).view.emb (ix2 (0 : Fin 1) k)) = V c main_v31 _
  refine congrArg (V c main_v31) ?_
  funext a; apply Fin.ext
  match a with
  | ⟨0, _⟩ => show win1_5.index t (0 : Fin 2) * 1 + 1 * 0 = 0; omega
  | ⟨1, _⟩ => show win1_5.index t (1 : Fin 2) * 128 + 1 * k.val = k.val; omega

/-- Window 6's block at every point is the whole row. -/
theorem blk_6 (c : Dev nD) (t : Fin cfg1.N) (k : Fin 128) :
    iblk1 V c 6 t (ix2 (0 : Fin 1) k) = V c main_v32 (ix2 (0 : Fin 1) k) := by
  obtain ⟨e40, e41, e50, e51, e60, e61, e70, e71⟩ := idx_facts t
  show V c main_v32 (((cfg1.win 6).blk t).view.emb (ix2 (0 : Fin 1) k)) = V c main_v32 _
  refine congrArg (V c main_v32) ?_
  funext a; apply Fin.ext
  match a with
  | ⟨0, _⟩ => show win1_6.index t (0 : Fin 2) * 1 + 1 * 0 = 0; omega
  | ⟨1, _⟩ => show win1_6.index t (1 : Fin 2) * 128 + 1 * k.val = k.val; omega

/-- The maximum with zero of a row's layer normalisation depends only on the row's entries, the scale, the shift and
    the lane. -/
theorem ln_congr (d d' e e' : EReal) (a a' x x' b b' g g' s s' : Fin 128 → EReal) (q q' : Fin 128)
    (hd : d = d') (he : e = e') (ha : ∀ k, a k = a' k) (hx : ∀ k, x k = x' k) (hb : ∀ k, b k = b' k)
    (hg : ∀ k, g k = g' k) (hs : ∀ k, s k = s' k) (hq : q = q') :
    max (Cert.Gcn.lnRow (fun k => (d * a k + e * x k) + b k) (fun k => g k) (fun k => s k) q) Cert.Gcn.zeroW
      = max (Cert.Gcn.lnRow (fun k => (d' * a' k + e' * x' k) + b' k) (fun k => g' k) (fun k => s' k) q') Cert.Gcn.zeroW := by
  obtain rfl : a = a' := funext ha
  obtain rfl : x = x' := funext hx
  obtain rfl : b = b' := funext hb
  obtain rfl : g = g' := funext hg
  obtain rfl : s = s' := funext hs
  subst hd he hq
  rfl

/-- What point `t` writes back to output window 7 is block `t` of the normalised array. -/
theorem flushed_7_eq (c : Dev nD) (t : Fin cfg1.N) :
    (dat1 V c).flushed 7 t = ((cfg1.win 7).blk t).view.read (Elt Ideal)
      (normed (V c main_v29) (V c main_v19_0) (V c main_v14) (V c main_v18) (V c main_v30) (V c main_v31) (V c main_v32)) := by
  show (cfg1.win 7).cut (grid1.coords t) ((dat1 V c).after 7 t) = _
  rw [after1_7]
  unfold out1_7
  rw [View.canon_unit_zero hz]
  simp only [View.ld_unit_zero (S := S2000x128) hz, View.ld_unit_zero (S := S2000x1) hz, View.ld_unit_zero (S := S1x128) hz]
  obtain ⟨e40, e41, e50, e51, e60, e61, e70, e71⟩ := idx_facts t
  funext j
  obtain ⟨p, q, rfl⟩ : ∃ (p : Fin 2000) (q : Fin 128), j = ix2 p q := ⟨j 0, j 1, eq_ix2 j⟩
  have hr : ((((cfg1.win 7).blk t).view.emb (ix2 p q)) 0 : Fin 50000).val = t.val * 2000 + p.val := by
    show win1_7.index t (0 : Fin 2) * 2000 + 1 * p.val = t.val * 2000 + p.val; omega
  have hq : q = ((((cfg1.win 7).blk t).view.emb (ix2 p q)) 1 : Fin 128) :=
    Fin.ext (by show q.val = win1_7.index t (1 : Fin 2) * 128 + 1 * q.val; omega)
  refine (Cert.Gcn.Body.pay_ln (iblk1 V c 2 t) (iblk1 V c 0 t) (iblk1 V c 3 t) (iblk1 V c 1 t) (iblk1 V c 4 t) (iblk1 V c 5 t)
    (iblk1 V c 6 t) p q).trans ?_
  refine (ln_congr _ _ _ _ _ _ _ _ _ _ _ _ _ _ _ _
    (blk_2 V c t p _ hr) (blk_3 V c t p _ hr) (fun k => blk_0 V c t p k _ hr) (fun k => blk_1 V c t p k _ hr)
    (fun k => blk_4 V c t k) (fun k => blk_5 V c t k) (fun k => blk_6 V c t k) hq).trans ?_
  rfl

/-- An index of the array is in point `t`'s block of output window 7 iff each coordinate is in the block's range. -/
theorem mem_blk_7 (t : Fin cfg1.N) (i : S50000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v33).slice (win1_7.rect t)).set ↔ _
  rw [View.set_slice_whole, Rect.mem_set_unit]
  exact Iff.rfl

/-- Every index of the array is in some point's block: row `r` is in block `r / 2000`. -/
theorem cover_7 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_7 _, ?_⟩
  rw [mem_blk_7]
  obtain ⟨e40, e41, e50, e51, e60, e61, e70, e71⟩ := idx_facts ⟨(i 0).val / 2000, by rw [hN]; omega⟩
  intro a
  match a with
  | ⟨0, _⟩ => show win1_7.index _ (0 : Fin 2) * 2000 ≤ (i 0).val ∧ (i 0).val < win1_7.index _ (0 : Fin 2) * 2000 + 2000; rw [e70]; show (i 0).val / 2000 * 2000 ≤ (i 0).val ∧ (i 0).val < (i 0).val / 2000 * 2000 + 2000; omega
  | ⟨1, _⟩ => show win1_7.index _ (1 : Fin 2) * 128 ≤ (i 1).val ∧ (i 1).val < win1_7.index _ (1 : Fin 2) * 128 + 128; rw [e71]; omega

/-- Output window 7's array after the region. -/
theorem final_7 (c : Dev nD) : (dat1 V c).arrAt 7 cfg1.N
    = normed (V c main_v29) (V c main_v19_0) (V c main_v14) (V c main_v18) (V c main_v30) (V c main_v31) (V c main_v32) :=
  (dat1 V c).arrAt_eq_of_cover 7 _ (fun t _ => flushed_7_eq V c t) (cover_7)

end Cert.Gcn.Region1

end
-- ==== Proof.Region2.lean ====
/-
  Region 2 of the idealized kernel (a row-blocked matrix product and its product with a per-row factor), read as
  whole arrays.

  The grid has 25 points; point `t` takes rows `2000·t … 2000·t + 1999` of the [50000,128] operand, the whole
  [128,128] weight and the same rows of the [50000,1] column, and writes the same rows of both outputs. A row of a
  product is the product of the row, so block `t` of each output is block `t` of one whole-array function, and the 25
  blocks tile the 50000 rows: the outputs end holding `x · w` and `(x · w) · column`, whatever the region found in
  its buffers on entry (`V`).
-/
import proofs.«136372_j15109694947953_2_alg».proof.Proof.Gen.KernelIdeal.Frame
import proofs.«136372_j15109694947953_2_alg».proof.Proof.Spec
import Idealize.ShloMosaic.Lib.Pipeline.Value
import Idealize.ShloMosaic.PureOps.Ideal.Laws
import proofs.«136372_j15109694947953_2_alg».proof.Proof.Bodies

set_option maxRecDepth 16384

noncomputable section

namespace Cert.Gcn.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The rows' product scaled by a per-row factor kept as a column. -/
def scaled (x : Cert.Gcn.SN.Idx → EReal) (w : Cert.Gcn.SDD.Idx → EReal) (d : (⟨2, ![50000, 1]⟩ : Shape).Idx → EReal) :
    Cert.Gcn.SN.Idx → EReal :=
  fun i => Cert.Gcn.times x w i * d (ix2 (i 0 : Fin 50000) (0 : Fin 1))

/-- The printed index maps over the grid: the row-blocked windows sit at block row `t`, block column 0; the weight
    at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- What point `t` writes back to output window 3 is block `t` of `x · w`. -/
theorem flushed_3_eq (c : Dev nD) (t : Fin cfg2.N) :
    (dat2 V c).flushed 3 t = ((cfg2.win 3).blk t).view.read (Elt Ideal)
      (Cert.Gcn.times (V c main_v33) (V c main_arg6)) := by
  show (cfg2.win 3).cut (grid2.coords t) ((dat2 V c).after 3 t) = _
  rw [after2_3]
  unfold out2_3
  rw [View.canon_unit_zero hz]
  simp only [View.ld_unit_zero (S := S2000x128) hz, View.ld_unit_zero (S := S128x128) hz]
  obtain ⟨e00, e01, e10, e11, e20, e21, e30, e31, e40, e41⟩ := idx_facts t
  funext j
  obtain ⟨p, q, rfl⟩ : ∃ (p : Fin 2000) (q : Fin 128), j = ix2 p q := ⟨j 0, j 1, eq_ix2 j⟩
  have hx : ∀ k : Fin 128, iblk2 V c 0 t (ix2 p k)
      = V c main_v33 (ix2 ((((cfg2.win 3).blk t).view.emb (ix2 p q)) 0 : Fin 50000) k) := fun k => by
    show V c main_v33 (((cfg2.win 0).blk t).view.emb (ix2 p k)) = V c main_v33 _
    refine congrArg (V c main_v33) ?_
    funext a; apply Fin.ext
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  have hw : ∀ k : Fin 128, iblk2 V c 1 t (ix2 k q)
      = V c main_arg6 (ix2 k ((((cfg2.win 3).blk t).view.emb (ix2 p q)) 1 : Fin 128)) := fun k => by
    show V c main_arg6 (((cfg2.win 1).blk t).view.emb (ix2 k q)) = V c main_arg6 _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 128 + 1 * q.val = win2_3.index t (1 : Fin 2) * 128 + 1 * q.val; omega
  refine (Cert.Gcn.Body.pay_times' (iblk2 V c 0 t) (iblk2 V c 1 t) p q).trans ?_
  rw [Finset.sum_congr rfl fun k _ => by rw [hx k, hw k]]
  rfl

/-- An index of the array is in point `t`'s block of output window 3 iff each coordinate is in the block's range. -/
theorem mem_blk_3 (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v34_0).slice (win2_3.rect t)).set ↔ _
  rw [View.set_slice_whole, Rect.mem_set_unit]
  exact Iff.rfl

/-- Every index of the array is in some point's block: row `r` is in block `r / 2000`. -/
theorem cover_3 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_3 _, ?_⟩
  rw [mem_blk_3]
  obtain ⟨e00, e01, e10, e11, e20, e21, e30, e31, e40, e41⟩ := idx_facts ⟨(i 0).val / 2000, by rw [hN]; omega⟩
  intro a
  match a with
  | ⟨0, _⟩ => show win2_3.index _ (0 : Fin 2) * 2000 ≤ (i 0).val ∧ (i 0).val < win2_3.index _ (0 : Fin 2) * 2000 + 2000; rw [e30]; show (i 0).val / 2000 * 2000 ≤ (i 0).val ∧ (i 0).val < (i 0).val / 2000 * 2000 + 2000; omega
  | ⟨1, _⟩ => show win2_3.index _ (1 : Fin 2) * 128 ≤ (i 1).val ∧ (i 1).val < win2_3.index _ (1 : Fin 2) * 128 + 128; rw [e31]; omega

/-- Output window 3's array after the region. -/
theorem final_3 (c : Dev nD) : (dat2 V c).arrAt 3 cfg2.N
    = Cert.Gcn.times (V c main_v33) (V c main_arg6) :=
  (dat2 V c).arrAt_eq_of_cover 3 _ (fun t _ => flushed_3_eq V c t) (cover_3)

/-- What point `t` writes back to output window 4 is block `t` of `(x · w) · column`. -/
theorem flushed_4_eq (c : Dev nD) (t : Fin cfg2.N) :
    (dat2 V c).flushed 4 t = ((cfg2.win 4).blk t).view.read (Elt Ideal)
      (scaled (V c main_v33) (V c main_arg6) (V c main_v14)) := by
  show (cfg2.win 4).cut (grid2.coords t) ((dat2 V c).after 4 t) = _
  rw [after2_4]
  unfold out2_4
  rw [View.canon_unit_zero hz]
  simp only [View.ld_unit_zero (S := S2000x128) hz, View.ld_unit_zero (S := S128x128) hz, View.ld_unit_zero (S := S2000x1) hz]
  obtain ⟨e00, e01, e10, e11, e20, e21, e30, e31, e40, e41⟩ := idx_facts t
  funext j
  obtain ⟨p, q, rfl⟩ : ∃ (p : Fin 2000) (q : Fin 128), j = ix2 p q := ⟨j 0, j 1, eq_ix2 j⟩
  have hx : ∀ k : Fin 128, iblk2 V c 0 t (ix2 p k)
      = V c main_v33 (ix2 ((((cfg2.win 4).blk t).view.emb (ix2 p q)) 0 : Fin 50000) k) := fun k => by
    show V c main_v33 (((cfg2.win 0).blk t).view.emb (ix2 p k)) = V c main_v33 _
    refine congrArg (V c main_v33) ?_
    funext a; apply Fin.ext
    match a with
    | ⟨0, _⟩ => show win2_0.index t (0 : Fin 2) * 2000 + 1 * p.val = win2_4.index t (0 : Fin 2) * 2000 + 1 * p.val; omega
    | ⟨1, _⟩ => show win2_0.index t (1 : Fin 2) * 128 + 1 * k.val = k.val; omega
  have hw : ∀ k : Fin 128, iblk2 V c 1 t (ix2 k q)
      = V c main_arg6 (ix2 k ((((cfg2.win 4).blk t).view.emb (ix2 p q)) 1 : Fin 128)) := fun k => by
    show V c main_arg6 (((cfg2.win 1).blk t).view.emb (ix2 k q)) = V c main_arg6 _
    refine congrArg (V c main_arg6) ?_
    funext a; apply Fin.ext
    match a with
    | ⟨0, _⟩ => show win2_1.index t (0 : Fin 2) * 128 + 1 * k.val = k.val; omega
    | ⟨1, _⟩ => show win2_1.index t (1 : Fin 2) * 128 + 1 * q.val = win2_4.index t (1 : Fin 2) * 128 + 1 * q.val; omega
  have hd : iblk2 V c 2 t (ix2 p (0 : Fin 1))
      = V c main_v14 (ix2 ((((cfg2.win 4).blk t).view.emb (ix2 p q)) 0 : Fin 50000) (0 : Fin 1)) := by
    show V c main_v14 (((cfg2.win 2).blk t).view.emb (ix2 p (0 : Fin 1))) = V c main_v14 _
    refine congrArg (V c main_v14) ?_
    funext a; apply Fin.ext
    match a with
    | ⟨0, _⟩ => show win2_2.index t (0 : Fin 2) * 2000 + 1 * p.val = win2_4.index t (0 : Fin 2) * 2000 + 1 * p.val; omega
    | ⟨1, _⟩ => show win2_2.index t (1 : Fin 2) * 1 + 1 * 0 = 0; omega
  refine (Cert.Gcn.Body.pay_times_scaled' (iblk2 V c 0 t) (iblk2 V c 1 t) (iblk2 V c 2 t) p q).trans ?_
  rw [hd, Finset.sum_congr rfl fun k _ => by rw [hx k, hw k]]
  rfl

/-- An index of the array is in point `t`'s block of output window 4 iff each coordinate is in the block's range. -/
theorem mem_blk_4 (t : Fin cfg2.N) (i : S50000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v34_1).slice (win2_4.rect t)).set ↔ _
  rw [View.set_slice_whole, Rect.mem_set_unit]
  exact Iff.rfl

/-- Every index of the array is in some point's block: row `r` is in block `r / 2000`. -/
theorem cover_4 (i : S50000x128.Idx) :
    ∃ t : Fin cfg2.N, (cfg2.win 4).flush t = true ∧ i ∈ ((cfg2.win 4).blk t).view.set := by
  have hi0 : (i 0).val < 50000 := (i 0).isLt
  have hi1 : (i 1).val < 128 := (i 1).isLt
  have hN : cfg2.N = 25 := N_2
  refine ⟨⟨(i 0).val / 2000, by rw [hN]; omega⟩, flush2_4 _, ?_⟩
  rw [mem_blk_4]
  obtain ⟨e00, e01, e10, e11, e20, e21, e30, e31, e40, e41⟩ := idx_facts ⟨(i 0).val / 2000, by rw [hN]; omega⟩
  intro a
  match a with
  | ⟨0, _⟩ => show win2_4.index _ (0 : Fin 2) * 2000 ≤ (i 0).val ∧ (i 0).val < win2_4.index _ (0 : Fin 2) * 2000 + 2000; rw [e40]; show (i 0).val / 2000 * 2000 ≤ (i 0).val ∧ (i 0).val < (i 0).val / 2000 * 2000 + 2000; omega
  | ⟨1, _⟩ => show win2_4.index _ (1 : Fin 2) * 128 ≤ (i 1).val ∧ (i 1).val < win2_4.index _ (1 : Fin 2) * 128 + 128; rw [e41]; omega

/-- Output window 4's array after the region. -/
theorem final_4 (c : Dev nD) : (dat2 V c).arrAt 4 cfg2.N
    = scaled (V c main_v33) (V c main_arg6) (V c main_v14) :=
  (dat2 V c).arrAt_eq_of_cover 4 _ (fun t _ => flushed_4_eq V c t) (cover_4)

end Cert.Gcn.Region2

end
-- ==== Proof.Region3.lean ====
/-
  Region 3 of the idealized kernel (the second layer's normalisation, gate and residual), read as a whole array.

  The grid has 25 points; point `t` takes rows `2000·t … 2000·t + 1999` of the accumulated rows, of `x · w`, of the two
  per-row factor columns and of the input rows, and the whole of the bias, scale, shift and gate parameters, and writes
  the same rows of the output. The body acts on each row by itself, so block `t` of the output is block `t` of one
  whole-array function, and the 25 blocks tile the 50000 rows: the output ends holding that function of the arrays the
  region found in its buffers on entry (`V`), whatever they are.
-/
import proofs.«136372_j15109694947953_2_alg».proof.Proof.Gen.KernelIdeal.Frame
import proofs.«136372_j15109694947953_2_alg».proof.Proof.Spec
import Idealize.ShloMosaic.Lib.Pipeline.Value
import Idealize.ShloMosaic.PureOps.Ideal.Laws
import proofs.«136372_j15109694947953_2_alg».proof.Proof.Bodies

set_option maxRecDepth 16384

noncomputable section

namespace Cert.Gcn.Region3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The gated rows from the arrays the region reads: each row's pre-activation `(d r · acc + coef r · xw) + bias` is
    normalised, gated, added to the input row and floored at zero. The per-row factors are kept as columns and the
    per-feature parameters as rows. -/
def gatedOf (A XW : Cert.Gcn.SN.Idx → EReal) (Dc Cc : (⟨2, ![50000, 1]⟩ : Shape).Idx → EReal)
    (B G T : (⟨2, ![1, 128]⟩ : Shape).Idx → EReal) (X : Cert.Gcn.SN.Idx → EReal)
    (Ws : (⟨2, ![128, 16]⟩ : Shape).Idx → EReal) (Bs : (⟨2, ![1, 16]⟩ : Shape).Idx → EReal)
    (We : (⟨2, ![16, 128]⟩ : Shape).Idx → EReal) (Be : (⟨2, ![1, 128]⟩ : Shape).Idx → EReal) : Cert.Gcn.SN.Idx → EReal :=
  fun i => Cert.Gcn.gateRow (Cert.Gcn.lnRow (fun k => (Dc (ix2 (i 0 : Fin 50000) (0 : Fin 1)) * A (ix2 (i 0 : Fin 50000) k) + Cc (ix2 (i 0 : Fin 50000) (0 : Fin 1)) * XW (ix2 (i 0 : Fin 50000) k)) + B (ix2 (0 : Fin 1) k)) (fun k => G (ix2 (0 : Fin 1) k)) (fun k => T (ix2 (0 : Fin 1) k))) (fun k j => Ws (ix2 k j)) (fun j => Bs (ix2 (0 : Fin 1) j)) (fun j q => We (ix2 j q)) (fun q => Be (ix2 (0 : Fin 1) q)) (fun k => X (ix2 (i 0 : Fin 50000) k)) (i 1 : Fin 128)

/-- The printed index maps over the grid: the row-blocked windows sit at block row `t`, block column 0; the whole
    windows at block (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0
    ∧ win3_8.index t (0 : Fin 2) = 0 ∧ win3_8.index t (1 : Fin 2) = 0
    ∧ win3_9.index t (0 : Fin 2) = 0 ∧ win3_9.index t (1 : Fin 2) = 0
    ∧ win3_10.index t (0 : Fin 2) = 0 ∧ win3_10.index t (1 : Fin 2) = 0
    ∧ win3_11.index t (0 : Fin 2) = 0 ∧ win3_11.index t (1 : Fin 2) = 0
    ∧ win3_12.index t (0 : Fin 2) = t.val ∧ win3_12.index t (1 : Fin 2) = 0 :=
  (by decide +kernel : ∀ t : Fin grid3.N, _)

/-! ## The blocks read at an index -/

/-- Input window 0's block at point `t` reads its array at the block's rows. -/
theorem blk_0 (c : Dev nD) (t : Fin cfg3.N) (p : Fin 2000) (k : Fin 128) (hR : t.val * 2000 + p.val < 50000) :
    iblk3 V c 0 t (ix2 p k) = V c main_v44 (ix2 (⟨t.val * 2000 + p.val, hR⟩ : Fin 50000) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v44 (((cfg3.win 0).blk t).view.emb (ix2 p k)) = V c main_v44 _
  refine congrArg (V c main_v44) ?_
  funext a; apply Fin.ext
  match a with
  | ⟨0, _⟩ => show win3_0.index t (0 : Fin 2) * 2000 + 1 * p.val = t.val * 2000 + p.val; omega
  | ⟨1, _⟩ => show win3_0.index t (1 : Fin 2) * 128 + 1 * k.val = k.val; omega

/-- Input window 1's block at point `t` reads its array at the block's rows. -/
theorem blk_1 (c : Dev nD) (t : Fin cfg3.N) (p : Fin 2000) (k : Fin 128) (hR : t.val * 2000 + p.val < 50000) :
    iblk3 V c 1 t (ix2 p k) = V c main_v34_0 (ix2 (⟨t.val * 2000 + p.val, hR⟩ : Fin 50000) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v34_0 (((cfg3.win 1).blk t).view.emb (ix2 p k)) = V c main_v34_0 _
  refine congrArg (V c main_v34_0) ?_
  funext a; apply Fin.ext
  match a with
  | ⟨0, _⟩ => show win3_1.index t (0 : Fin 2) * 2000 + 1 * p.val = t.val * 2000 + p.val; omega
  | ⟨1, _⟩ => show win3_1.index t (1 : Fin 2) * 128 + 1 * k.val = k.val; omega

/-- Input window 2's block at point `t` reads its array at the block's rows. -/
theorem blk_2 (c : Dev nD) (t : Fin cfg3.N) (p : Fin 2000) (hR : t.val * 2000 + p.val < 50000) :
    iblk3 V c 2 t (ix2 p (0 : Fin 1)) = V c main_v14 (ix2 (⟨t.val * 2000 + p.val, hR⟩ : Fin 50000) (0 : Fin 1)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v14 (((cfg3.win 2).blk t).view.emb (ix2 p (0 : Fin 1))) = V c main_v14 _
  refine congrArg (V c main_v14) ?_
  funext a; apply Fin.ext
  match a with
  | ⟨0, _⟩ => show win3_2.index t (0 : Fin 2) * 2000 + 1 * p.val = t.val * 2000 + p.val; omega
  | ⟨1, _⟩ => show win3_2.index t (1 : Fin 2) * 1 + 1 * 0 = 0; omega

/-- Input window 3's block at point `t` reads its array at the block's rows. -/
theorem blk_3 (c : Dev nD) (t : Fin cfg3.N) (p : Fin 2000) (hR : t.val * 2000 + p.val < 50000) :
    iblk3 V c 3 t (ix2 p (0 : Fin 1)) = V c main_v18 (ix2 (⟨t.val * 2000 + p.val, hR⟩ : Fin 50000) (0 : Fin 1)) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v18 (((cfg3.win 3).blk t).view.emb (ix2 p (0 : Fin 1))) = V c main_v18 _
  refine congrArg (V c main_v18) ?_
  funext a; apply Fin.ext
  match a with
  | ⟨0, _⟩ => show win3_3.index t (0 : Fin 2) * 2000 + 1 * p.val = t.val * 2000 + p.val; omega
  | ⟨1, _⟩ => show win3_3.index t (1 : Fin 2) * 1 + 1 * 0 = 0; omega

/-- Input window 4's block at point `t` reads its array whole. -/
theorem blk_4 (c : Dev nD) (t : Fin cfg3.N) (k : Fin 128) :
    iblk3 V c 4 t (ix2 (0 : Fin 1) k) = V c main_v45 (ix2 (0 : Fin 1) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v45 (((cfg3.win 4).blk t).view.emb (ix2 (0 : Fin 1) k)) = V c main_v45 _
  refine congrArg (V c main_v45) ?_
  funext a; apply Fin.ext
  match a with
  | ⟨0, _⟩ => show win3_4.index t (0 : Fin 2) * 1 + 1 * 0 = 0; omega
  | ⟨1, _⟩ => show win3_4.index t (1 : Fin 2) * 128 + 1 * k.val = k.val; omega

/-- Input window 5's block at point `t` reads its array whole. -/
theorem blk_5 (c : Dev nD) (t : Fin cfg3.N) (k : Fin 128) :
    iblk3 V c 5 t (ix2 (0 : Fin 1) k) = V c main_v46 (ix2 (0 : Fin 1) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v46 (((cfg3.win 5).blk t).view.emb (ix2 (0 : Fin 1) k)) = V c main_v46 _
  refine congrArg (V c main_v46) ?_
  funext a; apply Fin.ext
  match a with
  | ⟨0, _⟩ => show win3_5.index t (0 : Fin 2) * 1 + 1 * 0 = 0; omega
  | ⟨1, _⟩ => show win3_5.index t (1 : Fin 2) * 128 + 1 * k.val = k.val; omega

/-- Input window 6's block at point `t` reads its array whole. -/
theorem blk_6 (c : Dev nD) (t : Fin cfg3.N) (k : Fin 128) :
    iblk3 V c 6 t (ix2 (0 : Fin 1) k) = V c main_v47 (ix2 (0 : Fin 1) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v47 (((cfg3.win 6).blk t).view.emb (ix2 (0 : Fin 1) k)) = V c main_v47 _
  refine congrArg (V c main_v47) ?_
  funext a; apply Fin.ext
  match a with
  | ⟨0, _⟩ => show win3_6.index t (0 : Fin 2) * 1 + 1 * 0 = 0; omega
  | ⟨1, _⟩ => show win3_6.index t (1 : Fin 2) * 128 + 1 * k.val = k.val; omega

/-- Input window 7's block at point `t` reads its array at the block's rows. -/
theorem blk_7 (c : Dev nD) (t : Fin cfg3.N) (p : Fin 2000) (k : Fin 128) (hR : t.val * 2000 + p.val < 50000) :
    iblk3 V c 7 t (ix2 p k) = V c main_arg0 (ix2 (⟨t.val * 2000 + p.val, hR⟩ : Fin 50000) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg0 (((cfg3.win 7).blk t).view.emb (ix2 p k)) = V c main_arg0 _
  refine congrArg (V c main_arg0) ?_
  funext a; apply Fin.ext
  match a with
  | ⟨0, _⟩ => show win3_7.index t (0 : Fin 2) * 2000 + 1 * p.val = t.val * 2000 + p.val; omega
  | ⟨1, _⟩ => show win3_7.index t (1 : Fin 2) * 128 + 1 * k.val = k.val; omega

/-- Input window 8's block at point `t` reads its array whole. -/
theorem blk_8 (c : Dev nD) (t : Fin cfg3.N) (k : Fin 128) (j : Fin 16) :
    iblk3 V c 8 t (ix2 k j) = V c main_arg10 (ix2 k j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg10 (((cfg3.win 8).blk t).view.emb (ix2 k j)) = V c main_arg10 _
  refine congrArg (V c main_arg10) ?_
  funext a; apply Fin.ext
  match a with
  | ⟨0, _⟩ => show win3_8.index t (0 : Fin 2) * 128 + 1 * k.val = k.val; omega
  | ⟨1, _⟩ => show win3_8.index t (1 : Fin 2) * 16 + 1 * j.val = j.val; omega

/-- Input window 9's block at point `t` reads its array whole. -/
theorem blk_9 (c : Dev nD) (t : Fin cfg3.N) (j : Fin 16) :
    iblk3 V c 9 t (ix2 (0 : Fin 1) j) = V c main_v48 (ix2 (0 : Fin 1) j) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v48 (((cfg3.win 9).blk t).view.emb (ix2 (0 : Fin 1) j)) = V c main_v48 _
  refine congrArg (V c main_v48) ?_
  funext a; apply Fin.ext
  match a with
  | ⟨0, _⟩ => show win3_9.index t (0 : Fin 2) * 1 + 1 * 0 = 0; omega
  | ⟨1, _⟩ => show win3_9.index t (1 : Fin 2) * 16 + 1 * j.val = j.val; omega

/-- Input window 10's block at point `t` reads its array whole. -/
theorem blk_10 (c : Dev nD) (t : Fin cfg3.N) (j : Fin 16) (k : Fin 128) :
    iblk3 V c 10 t (ix2 j k) = V c main_arg12 (ix2 j k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_arg12 (((cfg3.win 10).blk t).view.emb (ix2 j k)) = V c main_arg12 _
  refine congrArg (V c main_arg12) ?_
  funext a; apply Fin.ext
  match a with
  | ⟨0, _⟩ => show win3_10.index t (0 : Fin 2) * 16 + 1 * j.val = j.val; omega
  | ⟨1, _⟩ => show win3_10.index t (1 : Fin 2) * 128 + 1 * k.val = k.val; omega

/-- Input window 11's block at point `t` reads its array whole. -/
theorem blk_11 (c : Dev nD) (t : Fin cfg3.N) (k : Fin 128) :
    iblk3 V c 11 t (ix2 (0 : Fin 1) k) = V c main_v49 (ix2 (0 : Fin 1) k) := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  show V c main_v49 (((cfg3.win 11).blk t).view.emb (ix2 (0 : Fin 1) k)) = V c main_v49 _
  refine congrArg (V c main_v49) ?_
  funext a; apply Fin.ext
  match a with
  | ⟨0, _⟩ => show win3_11.index t (0 : Fin 2) * 1 + 1 * 0 = 0; omega
  | ⟨1, _⟩ => show win3_11.index t (1 : Fin 2) * 128 + 1 * k.val = k.val; omega

/-- Where the output block's entry `(p, q)` sits in the array: row `2000·t + p`, column `q`. -/
theorem emb_12 (t : Fin cfg3.N) (p : Fin 2000) (q : Fin 128) (hR : t.val * 2000 + p.val < 50000) :
    ((cfg3.win 12).blk t).view.emb (ix2 p q) = ix2 (⟨t.val * 2000 + p.val, hR⟩ : Fin 50000) q := by
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts t
  funext a; apply Fin.ext
  match a with
  | ⟨0, _⟩ => show win3_12.index t (0 : Fin 2) * 2000 + 1 * p.val = t.val * 2000 + p.val; omega
  | ⟨1, _⟩ => show win3_12.index t (1 : Fin 2) * 128 + 1 * q.val = q.val; omega

/-! ## The output -/

/-- What point `t` writes back to output window 12 is block `t` of the gated rows. -/
theorem flushed_12_eq (c : Dev nD) (t : Fin cfg3.N) :
    (dat3 V c).flushed 12 t = ((cfg3.win 12).blk t).view.read (Elt Ideal)
      (gatedOf (V c main_v44) (V c main_v34_0) (V c main_v14) (V c main_v18) (V c main_v45) (V c main_v46) (V c main_v47) (V c main_arg0) (V c main_arg10) (V c main_v48) (V c main_arg12) (V c main_v49)) := by
  show (cfg3.win 12).cut (grid3.coords t) ((dat3 V c).after 12 t) = _
  rw [after3_12]
  unfold out3_12
  rw [View.canon_unit_zero hz]
  simp only [View.ld_unit_zero (S := S2000x1) hz, View.ld_unit_zero (S := S2000x128) hz, View.ld_unit_zero (S := S1x128) hz,
    View.ld_unit_zero (S := S128x16) hz, View.ld_unit_zero (S := S1x16) hz, View.ld_unit_zero (S := S16x128) hz]
  have hN : cfg3.N = 25 := N_3
  have ht : t.val < 25 := lt_of_lt_of_eq t.isLt hN
  funext j
  obtain ⟨p, q, rfl⟩ : ∃ (p : Fin 2000) (q : Fin 128), j = ix2 p q := ⟨j 0, j 1, eq_ix2 j⟩
  have hR : t.val * 2000 + p.val < 50000 := by have := p.isLt; omega
  have h0 := fun k => blk_0 V c t p k hR
  have h1 := fun k => blk_1 V c t p k hR
  have h2 := blk_2 V c t p hR
  have h3 := blk_3 V c t p hR
  have h4 := blk_4 V c t
  have h5 := blk_5 V c t
  have h6 := blk_6 V c t
  have h7 := fun k => blk_7 V c t p k hR
  have h8 := blk_8 V c t
  have h9 := blk_9 V c t
  have h10 := blk_10 V c t
  have h11 := blk_11 V c t
  refine (Cert.Gcn.Body.pay_gate (iblk3 V c 2 t) (iblk3 V c 0 t) (iblk3 V c 3 t) (iblk3 V c 1 t) (iblk3 V c 4 t)
    (iblk3 V c 5 t) (iblk3 V c 6 t) (iblk3 V c 8 t) (iblk3 V c 9 t) (iblk3 V c 10 t) (iblk3 V c 11 t) (iblk3 V c 7 t) p q).trans ?_
  simp only [h0, h1, h2, h3, h4, h5, h6, h7, h8, h9, h10, h11]
  show _ = gatedOf (V c main_v44) (V c main_v34_0) (V c main_v14) (V c main_v18) (V c main_v45) (V c main_v46) (V c main_v47) (V c main_arg0) (V c main_arg10) (V c main_v48) (V c main_arg12) (V c main_v49) (((cfg3.win 12).blk t).view.emb (ix2 p q))
  rw [emb_12 t p q hR]
  rfl

/-- An index of the array is in point `t`'s block of output window 12 iff each coordinate is in the block's range. -/
theorem mem_blk_12 (t : Fin cfg3.N) (i : S50000x128.Idx) :
    i ∈ ((cfg3.win 12).blk t).view.set ↔ ∀ a : Fin 2, win3_12.index t a * S2000x128.size a ≤ (i a).val ∧ (i a).val < win3_12.index t a * S2000x128.size a + S2000x128.size a := by
  show i ∈ ((View.whole main_v50).slice (win3_12.rect t)).set ↔ _
  rw [View.set_slice_whole, Rect.mem_set_unit]
  exact Iff.rfl

/-- Every index of the array is in some point's block: row `r` is in block `r / 2000`. -/
theorem cover_12 (i : S50000x128.Idx) :
    ∃ t : Fin cfg3.N, (cfg3.win 12).flush t = true ∧ i ∈ ((cfg3.win 12).blk t).view.set := by
  have hi0 : (i 0).val < 50000 := (i 0).isLt
  have hi1 : (i 1).val < 128 := (i 1).isLt
  have hN : cfg3.N = 25 := N_3
  refine ⟨⟨(i 0).val / 2000, by rw [hN]; omega⟩, flush3_12 _, ?_⟩
  rw [mem_blk_12]
  obtain ⟨e0_0, e0_1, e1_0, e1_1, e2_0, e2_1, e3_0, e3_1, e4_0, e4_1, e5_0, e5_1, e6_0, e6_1, e7_0, e7_1, e8_0, e8_1, e9_0, e9_1, e10_0, e10_1, e11_0, e11_1, e12_0, e12_1⟩ := idx_facts ⟨(i 0).val / 2000, by rw [hN]; omega⟩
  intro a
  match a with
  | ⟨0, _⟩ => show win3_12.index _ (0 : Fin 2) * 2000 ≤ (i 0).val ∧ (i 0).val < win3_12.index _ (0 : Fin 2) * 2000 + 2000; rw [e12_0]; show (i 0).val / 2000 * 2000 ≤ (i 0).val ∧ (i 0).val < (i 0).val / 2000 * 2000 + 2000; omega
  | ⟨1, _⟩ => show win3_12.index _ (1 : Fin 2) * 128 ≤ (i 1).val ∧ (i 1).val < win3_12.index _ (1 : Fin 2) * 128 + 128; rw [e12_1]; omega

/-- Output window 12's array after the region. -/
theorem final_12 (c : Dev nD) : (dat3 V c).arrAt 12 cfg3.N
    = gatedOf (V c main_v44) (V c main_v34_0) (V c main_v14) (V c main_v18) (V c main_v45) (V c main_v46) (V c main_v47) (V c main_arg0) (V c main_arg10) (V c main_v48) (V c main_arg12) (V c main_v49) :=
  (dat3 V c).arrAt_eq_of_cover 12 _ (fun t _ => flushed_12_eq V c t) (cover_12)

end Cert.Gcn.Region3

end
-- ==== Proof.Glue.lean ====
/-
  The two normalising regions' whole-array functions are the specification's layers.

  Region 1 leaves, at `(r, q)`, the maximum with zero of the layer-normalised row
  `k ↦ (Dc r · A (r, k) + Cc r · XW (r, k)) + B k`; region 3 the gated, residual-added normalised row of the same form.
  With `A` the rows accumulated from the table `xw · d`, `XW = xw`, `Dc` and `Cc` the columns holding `d r` and
  `(2 · d r) · d r`, and `B`, `G`, `T`, … the parameter vectors kept as one-row arrays, these are `hidden (ZK …)` and
  `gated (ZK …)`: the same expression, entry by entry.
-/
import proofs.«136372_j15109694947953_2_alg».proof.Proof.Spec
import proofs.«136372_j15109694947953_2_alg».proof.Proof.Region1
import proofs.«136372_j15109694947953_2_alg».proof.Proof.Region3

noncomputable section

namespace Cert.Gcn

open Idealize.ShloMosaic Idealize.ShloMosaic.ValueIdx

variable (A XW : SN.Idx → EReal) (Dc Cc : (⟨2, ![50000, 1]⟩ : Shape).Idx → EReal) (B G T : (⟨2, ![1, 128]⟩ : Shape).Idx → EReal)
  (d : SV.Idx → EReal) (src dst : IVec SEc 32) (xw : SN.Idx → EReal) (b g t : SD.Idx → EReal)

/-- The row a normalising region normalises is the row of the pre-activation `ZK`. -/
theorem pre_row (hA : A = accK d src dst xw) (hXW : XW = xw)
    (hD : ∀ r : Fin 50000, Dc (ix2 r (0 : Fin 1)) = d (ix1 r)) (hC : ∀ r : Fin 50000, Cc (ix2 r (0 : Fin 1)) = coef d r)
    (hB : ∀ k : Fin 128, B (ix2 (0 : Fin 1) k) = b (ix1 k)) (r : Fin 50000) :
    (fun k : Fin 128 => (Dc (ix2 r (0 : Fin 1)) * A (ix2 r k) + Cc (ix2 r (0 : Fin 1)) * XW (ix2 r k)) + B (ix2 (0 : Fin 1) k))
      = rowAt (ZK d src dst xw b) r := by
  subst hA hXW
  funext k
  rw [hD r, hC r, hB k]
  rfl

/-- Region 1's array is the first layer. -/
theorem normed_eq_hidden (hA : A = accK d src dst xw) (hXW : XW = xw)
    (hD : ∀ r : Fin 50000, Dc (ix2 r (0 : Fin 1)) = d (ix1 r)) (hC : ∀ r : Fin 50000, Cc (ix2 r (0 : Fin 1)) = coef d r)
    (hB : ∀ k : Fin 128, B (ix2 (0 : Fin 1) k) = b (ix1 k)) (hG : ∀ k : Fin 128, G (ix2 (0 : Fin 1) k) = g (ix1 k))
    (hT : ∀ k : Fin 128, T (ix2 (0 : Fin 1) k) = t (ix1 k)) :
    Region1.normed A XW Dc Cc B G T = hidden (ZK d src dst xw b) g t := by
  funext i
  obtain ⟨r, q, rfl⟩ : ∃ (r : Fin 50000) (q : Fin 128), i = ix2 r q := ⟨i 0, i 1, eq_ix2 i⟩
  show max (lnRow (fun k : Fin 128 => (Dc (ix2 r (0 : Fin 1)) * A (ix2 r k) + Cc (ix2 r (0 : Fin 1)) * XW (ix2 r k)) + B (ix2 (0 : Fin 1) k))
      (fun k => G (ix2 (0 : Fin 1) k)) (fun k => T (ix2 (0 : Fin 1) k)) q) zeroW
    = max (lnRow (rowAt (ZK d src dst xw b) r) (vec g) (vec t) q) zeroW
  rw [pre_row A XW Dc Cc B d src dst xw b hA hXW hD hC hB r,
    show (fun k : Fin 128 => G (ix2 (0 : Fin 1) k)) = vec g from funext hG,
    show (fun k : Fin 128 => T (ix2 (0 : Fin 1) k)) = vec t from funext hT]

variable (X : SN.Idx → EReal) (Ws : (⟨2, ![128, 16]⟩ : Shape).Idx → EReal) (Bs : (⟨2, ![1, 16]⟩ : Shape).Idx → EReal)
  (We : (⟨2, ![16, 128]⟩ : Shape).Idx → EReal) (Be : (⟨2, ![1, 128]⟩ : Shape).Idx → EReal)
  (x : SN.Idx → EReal) (ws : SDH.Idx → EReal) (bs : SH.Idx → EReal) (we : SHD.Idx → EReal) (be : SD.Idx → EReal)

/-- Region 3's array is the second layer with its gate and residual. -/
theorem gatedOf_eq_gated (hA : A = accK d src dst xw) (hXW : XW = xw)
    (hD : ∀ r : Fin 50000, Dc (ix2 r (0 : Fin 1)) = d (ix1 r)) (hC : ∀ r : Fin 50000, Cc (ix2 r (0 : Fin 1)) = coef d r)
    (hB : ∀ k : Fin 128, B (ix2 (0 : Fin 1) k) = b (ix1 k)) (hG : ∀ k : Fin 128, G (ix2 (0 : Fin 1) k) = g (ix1 k))
    (hT : ∀ k : Fin 128, T (ix2 (0 : Fin 1) k) = t (ix1 k))
    (hX : X = x) (hWs : Ws = ws) (hBs : ∀ j : Fin 16, Bs (ix2 (0 : Fin 1) j) = bs (ix1 j)) (hWe : We = we)
    (hBe : ∀ q : Fin 128, Be (ix2 (0 : Fin 1) q) = be (ix1 q)) :
    Region3.gatedOf A XW Dc Cc B G T X Ws Bs We Be = gated (ZK d src dst xw b) g t ws bs we be x := by
  subst hX hWs hWe
  funext i
  obtain ⟨r, q, rfl⟩ : ∃ (r : Fin 50000) (q : Fin 128), i = ix2 r q := ⟨i 0, i 1, eq_ix2 i⟩
  show gateRow (lnRow (fun k : Fin 128 => (Dc (ix2 r (0 : Fin 1)) * A (ix2 r k) + Cc (ix2 r (0 : Fin 1)) * XW (ix2 r k)) + B (ix2 (0 : Fin 1) k))
        (fun k => G (ix2 (0 : Fin 1) k)) (fun k => T (ix2 (0 : Fin 1) k)))
      (fun k j => Ws (ix2 k j)) (fun j => Bs (ix2 (0 : Fin 1) j)) (fun j q => We (ix2 j q)) (fun q => Be (ix2 (0 : Fin 1) q))
      (fun k => X (ix2 r k)) q
    = gateRow (lnRow (rowAt (ZK d src dst xw b) r) (vec g) (vec t)) (fun k j => Ws (ix2 k j)) (fun j => bs (ix1 j))
      (fun j q => We (ix2 j q)) (vec be) (rowAt X r) q
  rw [pre_row A XW Dc Cc B d src dst xw b hA hXW hD hC hB r,
    show (fun k : Fin 128 => G (ix2 (0 : Fin 1) k)) = vec g from funext hG,
    show (fun k : Fin 128 => T (ix2 (0 : Fin 1) k)) = vec t from funext hT,
    show (fun j : Fin 16 => Bs (ix2 (0 : Fin 1) j)) = (fun j => bs (ix1 j)) from funext hBs,
    show (fun q : Fin 128 => Be (ix2 (0 : Fin 1) q)) = vec be from funext hBe]
  rfl

end Cert.Gcn

end
-- ==== Proof.KernelValue.lean ====
/-
  The idealized kernel's result as one function of its arguments.

  Reading the fold of buffer contents segment by segment: the first region leaves `x · w1` and `(x · w1) · d`; the
  host gathers the second at the sources and accumulates at the targets; the second region scales the accumulated rows
  by `d`, adds the self-loop term and the bias, normalises each row and takes the maximum with zero; the third and
  fourth regions and the stretch between them do the same with the second layer's weights, then gate each row and add
  the input row. Composed, the result buffer holds `out (ZK d src dst)` of the argument arrays, where `d`, `src`,
  `dst` are the degree factor and the two index columns the host computes from the edge array.
-/
import proofs.«136372_j15109694947953_2_alg».proof.Proof.KernelFold
import proofs.«136372_j15109694947953_2_alg».proof.Proof.KernelHost
import proofs.«136372_j15109694947953_2_alg».proof.Proof.Region0
import proofs.«136372_j15109694947953_2_alg».proof.Proof.Region1
import proofs.«136372_j15109694947953_2_alg».proof.Proof.Region2
import proofs.«136372_j15109694947953_2_alg».proof.Proof.Region3
import proofs.«136372_j15109694947953_2_alg».proof.Proof.SpecAcc
import proofs.«136372_j15109694947953_2_alg».proof.Proof.Glue

set_option maxRecDepth 16384

noncomputable section

namespace Cert.Gcn.KValue

open Cert.KernelIdeal Cert.KernelIdeal.Gen
open Idealize.ShloMosaic Idealize.ShloMosaic.TcCoe Idealize.ShloMosaic.ValueIdx Idealize.SL.Sem
open Cert.Gcn

variable (m : (ℓ : Loc nD τ sig) → Buf (Elt Ideal) ℓ) (ρ : Dev nD → PrngReg)

/-- The degree factor, the wrapped source column and the target column, as the host computes them from the edge array. -/
abbrev dOf (c : Dev nD) : SV.Idx → EReal := Cert.ReferenceIdeal.ReadP.val_main_v14 (F := Ideal) (m ((c : Thread nD τ).loc main_arg1))
abbrev srcOf (c : Dev nD) : IVec SEc 32 := Cert.ReferenceIdeal.ReadP.val_main_v35 (F := Ideal) (m ((c : Thread nD τ).loc main_arg1))
abbrev dstOf (c : Dev nD) : IVec SEc 32 := Cert.ReferenceIdeal.ReadP.val_main_v41 (F := Ideal) (m ((c : Thread nD τ).loc main_arg1))

/-! ## Layer 1 -/

/-- After the first region: `x · w1`. -/
theorem xw1_eq (c : Dev nD) : (W4 m ρ c (Proc.devRef .tc main_v19_0) : SN.Idx → EReal) = times (m ((c : Thread nD τ).loc main_arg0)) (m ((c : Thread nD τ).loc main_arg2)) := by
  refine (W4_arr m ρ c 3).trans ((Region0.final_3 (V3 m ρ) c).trans ?_)
  show times (W3 m ρ c (Proc.devRef .tc main_arg0)) (W3 m ρ c (Proc.devRef .tc main_arg2)) = _
  rw [Fold.keep_arg0_3_0, Fold.keep_arg2_3_0]

/-- After the first region: `(x · w1) · d`, the factor read from its column. -/
theorem xws1_eq (c : Dev nD) : (W4 m ρ c (Proc.devRef .tc main_v19_1) : SN.Idx → EReal)
    = fun j => times (m ((c : Thread nD τ).loc main_arg0)) (m ((c : Thread nD τ).loc main_arg2)) j * dOf m c (ix1 (j 0 : Fin 50000)) := by
  refine (W4_arr m ρ c 4).trans ((Region0.final_4 (V3 m ρ) c).trans ?_)
  show Region0.scaled (W3 m ρ c (Proc.devRef .tc main_arg0)) (W3 m ρ c (Proc.devRef .tc main_arg2)) (W3 m ρ c (Proc.devRef .tc main_v14)) = _
  rw [Fold.keep_arg0_3_0, Fold.keep_arg2_3_0]
  funext j
  obtain ⟨r, q, rfl⟩ : ∃ (r : Fin 50000) (q : Fin 128), j = ix2 r q := ⟨j 0, j 1, eq_ix2 j⟩
  exact congrArg (fun s : EReal => times (m ((c : Thread nD τ).loc main_arg0)) (m ((c : Thread nD τ).loc main_arg2)) (ix2 r q) * s) (KHost.dcol_apply m ρ c r)

/-- The rows accumulated by the host between the first two regions. -/
theorem acc1_eq (c : Dev nD) : (W5 m ρ c (Proc.devRef .tc main_v29) : SN.Idx → EReal)
    = accK (dOf m c) (srcOf m c) (dstOf m c) (times (m ((c : Thread nD τ).loc main_arg0)) (m ((c : Thread nD τ).loc main_arg2))) := by
  rw [KHost.agg1_eq m ρ c, xws1_eq m ρ c]
  exact (accK_eq_accT _ _ _ _).symm

/-- After the second region: the first layer. -/
theorem h1_eq (c : Dev nD) : (W6 m ρ c (Proc.devRef .tc main_v33) : SN.Idx → EReal)
    = hidden (ZK (dOf m c) (srcOf m c) (dstOf m c) (times (m ((c : Thread nD τ).loc main_arg0)) (m ((c : Thread nD τ).loc main_arg2))) (m ((c : Thread nD τ).loc main_arg3))) (m ((c : Thread nD τ).loc main_arg4)) (m ((c : Thread nD τ).loc main_arg5)) := by
  refine (W6_arr m ρ c 7).trans ((Region1.final_7 (V5 m ρ) c).trans ?_)
  exact normed_eq_hidden _ _ _ _ _ _ _ (dOf m c) (srcOf m c) (dstOf m c) (times (m ((c : Thread nD τ).loc main_arg0)) (m ((c : Thread nD τ).loc main_arg2))) (m ((c : Thread nD τ).loc main_arg3)) (m ((c : Thread nD τ).loc main_arg4)) (m ((c : Thread nD τ).loc main_arg5))
    (acc1_eq m ρ c) ((Fold.keep_v19_0_5_4 m ρ c).trans (xw1_eq m ρ c))
    (fun r => (congrFun (Fold.keep_v14_5_3 m ρ c) _).trans (KHost.dcol_apply m ρ c r))
    (fun r => (congrFun (Fold.keep_v18_5_3 m ρ c) _).trans (KHost.ccol_apply m ρ c r))
    (fun k => KHost.v30_apply m ρ c k) (fun k => KHost.v31_apply m ρ c k) (fun k => KHost.v32_apply m ρ c k)

/-! ## Layer 2 -/

/-- After the third region: `h1 · w2`. -/
theorem xw2_eq (c : Dev nD) : (W7 m ρ c (Proc.devRef .tc main_v34_0) : SN.Idx → EReal) = times (W6 m ρ c (Proc.devRef .tc main_v33)) (m ((c : Thread nD τ).loc main_arg6)) := by
  refine (W7_arr m ρ c 3).trans ((Region2.final_3 (V6 m ρ) c).trans ?_)
  show times (W6 m ρ c (Proc.devRef .tc main_v33)) (W6 m ρ c (Proc.devRef .tc main_arg6)) = _
  rw [Fold.keep_arg6_6_0]

/-- After the third region: `(h1 · w2) · d`. -/
theorem xws2_eq (c : Dev nD) : (W7 m ρ c (Proc.devRef .tc main_v34_1) : SN.Idx → EReal)
    = fun j => times (W6 m ρ c (Proc.devRef .tc main_v33)) (m ((c : Thread nD τ).loc main_arg6)) j * dOf m c (ix1 (j 0 : Fin 50000)) := by
  refine (W7_arr m ρ c 4).trans ((Region2.final_4 (V6 m ρ) c).trans ?_)
  show Region2.scaled (W6 m ρ c (Proc.devRef .tc main_v33)) (W6 m ρ c (Proc.devRef .tc main_arg6)) (W6 m ρ c (Proc.devRef .tc main_v14)) = _
  rw [Fold.keep_arg6_6_0, Fold.keep_v14_6_3]
  funext j
  obtain ⟨r, q, rfl⟩ : ∃ (r : Fin 50000) (q : Fin 128), j = ix2 r q := ⟨j 0, j 1, eq_ix2 j⟩
  exact congrArg (fun s : EReal => times (W6 m ρ c (Proc.devRef .tc main_v33)) (m ((c : Thread nD τ).loc main_arg6)) (ix2 r q) * s) (KHost.dcol_apply m ρ c r)

/-- The rows accumulated by the host before the last region. -/
theorem acc2_eq (c : Dev nD) : (W8 m ρ c (Proc.devRef .tc main_v44) : SN.Idx → EReal)
    = accK (dOf m c) (srcOf m c) (dstOf m c) (times (W6 m ρ c (Proc.devRef .tc main_v33)) (m ((c : Thread nD τ).loc main_arg6))) := by
  rw [KHost.agg2_eq m ρ c, xws2_eq m ρ c]
  exact (accK_eq_accT _ _ _ _).symm

/-- The result buffer after the last region: the second layer, gated, with the residual. -/
theorem out_eq (c : Dev nD) : (W9 m ρ c (Proc.devRef .tc main_v50) : SN.Idx → EReal)
    = gated (ZK (dOf m c) (srcOf m c) (dstOf m c) (times (W6 m ρ c (Proc.devRef .tc main_v33)) (m ((c : Thread nD τ).loc main_arg6))) (m ((c : Thread nD τ).loc main_arg7))) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) (m ((c : Thread nD τ).loc main_arg0)) := by
  refine (W9_arr m ρ c 12).trans ((Region3.final_12 (V8 m ρ) c).trans ?_)
  exact gatedOf_eq_gated _ _ _ _ _ _ _ (dOf m c) (srcOf m c) (dstOf m c) (times (W6 m ρ c (Proc.devRef .tc main_v33)) (m ((c : Thread nD τ).loc main_arg6))) (m ((c : Thread nD τ).loc main_arg7)) (m ((c : Thread nD τ).loc main_arg8)) (m ((c : Thread nD τ).loc main_arg9))
    _ _ _ _ _ (m ((c : Thread nD τ).loc main_arg0)) (m ((c : Thread nD τ).loc main_arg10)) (m ((c : Thread nD τ).loc main_arg11)) (m ((c : Thread nD τ).loc main_arg12)) (m ((c : Thread nD τ).loc main_arg13))
    (acc2_eq m ρ c) ((Fold.keep_v34_0_8_7 m ρ c).trans (xw2_eq m ρ c))
    (fun r => (congrFun (Fold.keep_v14_8_3 m ρ c) _).trans (KHost.dcol_apply m ρ c r))
    (fun r => (congrFun (Fold.keep_v18_8_3 m ρ c) _).trans (KHost.ccol_apply m ρ c r))
    (fun k => KHost.v45_apply m ρ c k) (fun k => KHost.v46_apply m ρ c k) (fun k => KHost.v47_apply m ρ c k)
    (Fold.keep_arg0_8_0 m ρ c) (Fold.keep_arg10_8_0 m ρ c) (fun j => KHost.v48_apply m ρ c j) (Fold.keep_arg12_8_0 m ρ c)
    (fun q => KHost.v49_apply m ρ c q)

/-- THE KERNEL'S RESULT: the whole block over the kernel's arrangement of the aggregation. -/
theorem result_eq (c : Dev nD) : (W9 m ρ c (Proc.devRef .tc main_v50) : SN.Idx → EReal)
    = out (ZK (dOf m c) (srcOf m c) (dstOf m c)) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (m ((c : Thread nD τ).loc main_arg10)) (m ((c : Thread nD τ).loc main_arg11)) (m ((c : Thread nD τ).loc main_arg12)) (m ((c : Thread nD τ).loc main_arg13)) := by
  rw [out_eq m ρ c, h1_eq m ρ c]
  rfl

end Cert.Gcn.KValue

end
-- ==== Proof.RefRun.lean ====
/-
  The reference program's run, read in stretches.

  @main is a straight line of 217 host operations. What such a line leaves in a buffer is the fold of its operations
  over the launch contents; a line is read a stretch at a time (what the concatenation leaves is what the second stretch
  leaves from what the first leaves), each stretch over an arbitrary starting valuation, so that a value several later
  operations consume — the product `x · w`, the degree factor, a layer's pre-activation — is named once at a stretch's
  start instead of being copied into every use. The line is cut into twelve stretches — after the degree factor, inside and after each layer's
  aggregation, pre-activation and normalisation, and at the end —; each stretch's live result is the corresponding stage of the
  operation-by-operation reading (`ReadP.val_main_vN`), by unfolding. So the result buffer ends at `ReadP.val_main_v168`
  of the argument arrays, and the argument arrays end as launched.
-/
import proofs.«136372_j15109694947953_2_alg».proof.Proof.Gen.ReferenceIdeal
import proofs.«136372_j15109694947953_2_alg».proof.Proof.RefReadP
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- @main's 217 operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x40000000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select,
    nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v14 main_v27 main_v28 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)),
    nullary main_c_7 (constantI S_ 32 0#32),
    unary main_c_7 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v4 main_v35 main_v36 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v29 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x128 ![0, 1] bcast_S1600000x1_S1600000x128_0_1 : (⟨S1600000x1, .f32⟩ : BufTy).Contents (Elt F) → (⟨S1600000x128, .f32⟩ : BufTy).Contents (Elt F)),
    binary main_v36 main_v38 main_v39 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v40 (broadcastInDim S50000x128 ![] bcast_S_S50000x128 : (⟨S_, .f32⟩ : BufTy).Contents (Elt F) → (⟨S50000x128, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_10 (constant S_ .f32 0x40000000#32),
    unary main_cst_10 main_v43 (broadcastInDim S50000 ![] bcast_S_S50000 : (⟨S_, .f32⟩ : BufTy).Contents (Elt F) → (⟨S50000, .f32⟩ : BufTy).Contents (Elt F)),
    binary main_v43 main_v14 main_v44 (mulf : (⟨S50000, .f32⟩ : BufTy).Contents (Elt F) → (⟨S50000, .f32⟩ : BufTy).Contents (Elt F) → (⟨S50000, .f32⟩ : BufTy).Contents (Elt F)),
    binary main_v44 main_v14 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v4 main_v47 main_v48 (mulf : (⟨S50000x128, .f32⟩ : BufTy).Contents (Elt F) → (⟨S50000x128, .f32⟩ : BufTy).Contents (Elt F) → (⟨S50000x128, .f32⟩ : BufTy).Contents (Elt F)),
    binary main_v42 main_v48 main_v49 (addf : (⟨S50000x128, .f32⟩ : BufTy).Contents (Elt F) → (⟨S50000x128, .f32⟩ : BufTy).Contents (Elt F) → (⟨S50000x128, .f32⟩ : BufTy).Contents (Elt F)),
    unary main_arg3 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)),
    nullary main_cst_11 (constant S_ .f32 0x00000000#32),
    binary main_v52 main_cst_11 main_v53 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v53 main_v54 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43000000#32),
    unary main_cst_12 main_v55 (broadcastInDim S50000x1 ![] bcast_S_S50000x1 : (⟨S_, .f32⟩ : BufTy).Contents (Elt F) → (⟨S50000x1, .f32⟩ : BufTy).Contents (Elt F)),
    binary main_v54 main_v55 main_v56 (Host.divf : (⟨S50000x1, .f32⟩ : BufTy).Contents (Elt F) → (⟨S50000x1, .f32⟩ : BufTy).Contents (Elt F) → (⟨S50000x1, .f32⟩ : BufTy).Contents (Elt F)),
    unary main_v56 main_v57 (broadcastInDim S50000x128 ![0, 1] bcast_S50000x1_S50000x128_0_1 : (⟨S50000x1, .f32⟩ : BufTy).Contents (Elt F) → (⟨S50000x128, .f32⟩ : BufTy).Contents (Elt F)),
    binary main_v52 main_v57 main_v58 (subf : (⟨S50000x128, .f32⟩ : BufTy).Contents (Elt F) → (⟨S50000x128, .f32⟩ : BufTy).Contents (Elt F) → (⟨S50000x128, .f32⟩ : BufTy).Contents (Elt F)),
    binary main_v58 main_v58 main_v59 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v59 main_cst_13 main_v60 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v60 main_v61 (broadcastInDim S50000x1 ![0] bcast_S50000_S50000x1_0 : (⟨S50000, .f32⟩ : BufTy).Contents (Elt F) → (⟨S50000x1, .f32⟩ : BufTy).Contents (Elt F)),
    nullary main_cst_14 (constant S_ .f32 0x43000000#32),
    unary main_cst_14 main_v62 (broadcastInDim S50000x1 ![] bcast_S_S50000x1 : (⟨S_, .f32⟩ : BufTy).Contents (Elt F) → (⟨S50000x1, .f32⟩ : BufTy).Contents (Elt F)),
    binary main_v61 main_v62 main_v63 (Host.divf : (⟨S50000x1, .f32⟩ : BufTy).Contents (Elt F) → (⟨S50000x1, .f32⟩ : BufTy).Contents (Elt F) → (⟨S50000x1, .f32⟩ : BufTy).Contents (Elt F)),
    unary main_v56 main_v64 (broadcastInDim S50000x128 ![0, 1] bcast_S50000x1_S50000x128_0_1 : (⟨S50000x1, .f32⟩ : BufTy).Contents (Elt F) → (⟨S50000x128, .f32⟩ : BufTy).Contents (Elt F)),
    binary main_v52 main_v64 main_v65 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v66 (broadcastInDim S50000x1 ![] bcast_S_S50000x1 : (⟨S_, .f32⟩ : BufTy).Contents (Elt F) → (⟨S50000x1, .f32⟩ : BufTy).Contents (Elt F)),
    binary main_v63 main_v66 main_v67 (addf : (⟨S50000x1, .f32⟩ : BufTy).Contents (Elt F) → (⟨S50000x1, .f32⟩ : BufTy).Contents (Elt F) → (⟨S50000x1, .f32⟩ : BufTy).Contents (Elt F)),
    unary main_v67 main_v68 (Host.rsqrt : (⟨S50000x1, .f32⟩ : BufTy).Contents (Elt F) → (⟨S50000x1, .f32⟩ : BufTy).Contents (Elt F)),
    unary main_v68 main_v69 (broadcastInDim S50000x128 ![0, 1] bcast_S50000x1_S50000x128_0_1 : (⟨S50000x1, .f32⟩ : BufTy).Contents (Elt F) → (⟨S50000x128, .f32⟩ : BufTy).Contents (Elt F)),
    binary main_v65 main_v69 main_v70 (mulf : (⟨S50000x128, .f32⟩ : BufTy).Contents (Elt F) → (⟨S50000x128, .f32⟩ : BufTy).Contents (Elt F) → (⟨S50000x128, .f32⟩ : BufTy).Contents (Elt F)),
    unary main_arg4 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v70 main_v72 main_v73 (mulf : (⟨S50000x128, .f32⟩ : BufTy).Contents (Elt F) → (⟨S50000x128, .f32⟩ : BufTy).Contents (Elt F) → (⟨S50000x128, .f32⟩ : BufTy).Contents (Elt F)),
    unary main_arg5 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v76) (TRef.of (T := ⟨S50000x128, .f32⟩) main_call1_v0) (TRef.of (T := ⟨S50000x128, .f32⟩) main_v77) maximumf,
    binary main_v77 main_arg6 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_16 (constant S_ .f32 0x3F800000#32),
    unary main_cst_16 main_v79 (broadcastInDim S1600000 ![] bcast_S_S1600000 : (⟨S_, .f32⟩ : BufTy).Contents (Elt F) → (⟨S1600000, .f32⟩ : BufTy).Contents (Elt F)),
    nullary main_cst_17 (constant S_ .f32 0x00000000#32),
    unary main_cst_17 main_v80 (broadcastInDim S50000 ![] bcast_S_S50000 : (⟨S_, .f32⟩ : BufTy).Contents (Elt F) → (⟨S50000, .f32⟩ : BufTy).Contents (Elt F)),
    unary main_v3 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_18 (constant S_ .f32 0x40000000#32),
    unary main_cst_18 main_v83 (broadcastInDim S50000 ![] bcast_S_S50000 : (⟨S_, .f32⟩ : BufTy).Contents (Elt F) → (⟨S50000, .f32⟩ : BufTy).Contents (Elt F)),
    binary main_v82 main_v83 main_v84 (addf : (⟨S50000, .f32⟩ : BufTy).Contents (Elt F) → (⟨S50000, .f32⟩ : BufTy).Contents (Elt F) → (⟨S50000, .f32⟩ : BufTy).Contents (Elt F)),
    nullary main_cst_19 (constant S_ .f32 0x00000000#32),
    unary main_cst_19 main_v85 (broadcastInDim S50000 ![] bcast_S_S50000 : (⟨S_, .f32⟩ : BufTy).Contents (Elt F) → (⟨S50000, .f32⟩ : BufTy).Contents (Elt F)),
    binary main_v84 main_v85 main_v86 (cmpf .ogt : (⟨S50000, .f32⟩ : BufTy).Contents (Elt F) → (⟨S50000, .f32⟩ : BufTy).Contents (Elt F) → (⟨S50000, .i1⟩ : BufTy).Contents (Elt F)),
    unary main_v84 main_v87 (Host.rsqrt : (⟨S50000, .f32⟩ : BufTy).Contents (Elt F) → (⟨S50000, .f32⟩ : BufTy).Contents (Elt F)),
    nullary main_cst_20 (constant S_ .f32 0x00000000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v86) (TRef.of (T := ⟨S50000, .f32⟩) main_v87) (TRef.of (T := ⟨S50000, .f32⟩) main_call2_v1) (TRef.of (T := ⟨S50000, .f32⟩) main_v88) select,
    nullary main_c_21 (constantI S_ 32 0#32),
    unary main_c_21 main_v89 (broadcastInDim S1600000 ![] bcast_S_S1600000 : (⟨S_, .i32⟩ : BufTy).Contents (Elt F) → (⟨S1600000, .i32⟩ : BufTy).Contents (Elt F)),
    binary main_v1 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 50000#32),
    unary main_c_22 main_v91 (broadcastInDim S1600000 ![] bcast_S_S1600000 : (⟨S_, .i32⟩ : BufTy).Contents (Elt F) → (⟨S1600000, .i32⟩ : BufTy).Contents (Elt F)),
    binary main_v1 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_v1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v88 main_v94 main_v95 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_23 (constantI S_ 32 0#32),
    unary main_c_23 main_v96 (broadcastInDim S1600000 ![] bcast_S_S1600000 : (⟨S_, .i32⟩ : BufTy).Contents (Elt F) → (⟨S1600000, .i32⟩ : BufTy).Contents (Elt F)),
    binary main_v3 main_v96 main_v97 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 50000#32),
    unary main_c_24 main_v98 (broadcastInDim S1600000 ![] bcast_S_S1600000 : (⟨S_, .i32⟩ : BufTy).Contents (Elt F) → (⟨S1600000, .i32⟩ : BufTy).Contents (Elt F)),
    binary main_v3 main_v98 main_v99 (addi : (⟨S1600000, .i32⟩ : BufTy).Contents (Elt F) → (⟨S1600000, .i32⟩ : BufTy).Contents (Elt F) → (⟨S1600000, .i32⟩ : BufTy).Contents (Elt F)),
    ternary main_v97 main_v99 main_v3 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v100 main_v101 (broadcastInDim S1600000x1 ![0] bcast_S1600000_S1600000x1_0 : (⟨S1600000, .i32⟩ : BufTy).Contents (Elt F) → (⟨S1600000x1, .i32⟩ : BufTy).Contents (Elt F)),
    binary main_v88 main_v101 main_v102 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v95 main_v102 main_v103 (mulf : (⟨S1600000, .f32⟩ : BufTy).Contents (Elt F) → (⟨S1600000, .f32⟩ : BufTy).Contents (Elt F) → (⟨S1600000, .f32⟩ : BufTy).Contents (Elt F)),
    nullary main_c_25 (constantI S_ 32 0#32),
    unary main_c_25 main_v104 (broadcastInDim S1600000 ![] bcast_S_S1600000 : (⟨S_, .i32⟩ : BufTy).Contents (Elt F) → (⟨S1600000, .i32⟩ : BufTy).Contents (Elt F)),
    binary main_v1 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 50000#32),
    unary main_c_26 main_v106 (broadcastInDim S1600000 ![] bcast_S_S1600000 : (⟨S_, .i32⟩ : BufTy).Contents (Elt F) → (⟨S1600000, .i32⟩ : BufTy).Contents (Elt F)),
    binary main_v1 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_v1 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v78 main_v109 main_v110 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v103 main_v111 (broadcastInDim S1600000x1 ![0] bcast_S1600000_S1600000x1_0 : (⟨S1600000, .f32⟩ : BufTy).Contents (Elt F) → (⟨S1600000x1, .f32⟩ : BufTy).Contents (Elt F)),
    unary main_v111 main_v112 (broadcastInDim S1600000x128 ![0, 1] bcast_S1600000x1_S1600000x128_0_1 : (⟨S1600000x1, .f32⟩ : BufTy).Contents (Elt F) → (⟨S1600000x128, .f32⟩ : BufTy).Contents (Elt F)),
    binary main_v110 main_v112 main_v113 (mulf : (⟨S1600000x128, .f32⟩ : BufTy).Contents (Elt F) → (⟨S1600000x128, .f32⟩ : BufTy).Contents (Elt F) → (⟨S1600000x128, .f32⟩ : BufTy).Contents (Elt F)),
    nullary main_cst_27 (constant S_ .f32 0x00000000#32),
    unary main_cst_27 main_v114 (broadcastInDim S50000x128 ![] bcast_S_S50000x128 : (⟨S_, .f32⟩ : BufTy).Contents (Elt F) → (⟨S50000x128, .f32⟩ : BufTy).Contents (Elt F)),
    unary main_v3 main_v115 (broadcastInDim S1600000x1 ![0] bcast_S1600000_S1600000x1_0 : (⟨S1600000, .i32⟩ : BufTy).Contents (Elt F) → (⟨S1600000x1, .i32⟩ : BufTy).Contents (Elt F)),
    ternary main_v114 main_v115 main_v113 main_v116 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_28 (constant S_ .f32 0x40000000#32),
    unary main_cst_28 main_v117 (broadcastInDim S50000 ![] bcast_S_S50000 : (⟨S_, .f32⟩ : BufTy).Contents (Elt F) → (⟨S50000, .f32⟩ : BufTy).Contents (Elt F)),
    binary main_v117 main_v88 main_v118 (mulf : (⟨S50000, .f32⟩ : BufTy).Contents (Elt F) → (⟨S50000, .f32⟩ : BufTy).Contents (Elt F) → (⟨S50000, .f32⟩ : BufTy).Contents (Elt F)),
    binary main_v118 main_v88 main_v119 (mulf : (⟨S50000, .f32⟩ : BufTy).Contents (Elt F) → (⟨S50000, .f32⟩ : BufTy).Contents (Elt F) → (⟨S50000, .f32⟩ : BufTy).Contents (Elt F)),
    unary main_v119 main_v120 (broadcastInDim S50000x1 ![0] bcast_S50000_S50000x1_0 : (⟨S50000, .f32⟩ : BufTy).Contents (Elt F) → (⟨S50000x1, .f32⟩ : BufTy).Contents (Elt F)),
    unary main_v120 main_v121 (broadcastInDim S50000x128 ![0, 1] bcast_S50000x1_S50000x128_0_1 : (⟨S50000x1, .f32⟩ : BufTy).Contents (Elt F) → (⟨S50000x128, .f32⟩ : BufTy).Contents (Elt F)),
    binary main_v78 main_v121 main_v122 (mulf : (⟨S50000x128, .f32⟩ : BufTy).Contents (Elt F) → (⟨S50000x128, .f32⟩ : BufTy).Contents (Elt F) → (⟨S50000x128, .f32⟩ : BufTy).Contents (Elt F)),
    binary main_v116 main_v122 main_v123 (addf : (⟨S50000x128, .f32⟩ : BufTy).Contents (Elt F) → (⟨S50000x128, .f32⟩ : BufTy).Contents (Elt F) → (⟨S50000x128, .f32⟩ : BufTy).Contents (Elt F)),
    unary main_arg7 main_v124 (broadcastInDim S1x128 ![1] bcast_S128_S1x128_1 : (⟨S128, .f32⟩ : BufTy).Contents (Elt F) → (⟨S1x128, .f32⟩ : BufTy).Contents (Elt F)),
    unary main_v124 main_v125 (broadcastInDim S50000x128 ![0, 1] bcast_S1x128_S50000x128_0_1 : (⟨S1x128, .f32⟩ : BufTy).Contents (Elt F) → (⟨S50000x128, .f32⟩ : BufTy).Contents (Elt F)),
    binary main_v123 main_v125 main_v126 (addf : (⟨S50000x128, .f32⟩ : BufTy).Contents (Elt F) → (⟨S50000x128, .f32⟩ : BufTy).Contents (Elt F) → (⟨S50000x128, .f32⟩ : BufTy).Contents (Elt F)),
    nullary main_cst_29 (constant S_ .f32 0x00000000#32),
    binary main_v126 main_cst_29 main_v127 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v127 main_v128 (broadcastInDim S50000x1 ![0] bcast_S50000_S50000x1_0 : (⟨S50000, .f32⟩ : BufTy).Contents (Elt F) → (⟨S50000x1, .f32⟩ : BufTy).Contents (Elt F)),
    nullary main_cst_30 (constant S_ .f32 0x43000000#32),
    unary main_cst_30 main_v129 (broadcastInDim S50000x1 ![] bcast_S_S50000x1 : (⟨S_, .f32⟩ : BufTy).Contents (Elt F) → (⟨S50000x1, .f32⟩ : BufTy).Contents (Elt F)),
    binary main_v128 main_v129 main_v130 (Host.divf : (⟨S50000x1, .f32⟩ : BufTy).Contents (Elt F) → (⟨S50000x1, .f32⟩ : BufTy).Contents (Elt F) → (⟨S50000x1, .f32⟩ : BufTy).Contents (Elt F)),
    unary main_v130 main_v131 (broadcastInDim S50000x128 ![0, 1] bcast_S50000x1_S50000x128_0_1 : (⟨S50000x1, .f32⟩ : BufTy).Contents (Elt F) → (⟨S50000x128, .f32⟩ : BufTy).Contents (Elt F)),
    binary main_v126 main_v131 main_v132 (subf : (⟨S50000x128, .f32⟩ : BufTy).Contents (Elt F) → (⟨S50000x128, .f32⟩ : BufTy).Contents (Elt F) → (⟨S50000x128, .f32⟩ : BufTy).Contents (Elt F)),
    binary main_v132 main_v132 main_v133 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v133 main_cst_31 main_v134 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v134 main_v135 (broadcastInDim S50000x1 ![0] bcast_S50000_S50000x1_0 : (⟨S50000, .f32⟩ : BufTy).Contents (Elt F) → (⟨S50000x1, .f32⟩ : BufTy).Contents (Elt F)),
    nullary main_cst_32 (constant S_ .f32 0x43000000#32),
    unary main_cst_32 main_v136 (broadcastInDim S50000x1 ![] bcast_S_S50000x1 : (⟨S_, .f32⟩ : BufTy).Contents (Elt F) → (⟨S50000x1, .f32⟩ : BufTy).Contents (Elt F)),
    binary main_v135 main_v136 main_v137 (Host.divf : (⟨S50000x1, .f32⟩ : BufTy).Contents (Elt F) → (⟨S50000x1, .f32⟩ : BufTy).Contents (Elt F) → (⟨S50000x1, .f32⟩ : BufTy).Contents (Elt F)),
    unary main_v130 main_v138 (broadcastInDim S50000x128 ![0, 1] bcast_S50000x1_S50000x128_0_1 : (⟨S50000x1, .f32⟩ : BufTy).Contents (Elt F) → (⟨S50000x128, .f32⟩ : BufTy).Contents (Elt F)),
    binary main_v126 main_v138 main_v139 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v140 (broadcastInDim S50000x1 ![] bcast_S_S50000x1 : (⟨S_, .f32⟩ : BufTy).Contents (Elt F) → (⟨S50000x1, .f32⟩ : BufTy).Contents (Elt F)),
    binary main_v137 main_v140 main_v141 (addf : (⟨S50000x1, .f32⟩ : BufTy).Contents (Elt F) → (⟨S50000x1, .f32⟩ : BufTy).Contents (Elt F) → (⟨S50000x1, .f32⟩ : BufTy).Contents (Elt F)),
    unary main_v141 main_v142 (Host.rsqrt : (⟨S50000x1, .f32⟩ : BufTy).Contents (Elt F) → (⟨S50000x1, .f32⟩ : BufTy).Contents (Elt F)),
    unary main_v142 main_v143 (broadcastInDim S50000x128 ![0, 1] bcast_S50000x1_S50000x128_0_1 : (⟨S50000x1, .f32⟩ : BufTy).Contents (Elt F) → (⟨S50000x128, .f32⟩ : BufTy).Contents (Elt F)),
    binary main_v139 main_v143 main_v144 (mulf : (⟨S50000x128, .f32⟩ : BufTy).Contents (Elt F) → (⟨S50000x128, .f32⟩ : BufTy).Contents (Elt F) → (⟨S50000x128, .f32⟩ : BufTy).Contents (Elt F)),
    unary main_arg8 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (mulf : (⟨S50000x128, .f32⟩ : BufTy).Contents (Elt F) → (⟨S50000x128, .f32⟩ : BufTy).Contents (Elt F) → (⟨S50000x128, .f32⟩ : BufTy).Contents (Elt F)),
    unary main_arg9 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v147 main_v149 main_v150 (addf : (⟨S50000x128, .f32⟩ : BufTy).Contents (Elt F) → (⟨S50000x128, .f32⟩ : BufTy).Contents (Elt F) → (⟨S50000x128, .f32⟩ : BufTy).Contents (Elt F)),
    binary main_v150 main_arg10 main_v151 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg11 main_v152 (broadcastInDim S1x16 ![1] bcast_S16_S1x16_1 : (⟨S16, .f32⟩ : BufTy).Contents (Elt F) → (⟨S1x16, .f32⟩ : BufTy).Contents (Elt F)),
    unary main_v152 main_v153 (broadcastInDim S50000x16 ![0, 1] bcast_S1x16_S50000x16_0_1 : (⟨S1x16, .f32⟩ : BufTy).Contents (Elt F) → (⟨S50000x16, .f32⟩ : BufTy).Contents (Elt F)),
    binary main_v151 main_v153 main_v154 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x16, .f32⟩) main_call3_v0) (broadcastInDim S50000x16 ![] bcast_S_S50000x16),
    TRef.binary (TRef.of (T := ⟨S50000x16, .f32⟩) main_v154) (TRef.of (T := ⟨S50000x16, .f32⟩) main_call3_v0) (TRef.of (T := ⟨S50000x16, .f32⟩) main_v155) maximumf,
    binary main_v155 main_arg12 main_v156 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)),
    unary main_arg13 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v156 main_v158 main_v159 (addf : (⟨S50000x128, .f32⟩ : BufTy).Contents (Elt F) → (⟨S50000x128, .f32⟩ : BufTy).Contents (Elt F) → (⟨S50000x128, .f32⟩ : BufTy).Contents (Elt F)),
    unary main_v159 main_v160 (Host.negf : (⟨S50000x128, .f32⟩ : BufTy).Contents (Elt F) → (⟨S50000x128, .f32⟩ : BufTy).Contents (Elt F)),
    unary main_v160 main_v161 (Host.exp : (⟨S50000x128, .f32⟩ : BufTy).Contents (Elt F) → (⟨S50000x128, .f32⟩ : BufTy).Contents (Elt F)),
    nullary main_cst_34 (constant S_ .f32 0x3F800000#32),
    unary main_cst_34 main_v162 (broadcastInDim S50000x128 ![] bcast_S_S50000x128 : (⟨S_, .f32⟩ : BufTy).Contents (Elt F) → (⟨S50000x128, .f32⟩ : BufTy).Contents (Elt F)),
    binary main_v162 main_v161 main_v163 (addf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x3F800000#32),
    unary main_cst_35 main_v164 (broadcastInDim S50000x128 ![] bcast_S_S50000x128 : (⟨S_, .f32⟩ : BufTy).Contents (Elt F) → (⟨S50000x128, .f32⟩ : BufTy).Contents (Elt F)),
    binary main_v164 main_v163 main_v165 (Host.divf : (⟨S50000x128, .f32⟩ : BufTy).Contents (Elt F) → (⟨S50000x128, .f32⟩ : BufTy).Contents (Elt F) → (⟨S50000x128, .f32⟩ : BufTy).Contents (Elt F)),
    binary main_v150 main_v165 main_v166 (mulf : (⟨S50000x128, .f32⟩ : BufTy).Contents (Elt F) → (⟨S50000x128, .f32⟩ : BufTy).Contents (Elt F) → (⟨S50000x128, .f32⟩ : BufTy).Contents (Elt F)),
    binary main_v166 main_arg0 main_v167 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v167) (TRef.of (T := ⟨S50000x128, .f32⟩) main_call4_v0) (TRef.of (T := ⟨S50000x128, .f32⟩) main_v168) maximumf ]

/-- Stretch A (operations 1 … 22): the index vectors, `x · w1`, the degree factor. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S50000 ![] bcast_S_S50000 : (⟨S_, .f32⟩ : BufTy).Contents (Elt F) → (⟨S50000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_1 (constant S_ .f32 0x40000000#32),
    unary main_cst_1 main_v9 (broadcastInDim S50000 ![] bcast_S_S50000 : (⟨S_, .f32⟩ : BufTy).Contents (Elt F) → (⟨S50000, .f32⟩ : BufTy).Contents (Elt F)),
    binary main_v8 main_v9 main_v10 (addf : (⟨S50000, .f32⟩ : BufTy).Contents (Elt F) → (⟨S50000, .f32⟩ : BufTy).Contents (Elt F) → (⟨S50000, .f32⟩ : BufTy).Contents (Elt F)),
    nullary main_cst_2 (constant S_ .f32 0x00000000#32),
    unary main_cst_2 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

/-- Stretch B1 (operations 23 … 41): layer 1: the per-edge factor `d (src) · d (dst)`. -/
abbrev opsB1 : List (HloOp τ sig (Elt F)) :=
  [ nullary main_c (constantI S_ 32 0#32),
    unary main_c main_v15 (broadcastInDim S1600000 ![] bcast_S_S1600000 : (⟨S_, .i32⟩ : BufTy).Contents (Elt F) → (⟨S1600000, .i32⟩ : BufTy).Contents (Elt F)),
    binary main_v1 main_v15 main_v16 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 50000#32),
    unary main_c_4 main_v17 (broadcastInDim S1600000 ![] bcast_S_S1600000 : (⟨S_, .i32⟩ : BufTy).Contents (Elt F) → (⟨S1600000, .i32⟩ : BufTy).Contents (Elt F)),
    binary main_v1 main_v17 main_v18 (addi : (⟨S1600000, .i32⟩ : BufTy).Contents (Elt F) → (⟨S1600000, .i32⟩ : BufTy).Contents (Elt F) → (⟨S1600000, .i32⟩ : BufTy).Contents (Elt F)),
    ternary main_v16 main_v18 main_v1 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v19 main_v20 (broadcastInDim S1600000x1 ![0] bcast_S1600000_S1600000x1_0 : (⟨S1600000, .i32⟩ : BufTy).Contents (Elt F) → (⟨S1600000x1, .i32⟩ : BufTy).Contents (Elt F)),
    binary main_v14 main_v20 main_v21 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_5 (constantI S_ 32 0#32),
    unary main_c_5 main_v22 (broadcastInDim S1600000 ![] bcast_S_S1600000 : (⟨S_, .i32⟩ : BufTy).Contents (Elt F) → (⟨S1600000, .i32⟩ : BufTy).Contents (Elt F)),
    binary main_v3 main_v22 main_v23 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 50000#32),
    unary main_c_6 main_v24 (broadcastInDim S1600000 ![] bcast_S_S1600000 : (⟨S_, .i32⟩ : BufTy).Contents (Elt F) → (⟨S1600000, .i32⟩ : BufTy).Contents (Elt F)),
    binary main_v3 main_v24 main_v25 (addi : (⟨S1600000, .i32⟩ : BufTy).Contents (Elt F) → (⟨S1600000, .i32⟩ : BufTy).Contents (Elt F) → (⟨S1600000, .i32⟩ : BufTy).Contents (Elt F)),
    ternary main_v23 main_v25 main_v3 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v26 main_v27 (broadcastInDim S1600000x1 ![0] bcast_S1600000_S1600000x1_0 : (⟨S1600000, .i32⟩ : BufTy).Contents (Elt F) → (⟨S1600000x1, .i32⟩ : BufTy).Contents (Elt F)),
    binary main_v14 main_v27 main_v28 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v21 main_v28 main_v29 (mulf : (⟨S1600000, .f32⟩ : BufTy).Contents (Elt F) → (⟨S1600000, .f32⟩ : BufTy).Contents (Elt F) → (⟨S1600000, .f32⟩ : BufTy).Contents (Elt F)) ]

/-- Stretch B2 (operations 42 … 57): layer 1: the gathered rows scaled and accumulated. -/
abbrev opsB2 : List (HloOp τ sig (Elt F)) :=
  [ nullary main_c_7 (constantI S_ 32 0#32),
    unary main_c_7 main_v30 (broadcastInDim S1600000 ![] bcast_S_S1600000 : (⟨S_, .i32⟩ : BufTy).Contents (Elt F) → (⟨S1600000, .i32⟩ : BufTy).Contents (Elt F)),
    binary main_v1 main_v30 main_v31 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 50000#32),
    unary main_c_8 main_v32 (broadcastInDim S1600000 ![] bcast_S_S1600000 : (⟨S_, .i32⟩ : BufTy).Contents (Elt F) → (⟨S1600000, .i32⟩ : BufTy).Contents (Elt F)),
    binary main_v1 main_v32 main_v33 (addi : (⟨S1600000, .i32⟩ : BufTy).Contents (Elt F) → (⟨S1600000, .i32⟩ : BufTy).Contents (Elt F) → (⟨S1600000, .i32⟩ : BufTy).Contents (Elt F)),
    ternary main_v31 main_v33 main_v1 main_v34 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v34 main_v35 (broadcastInDim S1600000x1 ![0] bcast_S1600000_S1600000x1_0 : (⟨S1600000, .i32⟩ : BufTy).Contents (Elt F) → (⟨S1600000x1, .i32⟩ : BufTy).Contents (Elt F)),
    binary main_v4 main_v35 main_v36 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v29 main_v37 (broadcastInDim S1600000x1 ![0] bcast_S1600000_S1600000x1_0 : (⟨S1600000, .f32⟩ : BufTy).Contents (Elt F) → (⟨S1600000x1, .f32⟩ : BufTy).Contents (Elt F)),
    unary main_v37 main_v38 (broadcastInDim S1600000x128 ![0, 1] bcast_S1600000x1_S1600000x128_0_1 : (⟨S1600000x1, .f32⟩ : BufTy).Contents (Elt F) → (⟨S1600000x128, .f32⟩ : BufTy).Contents (Elt F)),
    binary main_v36 main_v38 main_v39 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v40 (broadcastInDim S50000x128 ![] bcast_S_S50000x128 : (⟨S_, .f32⟩ : BufTy).Contents (Elt F) → (⟨S50000x128, .f32⟩ : BufTy).Contents (Elt F)),
    unary main_v3 main_v41 (broadcastInDim S1600000x1 ![0] bcast_S1600000_S1600000x1_0 : (⟨S1600000, .i32⟩ : BufTy).Contents (Elt F) → (⟨S1600000x1, .i32⟩ : BufTy).Contents (Elt F)),
    ternary main_v40 main_v41 main_v39 main_v42 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

/-- Stretch B3 (operations 58 … 68): layer 1: the self-loop term and the bias. -/
abbrev opsB3 : List (HloOp τ sig (Elt F)) :=
  [ nullary main_cst_10 (constant S_ .f32 0x40000000#32),
    unary main_cst_10 main_v43 (broadcastInDim S50000 ![] bcast_S_S50000 : (⟨S_, .f32⟩ : BufTy).Contents (Elt F) → (⟨S50000, .f32⟩ : BufTy).Contents (Elt F)),
    binary main_v43 main_v14 main_v44 (mulf : (⟨S50000, .f32⟩ : BufTy).Contents (Elt F) → (⟨S50000, .f32⟩ : BufTy).Contents (Elt F) → (⟨S50000, .f32⟩ : BufTy).Contents (Elt F)),
    binary main_v44 main_v14 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x128 ![0, 1] bcast_S50000x1_S50000x128_0_1 : (⟨S50000x1, .f32⟩ : BufTy).Contents (Elt F) → (⟨S50000x128, .f32⟩ : BufTy).Contents (Elt F)),
    binary main_v4 main_v47 main_v48 (mulf : (⟨S50000x128, .f32⟩ : BufTy).Contents (Elt F) → (⟨S50000x128, .f32⟩ : BufTy).Contents (Elt F) → (⟨S50000x128, .f32⟩ : BufTy).Contents (Elt F)),
    binary main_v42 main_v48 main_v49 (addf : (⟨S50000x128, .f32⟩ : BufTy).Contents (Elt F) → (⟨S50000x128, .f32⟩ : BufTy).Contents (Elt F) → (⟨S50000x128, .f32⟩ : BufTy).Contents (Elt F)),
    unary main_arg3 main_v50 (broadcastInDim S1x128 ![1] bcast_S128_S1x128_1 : (⟨S128, .f32⟩ : BufTy).Contents (Elt F) → (⟨S1x128, .f32⟩ : BufTy).Contents (Elt F)),
    unary main_v50 main_v51 (broadcastInDim S50000x128 ![0, 1] bcast_S1x128_S50000x128_0_1 : (⟨S1x128, .f32⟩ : BufTy).Contents (Elt F) → (⟨S50000x128, .f32⟩ : BufTy).Contents (Elt F)),
    binary main_v49 main_v51 main_v52 (addf : (⟨S50000x128, .f32⟩ : BufTy).Contents (Elt F) → (⟨S50000x128, .f32⟩ : BufTy).Contents (Elt F) → (⟨S50000x128, .f32⟩ : BufTy).Contents (Elt F)) ]

/-- Stretch C1 (operations 69 … 83): layer 1: the rows' means and variances. -/
abbrev opsC1 : List (HloOp τ sig (Elt F)) :=
  [ nullary main_cst_11 (constant S_ .f32 0x00000000#32),
    binary main_v52 main_cst_11 main_v53 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v53 main_v54 (broadcastInDim S50000x1 ![0] bcast_S50000_S50000x1_0 : (⟨S50000, .f32⟩ : BufTy).Contents (Elt F) → (⟨S50000x1, .f32⟩ : BufTy).Contents (Elt F)),
    nullary main_cst_12 (constant S_ .f32 0x43000000#32),
    unary main_cst_12 main_v55 (broadcastInDim S50000x1 ![] bcast_S_S50000x1 : (⟨S_, .f32⟩ : BufTy).Contents (Elt F) → (⟨S50000x1, .f32⟩ : BufTy).Contents (Elt F)),
    binary main_v54 main_v55 main_v56 (Host.divf : (⟨S50000x1, .f32⟩ : BufTy).Contents (Elt F) → (⟨S50000x1, .f32⟩ : BufTy).Contents (Elt F) → (⟨S50000x1, .f32⟩ : BufTy).Contents (Elt F)),
    unary main_v56 main_v57 (broadcastInDim S50000x128 ![0, 1] bcast_S50000x1_S50000x128_0_1 : (⟨S50000x1, .f32⟩ : BufTy).Contents (Elt F) → (⟨S50000x128, .f32⟩ : BufTy).Contents (Elt F)),
    binary main_v52 main_v57 main_v58 (subf : (⟨S50000x128, .f32⟩ : BufTy).Contents (Elt F) → (⟨S50000x128, .f32⟩ : BufTy).Contents (Elt F) → (⟨S50000x128, .f32⟩ : BufTy).Contents (Elt F)),
    binary main_v58 main_v58 main_v59 (mulf : (⟨S50000x128, .f32⟩ : BufTy).Contents (Elt F) → (⟨S50000x128, .f32⟩ : BufTy).Contents (Elt F) → (⟨S50000x128, .f32⟩ : BufTy).Contents (Elt F)),
    nullary main_cst_13 (constant S_ .f32 0x00000000#32),
    binary main_v59 main_cst_13 main_v60 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v60 main_v61 (broadcastInDim S50000x1 ![0] bcast_S50000_S50000x1_0 : (⟨S50000, .f32⟩ : BufTy).Contents (Elt F) → (⟨S50000x1, .f32⟩ : BufTy).Contents (Elt F)),
    nullary main_cst_14 (constant S_ .f32 0x43000000#32),
    unary main_cst_14 main_v62 (broadcastInDim S50000x1 ![] bcast_S_S50000x1 : (⟨S_, .f32⟩ : BufTy).Contents (Elt F) → (⟨S50000x1, .f32⟩ : BufTy).Contents (Elt F)),
    binary main_v61 main_v62 main_v63 (Host.divf : (⟨S50000x1, .f32⟩ : BufTy).Contents (Elt F) → (⟨S50000x1, .f32⟩ : BufTy).Contents (Elt F) → (⟨S50000x1, .f32⟩ : BufTy).Contents (Elt F)) ]

/-- Stretch C2 (operations 84 … 100): layer 1: the normalised rows, scaled, shifted, rectified. -/
abbrev opsC2 : List (HloOp τ sig (Elt F)) :=
  [ unary main_v56 main_v64 (broadcastInDim S50000x128 ![0, 1] bcast_S50000x1_S50000x128_0_1 : (⟨S50000x1, .f32⟩ : BufTy).Contents (Elt F) → (⟨S50000x128, .f32⟩ : BufTy).Contents (Elt F)),
    binary main_v52 main_v64 main_v65 (subf : (⟨S50000x128, .f32⟩ : BufTy).Contents (Elt F) → (⟨S50000x128, .f32⟩ : BufTy).Contents (Elt F) → (⟨S50000x128, .f32⟩ : BufTy).Contents (Elt F)),
    nullary main_cst_15 (constant S_ .f32 0x3727C5AC#32),
    unary main_cst_15 main_v66 (broadcastInDim S50000x1 ![] bcast_S_S50000x1 : (⟨S_, .f32⟩ : BufTy).Contents (Elt F) → (⟨S50000x1, .f32⟩ : BufTy).Contents (Elt F)),
    binary main_v63 main_v66 main_v67 (addf : (⟨S50000x1, .f32⟩ : BufTy).Contents (Elt F) → (⟨S50000x1, .f32⟩ : BufTy).Contents (Elt F) → (⟨S50000x1, .f32⟩ : BufTy).Contents (Elt F)),
    unary main_v67 main_v68 (Host.rsqrt : (⟨S50000x1, .f32⟩ : BufTy).Contents (Elt F) → (⟨S50000x1, .f32⟩ : BufTy).Contents (Elt F)),
    unary main_v68 main_v69 (broadcastInDim S50000x128 ![0, 1] bcast_S50000x1_S50000x128_0_1 : (⟨S50000x1, .f32⟩ : BufTy).Contents (Elt F) → (⟨S50000x128, .f32⟩ : BufTy).Contents (Elt F)),
    binary main_v65 main_v69 main_v70 (mulf : (⟨S50000x128, .f32⟩ : BufTy).Contents (Elt F) → (⟨S50000x128, .f32⟩ : BufTy).Contents (Elt F) → (⟨S50000x128, .f32⟩ : BufTy).Contents (Elt F)),
    unary main_arg4 main_v71 (broadcastInDim S1x128 ![1] bcast_S128_S1x128_1 : (⟨S128, .f32⟩ : BufTy).Contents (Elt F) → (⟨S1x128, .f32⟩ : BufTy).Contents (Elt F)),
    unary main_v71 main_v72 (broadcastInDim S50000x128 ![0, 1] bcast_S1x128_S50000x128_0_1 : (⟨S1x128, .f32⟩ : BufTy).Contents (Elt F) → (⟨S50000x128, .f32⟩ : BufTy).Contents (Elt F)),
    binary main_v70 main_v72 main_v73 (mulf : (⟨S50000x128, .f32⟩ : BufTy).Contents (Elt F) → (⟨S50000x128, .f32⟩ : BufTy).Contents (Elt F) → (⟨S50000x128, .f32⟩ : BufTy).Contents (Elt F)),
    unary main_arg5 main_v74 (broadcastInDim S1x128 ![1] bcast_S128_S1x128_1 : (⟨S128, .f32⟩ : BufTy).Contents (Elt F) → (⟨S1x128, .f32⟩ : BufTy).Contents (Elt F)),
    unary main_v74 main_v75 (broadcastInDim S50000x128 ![0, 1] bcast_S1x128_S50000x128_0_1 : (⟨S1x128, .f32⟩ : BufTy).Contents (Elt F) → (⟨S50000x128, .f32⟩ : BufTy).Contents (Elt F)),
    binary main_v73 main_v75 main_v76 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v76) (TRef.of (T := ⟨S50000x128, .f32⟩) main_call1_v0) (TRef.of (T := ⟨S50000x128, .f32⟩) main_v77) maximumf ]

/-- Stretch D1 (operations 101 … 118): layer 2: `h1 · w2` and the degree factor again. -/
abbrev opsD1 : List (HloOp τ sig (Elt F)) :=
  [ binary main_v77 main_arg6 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_cst_16 (constant S_ .f32 0x3F800000#32),
    unary main_cst_16 main_v79 (broadcastInDim S1600000 ![] bcast_S_S1600000 : (⟨S_, .f32⟩ : BufTy).Contents (Elt F) → (⟨S1600000, .f32⟩ : BufTy).Contents (Elt F)),
    nullary main_cst_17 (constant S_ .f32 0x00000000#32),
    unary main_cst_17 main_v80 (broadcastInDim S50000 ![] bcast_S_S50000 : (⟨S_, .f32⟩ : BufTy).Contents (Elt F) → (⟨S50000, .f32⟩ : BufTy).Contents (Elt F)),
    unary main_v3 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S50000_S1600000x1_S1600000_n_0_0_1 x i u) : (⟨S50000, .f32⟩ : BufTy).Contents (Elt F) → (⟨S1600000x1, .i32⟩ : BufTy).Contents (Elt F) → (⟨S1600000, .f32⟩ : BufTy).Contents (Elt F) → (⟨S50000, .f32⟩ : BufTy).Contents (Elt F)),
    nullary main_cst_18 (constant S_ .f32 0x40000000#32),
    unary main_cst_18 main_v83 (broadcastInDim S50000 ![] bcast_S_S50000 : (⟨S_, .f32⟩ : BufTy).Contents (Elt F) → (⟨S50000, .f32⟩ : BufTy).Contents (Elt F)),
    binary main_v82 main_v83 main_v84 (addf : (⟨S50000, .f32⟩ : BufTy).Contents (Elt F) → (⟨S50000, .f32⟩ : BufTy).Contents (Elt F) → (⟨S50000, .f32⟩ : BufTy).Contents (Elt F)),
    nullary main_cst_19 (constant S_ .f32 0x00000000#32),
    unary main_cst_19 main_v85 (broadcastInDim S50000 ![] bcast_S_S50000 : (⟨S_, .f32⟩ : BufTy).Contents (Elt F) → (⟨S50000, .f32⟩ : BufTy).Contents (Elt F)),
    binary main_v84 main_v85 main_v86 (cmpf .ogt : (⟨S50000, .f32⟩ : BufTy).Contents (Elt F) → (⟨S50000, .f32⟩ : BufTy).Contents (Elt F) → (⟨S50000, .i1⟩ : BufTy).Contents (Elt F)),
    unary main_v84 main_v87 (Host.rsqrt : (⟨S50000, .f32⟩ : BufTy).Contents (Elt F) → (⟨S50000, .f32⟩ : BufTy).Contents (Elt F)),
    nullary main_cst_20 (constant S_ .f32 0x00000000#32),
    TRef.unary (TRef.of (T := ⟨S_, .f32⟩) main_cst_20) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v86) (TRef.of (T := ⟨S50000, .f32⟩) main_v87) (TRef.of (T := ⟨S50000, .f32⟩) main_call2_v1) (TRef.of (T := ⟨S50000, .f32⟩) main_v88) select ]

/-- Stretch D2 (operations 119 … 137): layer 2: the per-edge factor. -/
abbrev opsD2 : List (HloOp τ sig (Elt F)) :=
  [ nullary main_c_21 (constantI S_ 32 0#32),
    unary main_c_21 main_v89 (broadcastInDim S1600000 ![] bcast_S_S1600000 : (⟨S_, .i32⟩ : BufTy).Contents (Elt F) → (⟨S1600000, .i32⟩ : BufTy).Contents (Elt F)),
    binary main_v1 main_v89 main_v90 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 50000#32),
    unary main_c_22 main_v91 (broadcastInDim S1600000 ![] bcast_S_S1600000 : (⟨S_, .i32⟩ : BufTy).Contents (Elt F) → (⟨S1600000, .i32⟩ : BufTy).Contents (Elt F)),
    binary main_v1 main_v91 main_v92 (addi : (⟨S1600000, .i32⟩ : BufTy).Contents (Elt F) → (⟨S1600000, .i32⟩ : BufTy).Contents (Elt F) → (⟨S1600000, .i32⟩ : BufTy).Contents (Elt F)),
    ternary main_v90 main_v92 main_v1 main_v93 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v93 main_v94 (broadcastInDim S1600000x1 ![0] bcast_S1600000_S1600000x1_0 : (⟨S1600000, .i32⟩ : BufTy).Contents (Elt F) → (⟨S1600000x1, .i32⟩ : BufTy).Contents (Elt F)),
    binary main_v88 main_v94 main_v95 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    nullary main_c_23 (constantI S_ 32 0#32),
    unary main_c_23 main_v96 (broadcastInDim S1600000 ![] bcast_S_S1600000 : (⟨S_, .i32⟩ : BufTy).Contents (Elt F) → (⟨S1600000, .i32⟩ : BufTy).Contents (Elt F)),
    binary main_v3 main_v96 main_v97 (cmpi .slt : (⟨S1600000, .i32⟩ : BufTy).Contents (Elt F) → (⟨S1600000, .i32⟩ : BufTy).Contents (Elt F) → (⟨S1600000, .i1⟩ : BufTy).Contents (Elt F)),
    nullary main_c_24 (constantI S_ 32 50000#32),
    unary main_c_24 main_v98 (broadcastInDim S1600000 ![] bcast_S_S1600000 : (⟨S_, .i32⟩ : BufTy).Contents (Elt F) → (⟨S1600000, .i32⟩ : BufTy).Contents (Elt F)),
    binary main_v3 main_v98 main_v99 (addi : (⟨S1600000, .i32⟩ : BufTy).Contents (Elt F) → (⟨S1600000, .i32⟩ : BufTy).Contents (Elt F) → (⟨S1600000, .i32⟩ : BufTy).Contents (Elt F)),
    ternary main_v97 main_v99 main_v3 main_v100 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v100 main_v101 (broadcastInDim S1600000x1 ![0] bcast_S1600000_S1600000x1_0 : (⟨S1600000, .i32⟩ : BufTy).Contents (Elt F) → (⟨S1600000x1, .i32⟩ : BufTy).Contents (Elt F)),
    binary main_v88 main_v101 main_v102 ((fun x i => Host.gather gather_S50000_S1600000x1_S1600000_n_0_n_n_0_1_1 x i) : (⟨S50000, .f32⟩ : BufTy).Contents (Elt F) → (⟨S1600000x1, .i32⟩ : BufTy).Contents (Elt F) → (⟨S1600000, .f32⟩ : BufTy).Contents (Elt F)),
    binary main_v95 main_v102 main_v103 (mulf : (⟨S1600000, .f32⟩ : BufTy).Contents (Elt F) → (⟨S1600000, .f32⟩ : BufTy).Contents (Elt F) → (⟨S1600000, .f32⟩ : BufTy).Contents (Elt F)) ]

/-- Stretch D3 (operations 138 … 153): layer 2: the gathered rows scaled and accumulated. -/
abbrev opsD3 : List (HloOp τ sig (Elt F)) :=
  [ nullary main_c_25 (constantI S_ 32 0#32),
    unary main_c_25 main_v104 (broadcastInDim S1600000 ![] bcast_S_S1600000 : (⟨S_, .i32⟩ : BufTy).Contents (Elt F) → (⟨S1600000, .i32⟩ : BufTy).Contents (Elt F)),
    binary main_v1 main_v104 main_v105 (cmpi .slt : (⟨S1600000, .i32⟩ : BufTy).Contents (Elt F) → (⟨S1600000, .i32⟩ : BufTy).Contents (Elt F) → (⟨S1600000, .i1⟩ : BufTy).Contents (Elt F)),
    nullary main_c_26 (constantI S_ 32 50000#32),
    unary main_c_26 main_v106 (broadcastInDim S1600000 ![] bcast_S_S1600000 : (⟨S_, .i32⟩ : BufTy).Contents (Elt F) → (⟨S1600000, .i32⟩ : BufTy).Contents (Elt F)),
    binary main_v1 main_v106 main_v107 (addi : (⟨S1600000, .i32⟩ : BufTy).Contents (Elt F) → (⟨S1600000, .i32⟩ : BufTy).Contents (Elt F) → (⟨S1600000, .i32⟩ : BufTy).Contents (Elt F)),
    ternary main_v105 main_v107 main_v1 main_v108 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v108 main_v109 (broadcastInDim S1600000x1 ![0] bcast_S1600000_S1600000x1_0 : (⟨S1600000, .i32⟩ : BufTy).Contents (Elt F) → (⟨S1600000x1, .i32⟩ : BufTy).Contents (Elt F)),
    binary main_v78 main_v109 main_v110 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_v103 main_v111 (broadcastInDim S1600000x1 ![0] bcast_S1600000_S1600000x1_0 : (⟨S1600000, .f32⟩ : BufTy).Contents (Elt F) → (⟨S1600000x1, .f32⟩ : BufTy).Contents (Elt F)),
    unary main_v111 main_v112 (broadcastInDim S1600000x128 ![0, 1] bcast_S1600000x1_S1600000x128_0_1 : (⟨S1600000x1, .f32⟩ : BufTy).Contents (Elt F) → (⟨S1600000x128, .f32⟩ : BufTy).Contents (Elt F)),
    binary main_v110 main_v112 main_v113 (mulf : (⟨S1600000x128, .f32⟩ : BufTy).Contents (Elt F) → (⟨S1600000x128, .f32⟩ : BufTy).Contents (Elt F) → (⟨S1600000x128, .f32⟩ : BufTy).Contents (Elt F)),
    nullary main_cst_27 (constant S_ .f32 0x00000000#32),
    unary main_cst_27 main_v114 (broadcastInDim S50000x128 ![] bcast_S_S50000x128 : (⟨S_, .f32⟩ : BufTy).Contents (Elt F) → (⟨S50000x128, .f32⟩ : BufTy).Contents (Elt F)),
    unary main_v3 main_v115 (broadcastInDim S1600000x1 ![0] bcast_S1600000_S1600000x1_0 : (⟨S1600000, .i32⟩ : BufTy).Contents (Elt F) → (⟨S1600000x1, .i32⟩ : BufTy).Contents (Elt F)),
    ternary main_v114 main_v115 main_v113 main_v116 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)) ]

/-- Stretch D4 (operations 154 … 164): layer 2: the self-loop term and the bias. -/
abbrev opsD4 : List (HloOp τ sig (Elt F)) :=
  [ nullary main_cst_28 (constant S_ .f32 0x40000000#32),
    unary main_cst_28 main_v117 (broadcastInDim S50000 ![] bcast_S_S50000 : (⟨S_, .f32⟩ : BufTy).Contents (Elt F) → (⟨S50000, .f32⟩ : BufTy).Contents (Elt F)),
    binary main_v117 main_v88 main_v118 (mulf : (⟨S50000, .f32⟩ : BufTy).Contents (Elt F) → (⟨S50000, .f32⟩ : BufTy).Contents (Elt F) → (⟨S50000, .f32⟩ : BufTy).Contents (Elt F)),
    binary main_v118 main_v88 main_v119 (mulf : (⟨S50000, .f32⟩ : BufTy).Contents (Elt F) → (⟨S50000, .f32⟩ : BufTy).Contents (Elt F) → (⟨S50000, .f32⟩ : BufTy).Contents (Elt F)),
    unary main_v119 main_v120 (broadcastInDim S50000x1 ![0] bcast_S50000_S50000x1_0 : (⟨S50000, .f32⟩ : BufTy).Contents (Elt F) → (⟨S50000x1, .f32⟩ : BufTy).Contents (Elt F)),
    unary main_v120 main_v121 (broadcastInDim S50000x128 ![0, 1] bcast_S50000x1_S50000x128_0_1 : (⟨S50000x1, .f32⟩ : BufTy).Contents (Elt F) → (⟨S50000x128, .f32⟩ : BufTy).Contents (Elt F)),
    binary main_v78 main_v121 main_v122 (mulf : (⟨S50000x128, .f32⟩ : BufTy).Contents (Elt F) → (⟨S50000x128, .f32⟩ : BufTy).Contents (Elt F) → (⟨S50000x128, .f32⟩ : BufTy).Contents (Elt F)),
    binary main_v116 main_v122 main_v123 (addf : (⟨S50000x128, .f32⟩ : BufTy).Contents (Elt F) → (⟨S50000x128, .f32⟩ : BufTy).Contents (Elt F) → (⟨S50000x128, .f32⟩ : BufTy).Contents (Elt F)),
    unary main_arg7 main_v124 (broadcastInDim S1x128 ![1] bcast_S128_S1x128_1 : (⟨S128, .f32⟩ : BufTy).Contents (Elt F) → (⟨S1x128, .f32⟩ : BufTy).Contents (Elt F)),
    unary main_v124 main_v125 (broadcastInDim S50000x128 ![0, 1] bcast_S1x128_S50000x128_0_1 : (⟨S1x128, .f32⟩ : BufTy).Contents (Elt F) → (⟨S50000x128, .f32⟩ : BufTy).Contents (Elt F)),
    binary main_v123 main_v125 main_v126 (addf : (⟨S50000x128, .f32⟩ : BufTy).Contents (Elt F) → (⟨S50000x128, .f32⟩ : BufTy).Contents (Elt F) → (⟨S50000x128, .f32⟩ : BufTy).Contents (Elt F)) ]

/-- Stretch E (operations 165 … 193): layer 2: the normalisation. -/
abbrev opsE : List (HloOp τ sig (Elt F)) :=
  [ nullary main_cst_29 (constant S_ .f32 0x00000000#32),
    binary main_v126 main_cst_29 main_v127 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v127 main_v128 (broadcastInDim S50000x1 ![0] bcast_S50000_S50000x1_0 : (⟨S50000, .f32⟩ : BufTy).Contents (Elt F) → (⟨S50000x1, .f32⟩ : BufTy).Contents (Elt F)),
    nullary main_cst_30 (constant S_ .f32 0x43000000#32),
    unary main_cst_30 main_v129 (broadcastInDim S50000x1 ![] bcast_S_S50000x1 : (⟨S_, .f32⟩ : BufTy).Contents (Elt F) → (⟨S50000x1, .f32⟩ : BufTy).Contents (Elt F)),
    binary main_v128 main_v129 main_v130 (Host.divf : (⟨S50000x1, .f32⟩ : BufTy).Contents (Elt F) → (⟨S50000x1, .f32⟩ : BufTy).Contents (Elt F) → (⟨S50000x1, .f32⟩ : BufTy).Contents (Elt F)),
    unary main_v130 main_v131 (broadcastInDim S50000x128 ![0, 1] bcast_S50000x1_S50000x128_0_1 : (⟨S50000x1, .f32⟩ : BufTy).Contents (Elt F) → (⟨S50000x128, .f32⟩ : BufTy).Contents (Elt F)),
    binary main_v126 main_v131 main_v132 (subf : (⟨S50000x128, .f32⟩ : BufTy).Contents (Elt F) → (⟨S50000x128, .f32⟩ : BufTy).Contents (Elt F) → (⟨S50000x128, .f32⟩ : BufTy).Contents (Elt F)),
    binary main_v132 main_v132 main_v133 (mulf : (⟨S50000x128, .f32⟩ : BufTy).Contents (Elt F) → (⟨S50000x128, .f32⟩ : BufTy).Contents (Elt F) → (⟨S50000x128, .f32⟩ : BufTy).Contents (Elt F)),
    nullary main_cst_31 (constant S_ .f32 0x00000000#32),
    binary main_v133 main_cst_31 main_v134 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v134 main_v135 (broadcastInDim S50000x1 ![0] bcast_S50000_S50000x1_0 : (⟨S50000, .f32⟩ : BufTy).Contents (Elt F) → (⟨S50000x1, .f32⟩ : BufTy).Contents (Elt F)),
    nullary main_cst_32 (constant S_ .f32 0x43000000#32),
    unary main_cst_32 main_v136 (broadcastInDim S50000x1 ![] bcast_S_S50000x1 : (⟨S_, .f32⟩ : BufTy).Contents (Elt F) → (⟨S50000x1, .f32⟩ : BufTy).Contents (Elt F)),
    binary main_v135 main_v136 main_v137 (Host.divf : (⟨S50000x1, .f32⟩ : BufTy).Contents (Elt F) → (⟨S50000x1, .f32⟩ : BufTy).Contents (Elt F) → (⟨S50000x1, .f32⟩ : BufTy).Contents (Elt F)),
    unary main_v130 main_v138 (broadcastInDim S50000x128 ![0, 1] bcast_S50000x1_S50000x128_0_1 : (⟨S50000x1, .f32⟩ : BufTy).Contents (Elt F) → (⟨S50000x128, .f32⟩ : BufTy).Contents (Elt F)),
    binary main_v126 main_v138 main_v139 (subf : (⟨S50000x128, .f32⟩ : BufTy).Contents (Elt F) → (⟨S50000x128, .f32⟩ : BufTy).Contents (Elt F) → (⟨S50000x128, .f32⟩ : BufTy).Contents (Elt F)),
    nullary main_cst_33 (constant S_ .f32 0x3727C5AC#32),
    unary main_cst_33 main_v140 (broadcastInDim S50000x1 ![] bcast_S_S50000x1 : (⟨S_, .f32⟩ : BufTy).Contents (Elt F) → (⟨S50000x1, .f32⟩ : BufTy).Contents (Elt F)),
    binary main_v137 main_v140 main_v141 (addf : (⟨S50000x1, .f32⟩ : BufTy).Contents (Elt F) → (⟨S50000x1, .f32⟩ : BufTy).Contents (Elt F) → (⟨S50000x1, .f32⟩ : BufTy).Contents (Elt F)),
    unary main_v141 main_v142 (Host.rsqrt : (⟨S50000x1, .f32⟩ : BufTy).Contents (Elt F) → (⟨S50000x1, .f32⟩ : BufTy).Contents (Elt F)),
    unary main_v142 main_v143 (broadcastInDim S50000x128 ![0, 1] bcast_S50000x1_S50000x128_0_1 : (⟨S50000x1, .f32⟩ : BufTy).Contents (Elt F) → (⟨S50000x128, .f32⟩ : BufTy).Contents (Elt F)),
    binary main_v139 main_v143 main_v144 (mulf : (⟨S50000x128, .f32⟩ : BufTy).Contents (Elt F) → (⟨S50000x128, .f32⟩ : BufTy).Contents (Elt F) → (⟨S50000x128, .f32⟩ : BufTy).Contents (Elt F)),
    unary main_arg8 main_v145 (broadcastInDim S1x128 ![1] bcast_S128_S1x128_1 : (⟨S128, .f32⟩ : BufTy).Contents (Elt F) → (⟨S1x128, .f32⟩ : BufTy).Contents (Elt F)),
    unary main_v145 main_v146 (broadcastInDim S50000x128 ![0, 1] bcast_S1x128_S50000x128_0_1 : (⟨S1x128, .f32⟩ : BufTy).Contents (Elt F) → (⟨S50000x128, .f32⟩ : BufTy).Contents (Elt F)),
    binary main_v144 main_v146 main_v147 (mulf : (⟨S50000x128, .f32⟩ : BufTy).Contents (Elt F) → (⟨S50000x128, .f32⟩ : BufTy).Contents (Elt F) → (⟨S50000x128, .f32⟩ : BufTy).Contents (Elt F)),
    unary main_arg9 main_v148 (broadcastInDim S1x128 ![1] bcast_S128_S1x128_1 : (⟨S128, .f32⟩ : BufTy).Contents (Elt F) → (⟨S1x128, .f32⟩ : BufTy).Contents (Elt F)),
    unary main_v148 main_v149 (broadcastInDim S50000x128 ![0, 1] bcast_S1x128_S50000x128_0_1 : (⟨S1x128, .f32⟩ : BufTy).Contents (Elt F) → (⟨S50000x128, .f32⟩ : BufTy).Contents (Elt F)),
    binary main_v147 main_v149 main_v150 (addf : (⟨S50000x128, .f32⟩ : BufTy).Contents (Elt F) → (⟨S50000x128, .f32⟩ : BufTy).Contents (Elt F) → (⟨S50000x128, .f32⟩ : BufTy).Contents (Elt F)) ]

/-- Stretch F (operations 194 … 217): the gate and the residual. -/
abbrev opsF : List (HloOp τ sig (Elt F)) :=
  [ binary main_v150 main_arg10 main_v151 ((fun l r => Host.dotGeneral dot_S50000x128_S128x16_S50000x16_1_0_0_1_n_n none l r) : (⟨S50000x128, .f32⟩ : BufTy).Contents (Elt F) → (⟨S128x16, .f32⟩ : BufTy).Contents (Elt F) → (⟨S50000x16, .f32⟩ : BufTy).Contents (Elt F)),
    unary main_arg11 main_v152 (broadcastInDim S1x16 ![1] bcast_S16_S1x16_1 : (⟨S16, .f32⟩ : BufTy).Contents (Elt F) → (⟨S1x16, .f32⟩ : BufTy).Contents (Elt F)),
    unary main_v152 main_v153 (broadcastInDim S50000x16 ![0, 1] bcast_S1x16_S50000x16_0_1 : (⟨S1x16, .f32⟩ : BufTy).Contents (Elt F) → (⟨S50000x16, .f32⟩ : BufTy).Contents (Elt F)),
    binary main_v151 main_v153 main_v154 (addf : (⟨S50000x16, .f32⟩ : BufTy).Contents (Elt F) → (⟨S50000x16, .f32⟩ : BufTy).Contents (Elt F) → (⟨S50000x16, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x16, .f32⟩) main_call3_v0) (broadcastInDim S50000x16 ![] bcast_S_S50000x16),
    TRef.binary (TRef.of (T := ⟨S50000x16, .f32⟩) main_v154) (TRef.of (T := ⟨S50000x16, .f32⟩) main_call3_v0) (TRef.of (T := ⟨S50000x16, .f32⟩) main_v155) maximumf,
    binary main_v155 main_arg12 main_v156 ((fun l r => Host.dotGeneral dot_S50000x16_S16x128_S50000x128_1_0_0_1_n_n none l r) : (⟨S50000x16, .f32⟩ : BufTy).Contents (Elt F) → (⟨S16x128, .f32⟩ : BufTy).Contents (Elt F) → (⟨S50000x128, .f32⟩ : BufTy).Contents (Elt F)),
    unary main_arg13 main_v157 (broadcastInDim S1x128 ![1] bcast_S128_S1x128_1 : (⟨S128, .f32⟩ : BufTy).Contents (Elt F) → (⟨S1x128, .f32⟩ : BufTy).Contents (Elt F)),
    unary main_v157 main_v158 (broadcastInDim S50000x128 ![0, 1] bcast_S1x128_S50000x128_0_1 : (⟨S1x128, .f32⟩ : BufTy).Contents (Elt F) → (⟨S50000x128, .f32⟩ : BufTy).Contents (Elt F)),
    binary main_v156 main_v158 main_v159 (addf : (⟨S50000x128, .f32⟩ : BufTy).Contents (Elt F) → (⟨S50000x128, .f32⟩ : BufTy).Contents (Elt F) → (⟨S50000x128, .f32⟩ : BufTy).Contents (Elt F)),
    unary main_v159 main_v160 (Host.negf : (⟨S50000x128, .f32⟩ : BufTy).Contents (Elt F) → (⟨S50000x128, .f32⟩ : BufTy).Contents (Elt F)),
    unary main_v160 main_v161 (Host.exp : (⟨S50000x128, .f32⟩ : BufTy).Contents (Elt F) → (⟨S50000x128, .f32⟩ : BufTy).Contents (Elt F)),
    nullary main_cst_34 (constant S_ .f32 0x3F800000#32),
    unary main_cst_34 main_v162 (broadcastInDim S50000x128 ![] bcast_S_S50000x128 : (⟨S_, .f32⟩ : BufTy).Contents (Elt F) → (⟨S50000x128, .f32⟩ : BufTy).Contents (Elt F)),
    binary main_v162 main_v161 main_v163 (addf : (⟨S50000x128, .f32⟩ : BufTy).Contents (Elt F) → (⟨S50000x128, .f32⟩ : BufTy).Contents (Elt F) → (⟨S50000x128, .f32⟩ : BufTy).Contents (Elt F)),
    nullary main_cst_35 (constant S_ .f32 0x3F800000#32),
    unary main_cst_35 main_v164 (broadcastInDim S50000x128 ![] bcast_S_S50000x128 : (⟨S_, .f32⟩ : BufTy).Contents (Elt F) → (⟨S50000x128, .f32⟩ : BufTy).Contents (Elt F)),
    binary main_v164 main_v163 main_v165 (Host.divf : (⟨S50000x128, .f32⟩ : BufTy).Contents (Elt F) → (⟨S50000x128, .f32⟩ : BufTy).Contents (Elt F) → (⟨S50000x128, .f32⟩ : BufTy).Contents (Elt F)),
    binary main_v150 main_v165 main_v166 (mulf : (⟨S50000x128, .f32⟩ : BufTy).Contents (Elt F) → (⟨S50000x128, .f32⟩ : BufTy).Contents (Elt F) → (⟨S50000x128, .f32⟩ : BufTy).Contents (Elt F)),
    binary main_v166 main_arg0 main_v167 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S50000x128, .f32⟩) main_call4_v0) (broadcastInDim S50000x128 ![] bcast_S_S50000x128),
    TRef.binary (TRef.of (T := ⟨S50000x128, .f32⟩) main_v167) (TRef.of (T := ⟨S50000x128, .f32⟩) main_call4_v0) (TRef.of (T := ⟨S50000x128, .f32⟩) main_v168) maximumf ]

/-- The line is its twelve stretches in order. -/
theorem ops_eq : (ops : List (HloOp τ sig (Elt F))) = opsA ++ (opsB1 ++ (opsB2 ++ (opsB3 ++ (opsC1 ++ (opsC2 ++ (opsD1 ++ (opsD2 ++ (opsD3 ++ (opsD4 ++ (opsE ++ (opsF))))))))))) := rfl

/-- What the whole line leaves is what the stretches leave one after the other. -/
theorem after_ops (V : Valuation τ sig (Elt F)) :
    after ops V = after opsF (after opsE (after opsD4 (after opsD3 (after opsD2 (after opsD1 (after opsC2 (after opsC1 (after opsB3 (after opsB2 (after opsB1 (after opsA V))))))))))) := by
  rw [ops_eq, StableHlo.after_append, StableHlo.after_append, StableHlo.after_append, StableHlo.after_append, StableHlo.after_append, StableHlo.after_append, StableHlo.after_append, StableHlo.after_append, StableHlo.after_append, StableHlo.after_append, StableHlo.after_append]

/-- A stretch leaves a buffer none of its operations writes as it was. -/
macro "untouched" l:ident : tactic => `(tactic|
  exact StableHlo.after_of_forall_not_mem _ _ (List.forall_iff_forall_mem.mp (by
    simp only [$l:ident, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (U : Valuation τ sig (Elt F))

/-! ## Stretch A: the index vectors, `x · w1`, the degree factor -/

theorem A_v1 : after opsA U (Proc.devRef .tc main_v1) = val_main_v1 (F := F) (U (Proc.devRef .tc main_arg1)) := by
  after_results; rfl

theorem A_v3 : after opsA U (Proc.devRef .tc main_v3) = val_main_v3 (F := F) (U (Proc.devRef .tc main_arg1)) := by
  after_results; rfl

theorem A_v4 : after opsA U (Proc.devRef .tc main_v4) = val_main_v4 (F := F) (U (Proc.devRef .tc main_arg0)) (U (Proc.devRef .tc main_arg2)) := by
  after_results; rfl

theorem A_v14 : after opsA U (Proc.devRef .tc main_v14) = val_main_v14 (F := F) (U (Proc.devRef .tc main_arg1)) := by
  after_results; rfl

/-! ## Stretch B1: layer 1: the per-edge factor `d (src) · d (dst)` -/

set_option maxHeartbeats 1000000 in
theorem B1_v29 (x1 : (⟨S2x1600000, .i32⟩ : BufTy).Contents (Elt F))
    (h_v1 : U (Proc.devRef .tc main_v1) = val_main_v1 (F := F) x1) (h_v14 : U (Proc.devRef .tc main_v14) = val_main_v14 (F := F) x1) (h_v3 : U (Proc.devRef .tc main_v3) = val_main_v3 (F := F) x1) :
    after opsB1 U (Proc.devRef .tc main_v29) = val_main_v29 (F := F) x1 := by
  generalize hR : val_main_v29 (F := F) x1 = R
  after_results
  rw [h_v1, h_v14, h_v3, ← hR]
  rfl

/-! ## Stretch B2: layer 1: the gathered rows scaled and accumulated -/

set_option maxHeartbeats 1000000 in
theorem B2_v42 (x0 : (⟨S50000x128, .f32⟩ : BufTy).Contents (Elt F)) (x1 : (⟨S2x1600000, .i32⟩ : BufTy).Contents (Elt F)) (x2 : (⟨S128x128, .f32⟩ : BufTy).Contents (Elt F))
    (h_v1 : U (Proc.devRef .tc main_v1) = val_main_v1 (F := F) x1) (h_v4 : U (Proc.devRef .tc main_v4) = val_main_v4 (F := F) x0 x2) (h_v29 : U (Proc.devRef .tc main_v29) = val_main_v29 (F := F) x1) (h_v3 : U (Proc.devRef .tc main_v3) = val_main_v3 (F := F) x1) :
    after opsB2 U (Proc.devRef .tc main_v42) = val_main_v42 (F := F) x0 x1 x2 := by
  generalize hR : val_main_v42 (F := F) x0 x1 x2 = R
  after_results
  rw [h_v1, h_v4, h_v29, h_v3, ← hR]
  rfl

/-! ## Stretch B3: layer 1: the self-loop term and the bias -/

set_option maxHeartbeats 1000000 in
theorem B3_v52 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (h_v14 : U (Proc.devRef .tc main_v14) = val_main_v14 (F := F) x1) (h_v4 : U (Proc.devRef .tc main_v4) = val_main_v4 (F := F) x0 x2) (h_v42 : U (Proc.devRef .tc main_v42) = val_main_v42 (F := F) x0 x1 x2) (h_arg3 : U (Proc.devRef .tc main_arg3) = x3) :
    after opsB3 U (Proc.devRef .tc main_v52) = val_main_v52 (F := F) x0 x1 x2 x3 := by
  generalize hR : val_main_v52 (F := F) x0 x1 x2 x3 = R
  after_results
  rw [h_v14, h_v4, h_v42, h_arg3, ← hR]
  rfl

/-! ## Stretch C1: layer 1: the rows' means and variances -/

set_option maxHeartbeats 1000000 in
theorem C1_v56 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (h_v52 : U (Proc.devRef .tc main_v52) = val_main_v52 (F := F) x0 x1 x2 x3) :
    after opsC1 U (Proc.devRef .tc main_v56) = val_main_v56 (F := F) x0 x1 x2 x3 := by
  generalize hR : val_main_v56 (F := F) x0 x1 x2 x3 = R
  after_results
  rw [h_v52, ← hR]
  rfl

set_option maxHeartbeats 1000000 in
theorem C1_v63 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F))
    (h_v52 : U (Proc.devRef .tc main_v52) = val_main_v52 (F := F) x0 x1 x2 x3) :
    after opsC1 U (Proc.devRef .tc main_v63) = val_main_v63 (F := F) x0 x1 x2 x3 := by
  generalize hR : val_main_v63 (F := F) x0 x1 x2 x3 = R
  after_results
  rw [h_v52, ← hR]
  rfl

/-! ## Stretch C2: layer 1: the normalised rows, scaled, shifted, rectified -/

set_option maxHeartbeats 1000000 in
theorem C2_v77 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F))
    (h_v56 : U (Proc.devRef .tc main_v56) = val_main_v56 (F := F) x0 x1 x2 x3) (h_v52 : U (Proc.devRef .tc main_v52) = val_main_v52 (F := F) x0 x1 x2 x3) (h_v63 : U (Proc.devRef .tc main_v63) = val_main_v63 (F := F) x0 x1 x2 x3) (h_arg4 : U (Proc.devRef .tc main_arg4) = x4) (h_arg5 : U (Proc.devRef .tc main_arg5) = x5) :
    after opsC2 U (Proc.devRef .tc main_v77) = val_main_v77 (F := F) x0 x1 x2 x3 x4 x5 := by
  generalize hR : val_main_v77 (F := F) x0 x1 x2 x3 x4 x5 = R
  after_results
  rw [h_v56, h_v52, h_v63, h_arg4, h_arg5, ← hR]
  rfl

/-! ## Stretch D1: layer 2: `h1 · w2` and the degree factor again -/

set_option maxHeartbeats 1000000 in
theorem D1_v78 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x128, .f32⟩ : BufTy).Contents (Elt F))
    (h_v77 : U (Proc.devRef .tc main_v77) = val_main_v77 (F := F) x0 x1 x2 x3 x4 x5) (h_arg6 : U (Proc.devRef .tc main_arg6) = x6) :
    after opsD1 U (Proc.devRef .tc main_v78) = val_main_v78 (F := F) x0 x1 x2 x3 x4 x5 x6 := by
  generalize hR : val_main_v78 (F := F) x0 x1 x2 x3 x4 x5 x6 = R
  after_results
  rw [h_v77, h_arg6, ← hR]
  rfl

set_option maxHeartbeats 1000000 in
theorem D1_v88 (x1 : (⟨S2x1600000, .i32⟩ : BufTy).Contents (Elt F))
    (h_v3 : U (Proc.devRef .tc main_v3) = val_main_v3 (F := F) x1) :
    after opsD1 U (Proc.devRef .tc main_v88) = val_main_v88 (F := F) x1 := by
  generalize hR : val_main_v88 (F := F) x1 = R
  after_results
  rw [h_v3, ← hR]
  rfl

/-! ## Stretch D2: layer 2: the per-edge factor -/

set_option maxHeartbeats 1000000 in
theorem D2_v103 (x1 : (⟨S2x1600000, .i32⟩ : BufTy).Contents (Elt F))
    (h_v1 : U (Proc.devRef .tc main_v1) = val_main_v1 (F := F) x1) (h_v88 : U (Proc.devRef .tc main_v88) = val_main_v88 (F := F) x1) (h_v3 : U (Proc.devRef .tc main_v3) = val_main_v3 (F := F) x1) :
    after opsD2 U (Proc.devRef .tc main_v103) = val_main_v103 (F := F) x1 := by
  generalize hR : val_main_v103 (F := F) x1 = R
  after_results
  rw [h_v1, h_v88, h_v3, ← hR]
  rfl

/-! ## Stretch D3: layer 2: the gathered rows scaled and accumulated -/

set_option maxHeartbeats 1000000 in
theorem D3_v116 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x128, .f32⟩ : BufTy).Contents (Elt F))
    (h_v1 : U (Proc.devRef .tc main_v1) = val_main_v1 (F := F) x1) (h_v78 : U (Proc.devRef .tc main_v78) = val_main_v78 (F := F) x0 x1 x2 x3 x4 x5 x6) (h_v103 : U (Proc.devRef .tc main_v103) = val_main_v103 (F := F) x1) (h_v3 : U (Proc.devRef .tc main_v3) = val_main_v3 (F := F) x1) :
    after opsD3 U (Proc.devRef .tc main_v116) = val_main_v116 (F := F) x0 x1 x2 x3 x4 x5 x6 := by
  generalize hR : val_main_v116 (F := F) x0 x1 x2 x3 x4 x5 x6 = R
  after_results
  rw [h_v1, h_v78, h_v103, h_v3, ← hR]
  rfl

/-! ## Stretch D4: layer 2: the self-loop term and the bias -/

set_option maxHeartbeats 1000000 in
theorem D4_v126 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F))
    (h_v88 : U (Proc.devRef .tc main_v88) = val_main_v88 (F := F) x1) (h_v78 : U (Proc.devRef .tc main_v78) = val_main_v78 (F := F) x0 x1 x2 x3 x4 x5 x6) (h_v116 : U (Proc.devRef .tc main_v116) = val_main_v116 (F := F) x0 x1 x2 x3 x4 x5 x6) (h_arg7 : U (Proc.devRef .tc main_arg7) = x7) :
    after opsD4 U (Proc.devRef .tc main_v126) = val_main_v126 (F := F) x0 x1 x2 x3 x4 x5 x6 x7 := by
  generalize hR : val_main_v126 (F := F) x0 x1 x2 x3 x4 x5 x6 x7 = R
  after_results
  rw [h_v88, h_v78, h_v116, h_arg7, ← hR]
  rfl

/-! ## Stretch E: layer 2: the normalisation -/

set_option maxHeartbeats 1000000 in
theorem E_v150 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128, .f32⟩ : BufTy).Contents (Elt F)) (x9 : (⟨S128, .f32⟩ : BufTy).Contents (Elt F))
    (h_v126 : U (Proc.devRef .tc main_v126) = val_main_v126 (F := F) x0 x1 x2 x3 x4 x5 x6 x7) (h_arg8 : U (Proc.devRef .tc main_arg8) = x8) (h_arg9 : U (Proc.devRef .tc main_arg9) = x9) :
    after opsE U (Proc.devRef .tc main_v150) = val_main_v150 (F := F) x0 x1 x2 x3 x4 x5 x6 x7 x8 x9 := by
  generalize hR : val_main_v150 (F := F) x0 x1 x2 x3 x4 x5 x6 x7 x8 x9 = R
  after_results
  rw [h_v126, h_arg8, h_arg9, ← hR]
  rfl

/-! ## Stretch F: the gate and the residual -/

set_option maxHeartbeats 1000000 in
theorem F_v168 (x0 : (⟨S50000x128, .f32⟩ : BufTy).Contents (Elt F)) (x1 : (⟨S2x1600000, .i32⟩ : BufTy).Contents (Elt F)) (x2 : (⟨S128x128, .f32⟩ : BufTy).Contents (Elt F)) (x3 : (⟨S128, .f32⟩ : BufTy).Contents (Elt F)) (x4 : (⟨S128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S128, .f32⟩ : BufTy).Contents (Elt F)) (x9 : (⟨S128, .f32⟩ : BufTy).Contents (Elt F)) (x10 : (⟨S128x16, .f32⟩ : BufTy).Contents (Elt F)) (x11 : (⟨S16, .f32⟩ : BufTy).Contents (Elt F)) (x12 : (⟨S16x128, .f32⟩ : BufTy).Contents (Elt F)) (x13 : (⟨S128, .f32⟩ : BufTy).Contents (Elt F))
    (h_v150 : U (Proc.devRef .tc main_v150) = val_main_v150 (F := F) x0 x1 x2 x3 x4 x5 x6 x7 x8 x9) (h_arg10 : U (Proc.devRef .tc main_arg10) = x10) (h_arg11 : U (Proc.devRef .tc main_arg11) = x11) (h_arg12 : U (Proc.devRef .tc main_arg12) = x12) (h_arg13 : U (Proc.devRef .tc main_arg13) = x13) (h_arg0 : U (Proc.devRef .tc main_arg0) = x0) :
    after opsF U (Proc.devRef .tc main_v168) = val_main_v168 (F := F) x0 x1 x2 x3 x4 x5 x6 x7 x8 x9 x10 x11 x12 x13 := by
  generalize hR : val_main_v168 (F := F) x0 x1 x2 x3 x4 x5 x6 x7 x8 x9 x10 x11 x12 x13 = R
  after_results
  rw [h_v150, h_arg10, h_arg11, h_arg12, h_arg13, h_arg0, ← hR]
  rfl

/-! ## What each stretch leaves untouched -/

theorem keepA_arg3 : after opsA U (Proc.devRef .tc main_arg3) = U (Proc.devRef .tc main_arg3) := by untouched opsA
theorem keepA_arg4 : after opsA U (Proc.devRef .tc main_arg4) = U (Proc.devRef .tc main_arg4) := by untouched opsA
theorem keepA_arg5 : after opsA U (Proc.devRef .tc main_arg5) = U (Proc.devRef .tc main_arg5) := by untouched opsA
theorem keepA_arg6 : after opsA U (Proc.devRef .tc main_arg6) = U (Proc.devRef .tc main_arg6) := by untouched opsA
theorem keepA_arg7 : after opsA U (Proc.devRef .tc main_arg7) = U (Proc.devRef .tc main_arg7) := by untouched opsA
theorem keepA_arg8 : after opsA U (Proc.devRef .tc main_arg8) = U (Proc.devRef .tc main_arg8) := by untouched opsA
theorem keepA_arg9 : after opsA U (Proc.devRef .tc main_arg9) = U (Proc.devRef .tc main_arg9) := by untouched opsA
theorem keepA_arg10 : after opsA U (Proc.devRef .tc main_arg10) = U (Proc.devRef .tc main_arg10) := by untouched opsA
theorem keepA_arg11 : after opsA U (Proc.devRef .tc main_arg11) = U (Proc.devRef .tc main_arg11) := by untouched opsA
theorem keepA_arg12 : after opsA U (Proc.devRef .tc main_arg12) = U (Proc.devRef .tc main_arg12) := by untouched opsA
theorem keepA_arg13 : after opsA U (Proc.devRef .tc main_arg13) = U (Proc.devRef .tc main_arg13) := by untouched opsA
theorem keepA_arg0 : after opsA U (Proc.devRef .tc main_arg0) = U (Proc.devRef .tc main_arg0) := by untouched opsA
theorem keepB1_v1 : after opsB1 U (Proc.devRef .tc main_v1) = U (Proc.devRef .tc main_v1) := by untouched opsB1
theorem keepB1_v4 : after opsB1 U (Proc.devRef .tc main_v4) = U (Proc.devRef .tc main_v4) := by untouched opsB1
theorem keepB1_v3 : after opsB1 U (Proc.devRef .tc main_v3) = U (Proc.devRef .tc main_v3) := by untouched opsB1
theorem keepB1_v14 : after opsB1 U (Proc.devRef .tc main_v14) = U (Proc.devRef .tc main_v14) := by untouched opsB1
theorem keepB1_arg3 : after opsB1 U (Proc.devRef .tc main_arg3) = U (Proc.devRef .tc main_arg3) := by untouched opsB1
theorem keepB1_arg4 : after opsB1 U (Proc.devRef .tc main_arg4) = U (Proc.devRef .tc main_arg4) := by untouched opsB1
theorem keepB1_arg5 : after opsB1 U (Proc.devRef .tc main_arg5) = U (Proc.devRef .tc main_arg5) := by untouched opsB1
theorem keepB1_arg6 : after opsB1 U (Proc.devRef .tc main_arg6) = U (Proc.devRef .tc main_arg6) := by untouched opsB1
theorem keepB1_arg7 : after opsB1 U (Proc.devRef .tc main_arg7) = U (Proc.devRef .tc main_arg7) := by untouched opsB1
theorem keepB1_arg8 : after opsB1 U (Proc.devRef .tc main_arg8) = U (Proc.devRef .tc main_arg8) := by untouched opsB1
theorem keepB1_arg9 : after opsB1 U (Proc.devRef .tc main_arg9) = U (Proc.devRef .tc main_arg9) := by untouched opsB1
theorem keepB1_arg10 : after opsB1 U (Proc.devRef .tc main_arg10) = U (Proc.devRef .tc main_arg10) := by untouched opsB1
theorem keepB1_arg11 : after opsB1 U (Proc.devRef .tc main_arg11) = U (Proc.devRef .tc main_arg11) := by untouched opsB1
theorem keepB1_arg12 : after opsB1 U (Proc.devRef .tc main_arg12) = U (Proc.devRef .tc main_arg12) := by untouched opsB1
theorem keepB1_arg13 : after opsB1 U (Proc.devRef .tc main_arg13) = U (Proc.devRef .tc main_arg13) := by untouched opsB1
theorem keepB1_arg0 : after opsB1 U (Proc.devRef .tc main_arg0) = U (Proc.devRef .tc main_arg0) := by untouched opsB1
theorem keepB2_v14 : after opsB2 U (Proc.devRef .tc main_v14) = U (Proc.devRef .tc main_v14) := by untouched opsB2
theorem keepB2_v4 : after opsB2 U (Proc.devRef .tc main_v4) = U (Proc.devRef .tc main_v4) := by untouched opsB2
theorem keepB2_arg3 : after opsB2 U (Proc.devRef .tc main_arg3) = U (Proc.devRef .tc main_arg3) := by untouched opsB2
theorem keepB2_arg4 : after opsB2 U (Proc.devRef .tc main_arg4) = U (Proc.devRef .tc main_arg4) := by untouched opsB2
theorem keepB2_arg5 : after opsB2 U (Proc.devRef .tc main_arg5) = U (Proc.devRef .tc main_arg5) := by untouched opsB2
theorem keepB2_arg6 : after opsB2 U (Proc.devRef .tc main_arg6) = U (Proc.devRef .tc main_arg6) := by untouched opsB2
theorem keepB2_v3 : after opsB2 U (Proc.devRef .tc main_v3) = U (Proc.devRef .tc main_v3) := by untouched opsB2
theorem keepB2_v1 : after opsB2 U (Proc.devRef .tc main_v1) = U (Proc.devRef .tc main_v1) := by untouched opsB2
theorem keepB2_arg7 : after opsB2 U (Proc.devRef .tc main_arg7) = U (Proc.devRef .tc main_arg7) := by untouched opsB2
theorem keepB2_arg8 : after opsB2 U (Proc.devRef .tc main_arg8) = U (Proc.devRef .tc main_arg8) := by untouched opsB2
theorem keepB2_arg9 : after opsB2 U (Proc.devRef .tc main_arg9) = U (Proc.devRef .tc main_arg9) := by untouched opsB2
theorem keepB2_arg10 : after opsB2 U (Proc.devRef .tc main_arg10) = U (Proc.devRef .tc main_arg10) := by untouched opsB2
theorem keepB2_arg11 : after opsB2 U (Proc.devRef .tc main_arg11) = U (Proc.devRef .tc main_arg11) := by untouched opsB2
theorem keepB2_arg12 : after opsB2 U (Proc.devRef .tc main_arg12) = U (Proc.devRef .tc main_arg12) := by untouched opsB2
theorem keepB2_arg13 : after opsB2 U (Proc.devRef .tc main_arg13) = U (Proc.devRef .tc main_arg13) := by untouched opsB2
theorem keepB2_arg0 : after opsB2 U (Proc.devRef .tc main_arg0) = U (Proc.devRef .tc main_arg0) := by untouched opsB2
theorem keepB3_arg4 : after opsB3 U (Proc.devRef .tc main_arg4) = U (Proc.devRef .tc main_arg4) := by untouched opsB3
theorem keepB3_arg5 : after opsB3 U (Proc.devRef .tc main_arg5) = U (Proc.devRef .tc main_arg5) := by untouched opsB3
theorem keepB3_arg6 : after opsB3 U (Proc.devRef .tc main_arg6) = U (Proc.devRef .tc main_arg6) := by untouched opsB3
theorem keepB3_v3 : after opsB3 U (Proc.devRef .tc main_v3) = U (Proc.devRef .tc main_v3) := by untouched opsB3
theorem keepB3_v1 : after opsB3 U (Proc.devRef .tc main_v1) = U (Proc.devRef .tc main_v1) := by untouched opsB3
theorem keepB3_arg7 : after opsB3 U (Proc.devRef .tc main_arg7) = U (Proc.devRef .tc main_arg7) := by untouched opsB3
theorem keepB3_arg8 : after opsB3 U (Proc.devRef .tc main_arg8) = U (Proc.devRef .tc main_arg8) := by untouched opsB3
theorem keepB3_arg9 : after opsB3 U (Proc.devRef .tc main_arg9) = U (Proc.devRef .tc main_arg9) := by untouched opsB3
theorem keepB3_arg10 : after opsB3 U (Proc.devRef .tc main_arg10) = U (Proc.devRef .tc main_arg10) := by untouched opsB3
theorem keepB3_arg11 : after opsB3 U (Proc.devRef .tc main_arg11) = U (Proc.devRef .tc main_arg11) := by untouched opsB3
theorem keepB3_arg12 : after opsB3 U (Proc.devRef .tc main_arg12) = U (Proc.devRef .tc main_arg12) := by untouched opsB3
theorem keepB3_arg13 : after opsB3 U (Proc.devRef .tc main_arg13) = U (Proc.devRef .tc main_arg13) := by untouched opsB3
theorem keepB3_arg0 : after opsB3 U (Proc.devRef .tc main_arg0) = U (Proc.devRef .tc main_arg0) := by untouched opsB3
theorem keepC1_v52 : after opsC1 U (Proc.devRef .tc main_v52) = U (Proc.devRef .tc main_v52) := by untouched opsC1
theorem keepC1_arg4 : after opsC1 U (Proc.devRef .tc main_arg4) = U (Proc.devRef .tc main_arg4) := by untouched opsC1
theorem keepC1_arg5 : after opsC1 U (Proc.devRef .tc main_arg5) = U (Proc.devRef .tc main_arg5) := by untouched opsC1
theorem keepC1_arg6 : after opsC1 U (Proc.devRef .tc main_arg6) = U (Proc.devRef .tc main_arg6) := by untouched opsC1
theorem keepC1_v3 : after opsC1 U (Proc.devRef .tc main_v3) = U (Proc.devRef .tc main_v3) := by untouched opsC1
theorem keepC1_v1 : after opsC1 U (Proc.devRef .tc main_v1) = U (Proc.devRef .tc main_v1) := by untouched opsC1
theorem keepC1_arg7 : after opsC1 U (Proc.devRef .tc main_arg7) = U (Proc.devRef .tc main_arg7) := by untouched opsC1
theorem keepC1_arg8 : after opsC1 U (Proc.devRef .tc main_arg8) = U (Proc.devRef .tc main_arg8) := by untouched opsC1
theorem keepC1_arg9 : after opsC1 U (Proc.devRef .tc main_arg9) = U (Proc.devRef .tc main_arg9) := by untouched opsC1
theorem keepC1_arg10 : after opsC1 U (Proc.devRef .tc main_arg10) = U (Proc.devRef .tc main_arg10) := by untouched opsC1
theorem keepC1_arg11 : after opsC1 U (Proc.devRef .tc main_arg11) = U (Proc.devRef .tc main_arg11) := by untouched opsC1
theorem keepC1_arg12 : after opsC1 U (Proc.devRef .tc main_arg12) = U (Proc.devRef .tc main_arg12) := by untouched opsC1
theorem keepC1_arg13 : after opsC1 U (Proc.devRef .tc main_arg13) = U (Proc.devRef .tc main_arg13) := by untouched opsC1
theorem keepC1_arg0 : after opsC1 U (Proc.devRef .tc main_arg0) = U (Proc.devRef .tc main_arg0) := by untouched opsC1
theorem keepC2_arg6 : after opsC2 U (Proc.devRef .tc main_arg6) = U (Proc.devRef .tc main_arg6) := by untouched opsC2
theorem keepC2_v3 : after opsC2 U (Proc.devRef .tc main_v3) = U (Proc.devRef .tc main_v3) := by untouched opsC2
theorem keepC2_v1 : after opsC2 U (Proc.devRef .tc main_v1) = U (Proc.devRef .tc main_v1) := by untouched opsC2
theorem keepC2_arg7 : after opsC2 U (Proc.devRef .tc main_arg7) = U (Proc.devRef .tc main_arg7) := by untouched opsC2
theorem keepC2_arg8 : after opsC2 U (Proc.devRef .tc main_arg8) = U (Proc.devRef .tc main_arg8) := by untouched opsC2
theorem keepC2_arg9 : after opsC2 U (Proc.devRef .tc main_arg9) = U (Proc.devRef .tc main_arg9) := by untouched opsC2
theorem keepC2_arg10 : after opsC2 U (Proc.devRef .tc main_arg10) = U (Proc.devRef .tc main_arg10) := by untouched opsC2
theorem keepC2_arg11 : after opsC2 U (Proc.devRef .tc main_arg11) = U (Proc.devRef .tc main_arg11) := by untouched opsC2
theorem keepC2_arg12 : after opsC2 U (Proc.devRef .tc main_arg12) = U (Proc.devRef .tc main_arg12) := by untouched opsC2
theorem keepC2_arg13 : after opsC2 U (Proc.devRef .tc main_arg13) = U (Proc.devRef .tc main_arg13) := by untouched opsC2
theorem keepC2_arg0 : after opsC2 U (Proc.devRef .tc main_arg0) = U (Proc.devRef .tc main_arg0) := by untouched opsC2
theorem keepD1_v1 : after opsD1 U (Proc.devRef .tc main_v1) = U (Proc.devRef .tc main_v1) := by untouched opsD1
theorem keepD1_v3 : after opsD1 U (Proc.devRef .tc main_v3) = U (Proc.devRef .tc main_v3) := by untouched opsD1
theorem keepD1_arg7 : after opsD1 U (Proc.devRef .tc main_arg7) = U (Proc.devRef .tc main_arg7) := by untouched opsD1
theorem keepD1_arg8 : after opsD1 U (Proc.devRef .tc main_arg8) = U (Proc.devRef .tc main_arg8) := by untouched opsD1
theorem keepD1_arg9 : after opsD1 U (Proc.devRef .tc main_arg9) = U (Proc.devRef .tc main_arg9) := by untouched opsD1
theorem keepD1_arg10 : after opsD1 U (Proc.devRef .tc main_arg10) = U (Proc.devRef .tc main_arg10) := by untouched opsD1
theorem keepD1_arg11 : after opsD1 U (Proc.devRef .tc main_arg11) = U (Proc.devRef .tc main_arg11) := by untouched opsD1
theorem keepD1_arg12 : after opsD1 U (Proc.devRef .tc main_arg12) = U (Proc.devRef .tc main_arg12) := by untouched opsD1
theorem keepD1_arg13 : after opsD1 U (Proc.devRef .tc main_arg13) = U (Proc.devRef .tc main_arg13) := by untouched opsD1
theorem keepD1_arg0 : after opsD1 U (Proc.devRef .tc main_arg0) = U (Proc.devRef .tc main_arg0) := by untouched opsD1
theorem keepD2_v1 : after opsD2 U (Proc.devRef .tc main_v1) = U (Proc.devRef .tc main_v1) := by untouched opsD2
theorem keepD2_v78 : after opsD2 U (Proc.devRef .tc main_v78) = U (Proc.devRef .tc main_v78) := by untouched opsD2
theorem keepD2_v3 : after opsD2 U (Proc.devRef .tc main_v3) = U (Proc.devRef .tc main_v3) := by untouched opsD2
theorem keepD2_v88 : after opsD2 U (Proc.devRef .tc main_v88) = U (Proc.devRef .tc main_v88) := by untouched opsD2
theorem keepD2_arg7 : after opsD2 U (Proc.devRef .tc main_arg7) = U (Proc.devRef .tc main_arg7) := by untouched opsD2
theorem keepD2_arg8 : after opsD2 U (Proc.devRef .tc main_arg8) = U (Proc.devRef .tc main_arg8) := by untouched opsD2
theorem keepD2_arg9 : after opsD2 U (Proc.devRef .tc main_arg9) = U (Proc.devRef .tc main_arg9) := by untouched opsD2
theorem keepD2_arg10 : after opsD2 U (Proc.devRef .tc main_arg10) = U (Proc.devRef .tc main_arg10) := by untouched opsD2
theorem keepD2_arg11 : after opsD2 U (Proc.devRef .tc main_arg11) = U (Proc.devRef .tc main_arg11) := by untouched opsD2
theorem keepD2_arg12 : after opsD2 U (Proc.devRef .tc main_arg12) = U (Proc.devRef .tc main_arg12) := by untouched opsD2
theorem keepD2_arg13 : after opsD2 U (Proc.devRef .tc main_arg13) = U (Proc.devRef .tc main_arg13) := by untouched opsD2
theorem keepD2_arg0 : after opsD2 U (Proc.devRef .tc main_arg0) = U (Proc.devRef .tc main_arg0) := by untouched opsD2
theorem keepD3_v88 : after opsD3 U (Proc.devRef .tc main_v88) = U (Proc.devRef .tc main_v88) := by untouched opsD3
theorem keepD3_v78 : after opsD3 U (Proc.devRef .tc main_v78) = U (Proc.devRef .tc main_v78) := by untouched opsD3
theorem keepD3_arg7 : after opsD3 U (Proc.devRef .tc main_arg7) = U (Proc.devRef .tc main_arg7) := by untouched opsD3
theorem keepD3_arg8 : after opsD3 U (Proc.devRef .tc main_arg8) = U (Proc.devRef .tc main_arg8) := by untouched opsD3
theorem keepD3_arg9 : after opsD3 U (Proc.devRef .tc main_arg9) = U (Proc.devRef .tc main_arg9) := by untouched opsD3
theorem keepD3_arg10 : after opsD3 U (Proc.devRef .tc main_arg10) = U (Proc.devRef .tc main_arg10) := by untouched opsD3
theorem keepD3_arg11 : after opsD3 U (Proc.devRef .tc main_arg11) = U (Proc.devRef .tc main_arg11) := by untouched opsD3
theorem keepD3_arg12 : after opsD3 U (Proc.devRef .tc main_arg12) = U (Proc.devRef .tc main_arg12) := by untouched opsD3
theorem keepD3_arg13 : after opsD3 U (Proc.devRef .tc main_arg13) = U (Proc.devRef .tc main_arg13) := by untouched opsD3
theorem keepD3_arg0 : after opsD3 U (Proc.devRef .tc main_arg0) = U (Proc.devRef .tc main_arg0) := by untouched opsD3
theorem keepD4_arg8 : after opsD4 U (Proc.devRef .tc main_arg8) = U (Proc.devRef .tc main_arg8) := by untouched opsD4
theorem keepD4_arg9 : after opsD4 U (Proc.devRef .tc main_arg9) = U (Proc.devRef .tc main_arg9) := by untouched opsD4
theorem keepD4_arg10 : after opsD4 U (Proc.devRef .tc main_arg10) = U (Proc.devRef .tc main_arg10) := by untouched opsD4
theorem keepD4_arg11 : after opsD4 U (Proc.devRef .tc main_arg11) = U (Proc.devRef .tc main_arg11) := by untouched opsD4
theorem keepD4_arg12 : after opsD4 U (Proc.devRef .tc main_arg12) = U (Proc.devRef .tc main_arg12) := by untouched opsD4
theorem keepD4_arg13 : after opsD4 U (Proc.devRef .tc main_arg13) = U (Proc.devRef .tc main_arg13) := by untouched opsD4
theorem keepD4_arg0 : after opsD4 U (Proc.devRef .tc main_arg0) = U (Proc.devRef .tc main_arg0) := by untouched opsD4
theorem keepE_arg10 : after opsE U (Proc.devRef .tc main_arg10) = U (Proc.devRef .tc main_arg10) := by untouched opsE
theorem keepE_arg11 : after opsE U (Proc.devRef .tc main_arg11) = U (Proc.devRef .tc main_arg11) := by untouched opsE
theorem keepE_arg12 : after opsE U (Proc.devRef .tc main_arg12) = U (Proc.devRef .tc main_arg12) := by untouched opsE
theorem keepE_arg13 : after opsE U (Proc.devRef .tc main_arg13) = U (Proc.devRef .tc main_arg13) := by untouched opsE
theorem keepE_arg0 : after opsE U (Proc.devRef .tc main_arg0) = U (Proc.devRef .tc main_arg0) := by untouched opsE

/-! ## The whole line -/

/-- The result buffer after the whole line is the last stage of the operation-by-operation reading, at the contents
    the line starts from. -/
theorem result (V : Valuation τ sig (Elt F)) :
    after ops V (Proc.devRef .tc main_v168) = val_main_v168 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rw [after_ops]
  have hA_v1 := A_v1 V
  have hA_v3 := A_v3 V
  have hA_v4 := A_v4 V
  have hA_v14 := A_v14 V
  have kA_arg3 := keepA_arg3 V
  have kA_arg4 := keepA_arg4 V
  have kA_arg5 := keepA_arg5 V
  have kA_arg6 := keepA_arg6 V
  have kA_arg7 := keepA_arg7 V
  have kA_arg8 := keepA_arg8 V
  have kA_arg9 := keepA_arg9 V
  have kA_arg10 := keepA_arg10 V
  have kA_arg11 := keepA_arg11 V
  have kA_arg12 := keepA_arg12 V
  have kA_arg13 := keepA_arg13 V
  have kA_arg0 := keepA_arg0 V
  have hB1_v29 := B1_v29 _ (V (Proc.devRef .tc main_arg1)) hA_v1 hA_v14 hA_v3
  have kB1_v1 := (keepB1_v1 _).trans hA_v1
  have kB1_v4 := (keepB1_v4 _).trans hA_v4
  have kB1_v3 := (keepB1_v3 _).trans hA_v3
  have kB1_v14 := (keepB1_v14 _).trans hA_v14
  have kB1_arg3 := (keepB1_arg3 _).trans kA_arg3
  have kB1_arg4 := (keepB1_arg4 _).trans kA_arg4
  have kB1_arg5 := (keepB1_arg5 _).trans kA_arg5
  have kB1_arg6 := (keepB1_arg6 _).trans kA_arg6
  have kB1_arg7 := (keepB1_arg7 _).trans kA_arg7
  have kB1_arg8 := (keepB1_arg8 _).trans kA_arg8
  have kB1_arg9 := (keepB1_arg9 _).trans kA_arg9
  have kB1_arg10 := (keepB1_arg10 _).trans kA_arg10
  have kB1_arg11 := (keepB1_arg11 _).trans kA_arg11
  have kB1_arg12 := (keepB1_arg12 _).trans kA_arg12
  have kB1_arg13 := (keepB1_arg13 _).trans kA_arg13
  have kB1_arg0 := (keepB1_arg0 _).trans kA_arg0
  have hB2_v42 := B2_v42 _ (V (Proc.devRef .tc main_arg0)) (V (Proc.devRef .tc main_arg1)) (V (Proc.devRef .tc main_arg2)) kB1_v1 kB1_v4 hB1_v29 kB1_v3
  have kB2_v14 := (keepB2_v14 _).trans kB1_v14
  have kB2_v4 := (keepB2_v4 _).trans kB1_v4
  have kB2_arg3 := (keepB2_arg3 _).trans kB1_arg3
  have kB2_arg4 := (keepB2_arg4 _).trans kB1_arg4
  have kB2_arg5 := (keepB2_arg5 _).trans kB1_arg5
  have kB2_arg6 := (keepB2_arg6 _).trans kB1_arg6
  have kB2_v3 := (keepB2_v3 _).trans kB1_v3
  have kB2_v1 := (keepB2_v1 _).trans kB1_v1
  have kB2_arg7 := (keepB2_arg7 _).trans kB1_arg7
  have kB2_arg8 := (keepB2_arg8 _).trans kB1_arg8
  have kB2_arg9 := (keepB2_arg9 _).trans kB1_arg9
  have kB2_arg10 := (keepB2_arg10 _).trans kB1_arg10
  have kB2_arg11 := (keepB2_arg11 _).trans kB1_arg11
  have kB2_arg12 := (keepB2_arg12 _).trans kB1_arg12
  have kB2_arg13 := (keepB2_arg13 _).trans kB1_arg13
  have kB2_arg0 := (keepB2_arg0 _).trans kB1_arg0
  have hB3_v52 := B3_v52 _ (V (Proc.devRef .tc main_arg0)) (V (Proc.devRef .tc main_arg1)) (V (Proc.devRef .tc main_arg2)) (V (Proc.devRef .tc main_arg3)) kB2_v14 kB2_v4 hB2_v42 kB2_arg3
  have kB3_arg4 := (keepB3_arg4 _).trans kB2_arg4
  have kB3_arg5 := (keepB3_arg5 _).trans kB2_arg5
  have kB3_arg6 := (keepB3_arg6 _).trans kB2_arg6
  have kB3_v3 := (keepB3_v3 _).trans kB2_v3
  have kB3_v1 := (keepB3_v1 _).trans kB2_v1
  have kB3_arg7 := (keepB3_arg7 _).trans kB2_arg7
  have kB3_arg8 := (keepB3_arg8 _).trans kB2_arg8
  have kB3_arg9 := (keepB3_arg9 _).trans kB2_arg9
  have kB3_arg10 := (keepB3_arg10 _).trans kB2_arg10
  have kB3_arg11 := (keepB3_arg11 _).trans kB2_arg11
  have kB3_arg12 := (keepB3_arg12 _).trans kB2_arg12
  have kB3_arg13 := (keepB3_arg13 _).trans kB2_arg13
  have kB3_arg0 := (keepB3_arg0 _).trans kB2_arg0
  have hC1_v56 := C1_v56 _ (V (Proc.devRef .tc main_arg0)) (V (Proc.devRef .tc main_arg1)) (V (Proc.devRef .tc main_arg2)) (V (Proc.devRef .tc main_arg3)) hB3_v52
  have hC1_v63 := C1_v63 _ (V (Proc.devRef .tc main_arg0)) (V (Proc.devRef .tc main_arg1)) (V (Proc.devRef .tc main_arg2)) (V (Proc.devRef .tc main_arg3)) hB3_v52
  have kC1_v52 := (keepC1_v52 _).trans hB3_v52
  have kC1_arg4 := (keepC1_arg4 _).trans kB3_arg4
  have kC1_arg5 := (keepC1_arg5 _).trans kB3_arg5
  have kC1_arg6 := (keepC1_arg6 _).trans kB3_arg6
  have kC1_v3 := (keepC1_v3 _).trans kB3_v3
  have kC1_v1 := (keepC1_v1 _).trans kB3_v1
  have kC1_arg7 := (keepC1_arg7 _).trans kB3_arg7
  have kC1_arg8 := (keepC1_arg8 _).trans kB3_arg8
  have kC1_arg9 := (keepC1_arg9 _).trans kB3_arg9
  have kC1_arg10 := (keepC1_arg10 _).trans kB3_arg10
  have kC1_arg11 := (keepC1_arg11 _).trans kB3_arg11
  have kC1_arg12 := (keepC1_arg12 _).trans kB3_arg12
  have kC1_arg13 := (keepC1_arg13 _).trans kB3_arg13
  have kC1_arg0 := (keepC1_arg0 _).trans kB3_arg0
  have hC2_v77 := C2_v77 _ (V (Proc.devRef .tc main_arg0)) (V (Proc.devRef .tc main_arg1)) (V (Proc.devRef .tc main_arg2)) (V (Proc.devRef .tc main_arg3)) (V (Proc.devRef .tc main_arg4)) (V (Proc.devRef .tc main_arg5)) hC1_v56 kC1_v52 hC1_v63 kC1_arg4 kC1_arg5
  have kC2_arg6 := (keepC2_arg6 _).trans kC1_arg6
  have kC2_v3 := (keepC2_v3 _).trans kC1_v3
  have kC2_v1 := (keepC2_v1 _).trans kC1_v1
  have kC2_arg7 := (keepC2_arg7 _).trans kC1_arg7
  have kC2_arg8 := (keepC2_arg8 _).trans kC1_arg8
  have kC2_arg9 := (keepC2_arg9 _).trans kC1_arg9
  have kC2_arg10 := (keepC2_arg10 _).trans kC1_arg10
  have kC2_arg11 := (keepC2_arg11 _).trans kC1_arg11
  have kC2_arg12 := (keepC2_arg12 _).trans kC1_arg12
  have kC2_arg13 := (keepC2_arg13 _).trans kC1_arg13
  have kC2_arg0 := (keepC2_arg0 _).trans kC1_arg0
  have hD1_v78 := D1_v78 _ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) hC2_v77 kC2_arg6
  have hD1_v88 := D1_v88 _ (V (Proc.devRef .tc main_arg1)) kC2_v3
  have kD1_v1 := (keepD1_v1 _).trans kC2_v1
  have kD1_v3 := (keepD1_v3 _).trans kC2_v3
  have kD1_arg7 := (keepD1_arg7 _).trans kC2_arg7
  have kD1_arg8 := (keepD1_arg8 _).trans kC2_arg8
  have kD1_arg9 := (keepD1_arg9 _).trans kC2_arg9
  have kD1_arg10 := (keepD1_arg10 _).trans kC2_arg10
  have kD1_arg11 := (keepD1_arg11 _).trans kC2_arg11
  have kD1_arg12 := (keepD1_arg12 _).trans kC2_arg12
  have kD1_arg13 := (keepD1_arg13 _).trans kC2_arg13
  have kD1_arg0 := (keepD1_arg0 _).trans kC2_arg0
  have hD2_v103 := D2_v103 _ (V (Proc.devRef .tc main_arg1)) kD1_v1 hD1_v88 kD1_v3
  have kD2_v1 := (keepD2_v1 _).trans kD1_v1
  have kD2_v78 := (keepD2_v78 _).trans hD1_v78
  have kD2_v3 := (keepD2_v3 _).trans kD1_v3
  have kD2_v88 := (keepD2_v88 _).trans hD1_v88
  have kD2_arg7 := (keepD2_arg7 _).trans kD1_arg7
  have kD2_arg8 := (keepD2_arg8 _).trans kD1_arg8
  have kD2_arg9 := (keepD2_arg9 _).trans kD1_arg9
  have kD2_arg10 := (keepD2_arg10 _).trans kD1_arg10
  have kD2_arg11 := (keepD2_arg11 _).trans kD1_arg11
  have kD2_arg12 := (keepD2_arg12 _).trans kD1_arg12
  have kD2_arg13 := (keepD2_arg13 _).trans kD1_arg13
  have kD2_arg0 := (keepD2_arg0 _).trans kD1_arg0
  have hD3_v116 := D3_v116 _ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) kD2_v1 kD2_v78 hD2_v103 kD2_v3
  have kD3_v88 := (keepD3_v88 _).trans kD2_v88
  have kD3_v78 := (keepD3_v78 _).trans kD2_v78
  have kD3_arg7 := (keepD3_arg7 _).trans kD2_arg7
  have kD3_arg8 := (keepD3_arg8 _).trans kD2_arg8
  have kD3_arg9 := (keepD3_arg9 _).trans kD2_arg9
  have kD3_arg10 := (keepD3_arg10 _).trans kD2_arg10
  have kD3_arg11 := (keepD3_arg11 _).trans kD2_arg11
  have kD3_arg12 := (keepD3_arg12 _).trans kD2_arg12
  have kD3_arg13 := (keepD3_arg13 _).trans kD2_arg13
  have kD3_arg0 := (keepD3_arg0 _).trans kD2_arg0
  have hD4_v126 := D4_v126 _ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) kD3_v88 kD3_v78 hD3_v116 kD3_arg7
  have kD4_arg8 := (keepD4_arg8 _).trans kD3_arg8
  have kD4_arg9 := (keepD4_arg9 _).trans kD3_arg9
  have kD4_arg10 := (keepD4_arg10 _).trans kD3_arg10
  have kD4_arg11 := (keepD4_arg11 _).trans kD3_arg11
  have kD4_arg12 := (keepD4_arg12 _).trans kD3_arg12
  have kD4_arg13 := (keepD4_arg13 _).trans kD3_arg13
  have kD4_arg0 := (keepD4_arg0 _).trans kD3_arg0
  have hE_v150 := E_v150 _ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) hD4_v126 kD4_arg8 kD4_arg9
  have kE_arg10 := (keepE_arg10 _).trans kD4_arg10
  have kE_arg11 := (keepE_arg11 _).trans kD4_arg11
  have kE_arg12 := (keepE_arg12 _).trans kD4_arg12
  have kE_arg13 := (keepE_arg13 _).trans kD4_arg13
  have kE_arg0 := (keepE_arg0 _).trans kD4_arg0
  have hF_v168 := F_v168 _ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) hE_v150 kE_arg10 kE_arg11 kE_arg12 kE_arg13 kE_arg0
  exact hF_v168

/-- No operation of the line writes an argument array. -/
theorem kept_arg0 (V : Valuation τ sig (Elt F)) : after ops V (Proc.devRef .tc main_arg0) = V (Proc.devRef .tc main_arg0) := by untouched ops
theorem kept_arg1 (V : Valuation τ sig (Elt F)) : after ops V (Proc.devRef .tc main_arg1) = V (Proc.devRef .tc main_arg1) := by untouched ops
theorem kept_arg2 (V : Valuation τ sig (Elt F)) : after ops V (Proc.devRef .tc main_arg2) = V (Proc.devRef .tc main_arg2) := by untouched ops
theorem kept_arg3 (V : Valuation τ sig (Elt F)) : after ops V (Proc.devRef .tc main_arg3) = V (Proc.devRef .tc main_arg3) := by untouched ops
theorem kept_arg4 (V : Valuation τ sig (Elt F)) : after ops V (Proc.devRef .tc main_arg4) = V (Proc.devRef .tc main_arg4) := by untouched ops
theorem kept_arg5 (V : Valuation τ sig (Elt F)) : after ops V (Proc.devRef .tc main_arg5) = V (Proc.devRef .tc main_arg5) := by untouched ops
theorem kept_arg6 (V : Valuation τ sig (Elt F)) : after ops V (Proc.devRef .tc main_arg6) = V (Proc.devRef .tc main_arg6) := by untouched ops
theorem kept_arg7 (V : Valuation τ sig (Elt F)) : after ops V (Proc.devRef .tc main_arg7) = V (Proc.devRef .tc main_arg7) := by untouched ops
theorem kept_arg8 (V : Valuation τ sig (Elt F)) : after ops V (Proc.devRef .tc main_arg8) = V (Proc.devRef .tc main_arg8) := by untouched ops
theorem kept_arg9 (V : Valuation τ sig (Elt F)) : after ops V (Proc.devRef .tc main_arg9) = V (Proc.devRef .tc main_arg9) := by untouched ops
theorem kept_arg10 (V : Valuation τ sig (Elt F)) : after ops V (Proc.devRef .tc main_arg10) = V (Proc.devRef .tc main_arg10) := by untouched ops
theorem kept_arg11 (V : Valuation τ sig (Elt F)) : after ops V (Proc.devRef .tc main_arg11) = V (Proc.devRef .tc main_arg11) := by untouched ops
theorem kept_arg12 (V : Valuation τ sig (Elt F)) : after ops V (Proc.devRef .tc main_arg12) = V (Proc.devRef .tc main_arg12) := by untouched ops
theorem kept_arg13 (V : Valuation τ sig (Elt F)) : after ops V (Proc.devRef .tc main_arg13) = V (Proc.devRef .tc main_arg13) := by untouched ops

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., unary_bufs_sub .., binary_bufs_sub ..⟩

/-- On every device, from any memory with zero counters: every weakly fair execution of @main terminates with the
    result buffer at the last stage of the argument arrays and the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v168) = val_main_v168 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v168).trans (result _),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _)⟩)
    (run_seq scopedRefs_eq scopedSems_eq defs main (fun _ => ops) main_eq (fun _ => ops_sub) m ρ)

end Cert.Gcn.RefRun

end
-- ==== Proof.LibVectorGather.lean ====
/-
  A general fact about gathering single entries of a vector.

  Take a vector with N entries and a column of R start indices (an R × 1 integer array). Gathering with the one axis
  collapsed, no offset axis, the start index naming that axis and slices of one entry produces a vector with R entries
  whose entry r is the vector's entry k, where k is the r-th start index read as a signed integer and clamped into
  0 … N − 1 (what indexing a vector by an integer array lowers to). Nothing here depends on a particular program.
-/
import Idealize.ShloMosaic.PureOps.Ideal
import Idealize.ShloMosaic.Lib.ValueIdx

noncomputable section

namespace Idealize.ShloMosaic.VectorGather

open Idealize.ShloMosaic Idealize.ShloMosaic.ValueIdx

variable {α : Type}

/-- The dimension numbers of a gather of single entries from a vector of `N` entries at an `R × 1` column of start
    indices. -/
abbrev entryDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry `r` of a gather of single entries is the vector's entry `k`, `k` the `r`-th start index read signed and
    clamped into `0 … N − 1`. -/
theorem gather_entry_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (entryDims N R wf) x idx (ix1 r)
      = x (ix1 (⟨min (idx (ix2 r (0 : Fin 1))).toInt.toNat (N - 1), by omega⟩ : Fin N)) := by
  unfold Host.gather
  congr 1
  funext a
  refine Fin.ext ?_
  match a with
  | ⟨0, _⟩ =>
    show (entryDims N R wf).start (ix1 r) idx 0 + (entryDims N R wf).batchCoord (ix1 r) 0
        + (entryDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryDims N R wf).startIndexMap from List.mem_singleton.mpr rfl)]
    have hsi : (entryDims N R wf).siIdx (ix1 r) ⟨List.idxOf (0 : Fin 1) (entryDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Idealize.ShloMosaic.VectorGather

end
-- ==== Proof.RefLayer1.lean ====
/-
  The first layer of the reference program, read against the specification: the product with the first weight
  matrix, the edge-wise scaled rows accumulated at their targets, the doubled self-loop and the bias give the
  specification's pre-activation `ZR`; the layer normalisation over the 128 features and the maximum with zero give
  `hidden`.
-/
import proofs.«136372_j15109694947953_2_alg».proof.Proof.RefReadP
import proofs.«136372_j15109694947953_2_alg».proof.Proof.Spec
import proofs.«136372_j15109694947953_2_alg».proof.Proof.LibRowScatterAdd
import proofs.«136372_j15109694947953_2_alg».proof.Proof.LibRowGather
import proofs.«136372_j15109694947953_2_alg».proof.Proof.LibVectorGather

noncomputable section

namespace Cert.Gcn.Ref1

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo

/-- The product with the first weight matrix is the specification's `times`. -/
theorem xw_eq (x0 : (⟨S50000x128, .f32⟩ : BufTy).Contents (Elt Ideal)) (x2 : (⟨S128x128, .f32⟩ : BufTy).Contents (Elt Ideal)) :
    val_main_v4 (F := Ideal) x0 x2 = Cert.Gcn.times x0 x2 := by
  funext i
  rw [val_main_v4_apply]
  unfold Cert.Gcn.times
  refine Finset.sum_congr rfl fun k _ => ?_
  have el : lidx_main_v4 i k = ix2 (i 0 : Fin 50000) k := by
    funext a; match a with | ⟨0, _⟩ => rfl | ⟨1, _⟩ => rfl
  have er : ridx_main_v4 i k = ix2 k (i 1 : Fin 128) := by
    funext a; match a with | ⟨0, _⟩ => rfl | ⟨1, _⟩ => rfl
  rw [el, er]
  rfl

/-- The two wrapped copies of the source column are one term. -/
theorem src_eq (x1 : (⟨S2x1600000, .i32⟩ : BufTy).Contents (Elt Ideal)) :
    val_main_v20 (F := Ideal) x1 = val_main_v35 (F := Ideal) x1 := rfl

/-! ## The printed dimension records are the generic whole-row / single-entry ones -/

theorem scatter_rec : scatter_S50000x128_S1600000x1_S1600000x128_1_0_0_1
    = RowScatter.rowDims 50000 1600000 128 Cert.ReferenceIdeal.Gen.scatter_S50000x128_S1600000x1_S1600000x128_1_0_0_1_wf := rfl

theorem gatherRow_rec : gather_S50000x128_S1600000x1_S1600000x128_1_0_n_n_0_1_1128
    = RowGather.rowDims 50000 1600000 128 Cert.ReferenceIdeal.Gen.gather_S50000x128_S1600000x1_S1600000x128_1_0_n_n_0_1_1128_wf := rfl

theorem gatherVec_rec : gather_S50000_S1600000x1_S1600000_n_0_n_n_0_1_1
    = VectorGather.entryDims 50000 1600000 Cert.ReferenceIdeal.Gen.gather_S50000_S1600000x1_S1600000_n_0_n_n_0_1_1_wf := rfl

/-! ## The aggregation -/

/-- A gathered row of the product: the row the edge's source names. -/
theorem row_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) (e : Fin 1600000) (c : Fin 128) :
    val_main_v36 (F := Ideal) x0 x1 x2 (ix2 e c)
      = Cert.Gcn.times x0 x2 (ix2 (Cert.Gcn.rowOf (val_main_v35 (F := Ideal) x1 (ix2 e (0 : Fin 1)))) c) := by
  unfold val_main_v36
  rw [gatherRow_rec, RowGather.gather_row_apply (by decide : 0 < 50000), xw_eq]
  rfl

/-- An edge's coefficient: the product of the two endpoints' degree factors. -/
theorem norm_eq (x1 : (⟨S2x1600000, .i32⟩ : BufTy).Contents (Elt Ideal)) (e : Fin 1600000) (c : Fin 128) :
    val_main_v38 (F := Ideal) x1 (ix2 e c)
      = val_main_v14 (F := Ideal) x1 (ix1 (Cert.Gcn.rowOf (val_main_v35 (F := Ideal) x1 (ix2 e (0 : Fin 1)))))
        * val_main_v14 (F := Ideal) x1 (ix1 (Cert.Gcn.rowOf (val_main_v27 (F := Ideal) x1 (ix2 e (0 : Fin 1))))) := by
  rw [val_main_v38_apply, val_main_v37_apply, val_main_v29_apply, Ideal.mulf_def]
  have hj : idx_main_v37 (idx_main_v38 (ix2 e c)) = ix1 e := by
    funext a; match a with | ⟨0, _⟩ => rfl
  rw [hj]
  unfold val_main_v21 val_main_v28
  rw [gatherVec_rec, VectorGather.gather_entry_apply (by decide : 0 < 50000),
    VectorGather.gather_entry_apply (by decide : 0 < 50000)]
  rfl

/-- An update entry: the gathered row's entry times the edge's coefficient. -/
theorem upd_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) (e : Fin 1600000) (c : Fin 128) :
    val_main_v39 (F := Ideal) x0 x1 x2 (ix2 e c)
      = Cert.Gcn.times x0 x2 (ix2 (Cert.Gcn.rowOf (val_main_v35 (F := Ideal) x1 (ix2 e (0 : Fin 1)))) c)
        * (val_main_v14 (F := Ideal) x1 (ix1 (Cert.Gcn.rowOf (val_main_v35 (F := Ideal) x1 (ix2 e (0 : Fin 1)))))
          * val_main_v14 (F := Ideal) x1 (ix1 (Cert.Gcn.rowOf (val_main_v27 (F := Ideal) x1 (ix2 e (0 : Fin 1)))))) := by
  rw [val_main_v39_apply, Ideal.mulf_def, row_eq, norm_eq]

/-- The accumulated rows are the specification's `accR`. -/
theorem acc_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) :
    val_main_v42 (F := Ideal) x0 x1 x2
      = Cert.Gcn.accR (val_main_v14 (F := Ideal) x1) (val_main_v35 (F := Ideal) x1) (val_main_v27 (F := Ideal) x1)
          (val_main_v41 (F := Ideal) x1) (Cert.Gcn.times x0 x2) := by
  funext i
  obtain ⟨r, c, rfl⟩ : ∃ (r : Fin 50000) (c : Fin 128), i = ix2 r c := ⟨i 0, i 1, eq_ix2 i⟩
  have h0 : val_main_v40 (F := Ideal) (ix2 r c) = Cert.Gcn.zeroW := by
    rw [val_main_v40_apply, val_main_cst_9_apply]; rfl
  unfold val_main_v42
  rw [scatter_rec, RowScatter.host_scatterAdd_row_apply, h0]
  unfold Cert.Gcn.accR
  refine congrArg (fun s => Cert.Gcn.zeroW + s) (Finset.sum_congr rfl fun e _ => ?_)
  rw [upd_eq]

/-! ## The pre-activation -/

/-- The self-loop coefficient `(2 · d r) · d r`, broadcast along the row. -/
theorem self_eq (x1 : (⟨S2x1600000, .i32⟩ : BufTy).Contents (Elt Ideal)) (i : S50000x128.Idx) :
    val_main_v47 (F := Ideal) x1 i = Cert.Gcn.coef (val_main_v14 (F := Ideal) x1) (i 0 : Fin 50000) := by
  rw [val_main_v47_apply, val_main_v46_apply, val_main_v45_apply, val_main_v44_apply, val_main_v43_apply,
    val_main_cst_10_apply]
  have hj : idx_main_v46 (idx_main_v47 i) = ix1 (i 0 : Fin 50000) := by
    funext a; match a with | ⟨0, _⟩ => rfl
  rw [hj]
  rfl

/-- The bias, broadcast along the rows. -/
theorem bias_eq (x3 : (⟨S128, .f32⟩ : BufTy).Contents (Elt Ideal)) (i : S50000x128.Idx) :
    val_main_v51 (F := Ideal) x3 i = x3 (ix1 (i 1 : Fin 128)) := by
  rw [val_main_v51_apply, val_main_v50_apply]
  have hj : idx_main_v50 (idx_main_v51 i) = ix1 (i 1 : Fin 128) := by
    funext a; match a with | ⟨0, _⟩ => rfl
  rw [hj]
  rfl

/-- The first layer's pre-activation is the specification's `ZR`. -/
theorem pre_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v52 (F := Ideal) x0 x1 x2 x3
      = Cert.Gcn.ZR (val_main_v14 (F := Ideal) x1) (val_main_v35 (F := Ideal) x1) (val_main_v27 (F := Ideal) x1)
          (val_main_v41 (F := Ideal) x1) (Cert.Gcn.times x0 x2) x3 := by
  funext i
  rw [val_main_v52_apply, val_main_v49_apply, val_main_v48_apply, acc_eq, xw_eq, self_eq, bias_eq]
  rfl

/-! ## The layer normalisation and the maximum with zero -/

/-- The row mean as the program computes it: the zero word plus the row's sum, over 128. -/
theorem mean_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (j : S50000x1.Idx) :
    val_main_v56 (F := Ideal) x0 x1 x2 x3 j
      = Cert.Gcn.meanRow (Cert.Gcn.rowAt (val_main_v52 (F := Ideal) x0 x1 x2 x3) (j 0 : Fin 50000)) := by
  rw [val_main_v56_apply, val_main_v54_apply, val_main_v53_apply, val_main_v55_apply, val_main_cst_11_apply,
    val_main_cst_12_apply, Ideal.hostDivf_def]
  simp only [Ideal.ofBits_def]
  rw [Ideal.ofBits_zero_f32, zero_add]
  unfold Cert.Gcn.meanRow Cert.Gcn.rowAt Cert.Gcn.c128
  refine congrArg (fun s => Ideal.div s (Ideal.ofBits .f32 0x43000000#32)) (Finset.sum_congr rfl fun k _ => ?_)
  have hk : idx_main_v53 (idx_main_v54 j) k = @ix2 50000 128 (j 0) k := by
    funext a; match a with | ⟨0, _⟩ => rfl | ⟨1, _⟩ => rfl
  rw [hk]

/-- The row variance as the program computes it. -/
theorem var_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (j : S50000x1.Idx) :
    val_main_v63 (F := Ideal) x0 x1 x2 x3 j
      = Cert.Gcn.varRow (Cert.Gcn.rowAt (val_main_v52 (F := Ideal) x0 x1 x2 x3) (j 0 : Fin 50000)) := by
  rw [val_main_v63_apply, val_main_v61_apply, val_main_v60_apply, val_main_v62_apply, val_main_cst_13_apply,
    val_main_cst_14_apply, Ideal.hostDivf_def]
  simp only [Ideal.ofBits_def]
  rw [Ideal.ofBits_zero_f32, zero_add]
  unfold Cert.Gcn.varRow Cert.Gcn.c128
  refine congrArg (fun s => Ideal.div s (Ideal.ofBits .f32 0x43000000#32)) (Finset.sum_congr rfl fun k _ => ?_)
  have hk : idx_main_v60 (idx_main_v61 j) k = @ix2 50000 128 (j 0) k := by
    funext a; match a with | ⟨0, _⟩ => rfl | ⟨1, _⟩ => rfl
  rw [hk, val_main_v59_apply, val_main_v58_apply, val_main_v57_apply, mean_eq, Ideal.mulf_def, Ideal.subf_def]
  rfl

/-- Layer normalisation and the maximum with zero, row by row. -/
theorem hidden_eq (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) :
    val_main_v77 (F := Ideal) x0 x1 x2 x3 x4 x5
      = Cert.Gcn.hidden (val_main_v52 (F := Ideal) x0 x1 x2 x3) x4 x5 := by
  funext i
  obtain ⟨r, q, rfl⟩ : ∃ (r : Fin 50000) (q : Fin 128), i = ix2 r q := ⟨i 0, i 1, eq_ix2 i⟩
  rw [val_main_v77_apply, val_main_v76_apply, val_main_v73_apply, val_main_v70_apply, val_main_v65_apply,
    val_main_v64_apply, val_main_v69_apply, val_main_v68_apply, val_main_v67_apply, val_main_v66_apply,
    val_main_cst_15_apply, val_main_v72_apply, val_main_v71_apply, val_main_v75_apply, val_main_v74_apply,
    val_main_call1_v0_apply, val_main_call1_cst_apply, mean_eq, var_eq]
  have h4 : idx_main_v71 (idx_main_v72 (ix2 r q)) = ix1 q := by
    funext a; match a with | ⟨0, _⟩ => rfl
  have h5 : idx_main_v74 (idx_main_v75 (ix2 r q)) = ix1 q := by
    funext a; match a with | ⟨0, _⟩ => rfl
  rw [h4, h5]
  rfl

/-- THE FIRST LAYER of the reference is the specification's `hidden` of its `ZR`. -/
theorem layer1 (x0 : (⟨S50000x128, .f32⟩ : BufTy).Contents (Elt Ideal)) (x1 : (⟨S2x1600000, .i32⟩ : BufTy).Contents (Elt Ideal)) (x2 : (⟨S128x128, .f32⟩ : BufTy).Contents (Elt Ideal)) (x3 x4 x5 : (⟨S128, .f32⟩ : BufTy).Contents (Elt Ideal)) :
    val_main_v77 (F := Ideal) x0 x1 x2 x3 x4 x5
      = Cert.Gcn.hidden (Cert.Gcn.ZR (val_main_v14 (F := Ideal) x1) (val_main_v35 (F := Ideal) x1)
          (val_main_v27 (F := Ideal) x1) (val_main_v41 (F := Ideal) x1) (Cert.Gcn.times x0 x2) x3) x4 x5 := by
  rw [hidden_eq, pre_eq]

end Cert.Gcn.Ref1

end
-- ==== Proof.RefLayer2.lean ====
/-
  The reference program's second layer, gate and residual, read against the specification.

  From the first layer's result `h` (kept as an opaque array) the reference forms `xw = h · W₂`; gathers the degree
  factor at both ends of every edge and multiplies the two; scales the source row of `xw` by that product and adds it
  onto the edge's target row, starting from zeros; adds `xw · ((2 · d) · d)` and the bias; normalises every row of 128
  (mean, mean squared deviation plus the floor, reciprocal square root, scale and shift); and then gates the normalised
  row: `s = max (row · Ws + bs) 0`, `e = s · We + be`, the row times `1 / (1 + exp (−e))`, plus the input row, floored
  at zero. Each stage is read at an index and met with the specification's expression for it; both sides are the same
  expression, so no finiteness is needed.
-/
import proofs.«136372_j15109694947953_2_alg».proof.Proof.RefReadP
import proofs.«136372_j15109694947953_2_alg».proof.Proof.Spec
import proofs.«136372_j15109694947953_2_alg».proof.Proof.LibRowScatterAdd
import proofs.«136372_j15109694947953_2_alg».proof.Proof.LibRowGather
import proofs.«136372_j15109694947953_2_alg».proof.Proof.LibVectorGather

noncomputable section

namespace Cert.Gcn.Ref2

open Cert.ReferenceIdeal Cert.ReferenceIdeal.ReadP Idealize.ShloMosaic Idealize.ShloMosaic.ValueIdx

/-! ## Indices -/

/-- Two rank-2 indices with the same coordinates are equal. -/
theorem idx2_ext {n0 n1 : Nat} {i j : (⟨2, ![n0, n1]⟩ : Shape).Idx} (h0 : (i 0).val = (j 0).val)
    (h1 : (i 1).val = (j 1).val) : i = j := by
  funext a; match a with | ⟨0, _⟩ => exact Fin.ext h0 | ⟨1, _⟩ => exact Fin.ext h1

/-- Two rank-1 indices with the same coordinate are equal. -/
theorem idx1_ext {n : Nat} {i j : (⟨1, ![n]⟩ : Shape).Idx} (h : (i 0).val = (j 0).val) : i = j := by
  funext a; match a with | ⟨0, _⟩ => exact Fin.ext h

/-- The f32 word of one is the extended real `1`. -/
theorem one_f32 : Ideal.ofBits .f32 0x3F800000#32 = 1 := by
  simp [Ideal.ofBits, Ideal.ieee]
  rw [← EReal.coe_mul, ← EReal.coe_one, EReal.coe_eq_coe_iff]
  norm_num

section

variable (x0 : (⟨S50000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x16, .f32⟩ : BufTy).Contents (Elt Ideal)) (x11 : (⟨S16, .f32⟩ : BufTy).Contents (Elt Ideal))
  (x12 : (⟨S16x128, .f32⟩ : BufTy).Contents (Elt Ideal)) (x13 : (⟨S128, .f32⟩ : BufTy).Contents (Elt Ideal))

/-! ## The second layer's product with its weights -/

/-- The hidden rows times the second weight matrix. -/
theorem xw_eq : val_main_v78 (F := Ideal) x0 x1 x2 x3 x4 x5 x6 = Cert.Gcn.times (val_main_v77 (F := Ideal) x0 x1 x2 x3 x4 x5) x6 := by
  funext i
  rw [val_main_v78_apply]
  unfold Cert.Gcn.times
  refine Finset.sum_congr rfl fun k _ => ?_
  have el : lidx_main_v78 i k = ix2 (i 0 : Fin 50000) k := idx2_ext rfl rfl
  have er : ridx_main_v78 i k = ix2 k (i 1 : Fin 128) := idx2_ext rfl rfl
  rw [el, er]
  rfl

/-! ## The recomputed degree factors and row numbers are the first layer's -/

theorem dinv_eq : val_main_v88 (F := Ideal) x1 = val_main_v14 (F := Ideal) x1 := rfl
theorem src_eq : val_main_v94 (F := Ideal) x1 = val_main_v35 (F := Ideal) x1 := rfl
theorem src_eq' : val_main_v109 (F := Ideal) x1 = val_main_v35 (F := Ideal) x1 := rfl
theorem dstw_eq : val_main_v101 (F := Ideal) x1 = val_main_v27 (F := Ideal) x1 := rfl
theorem dst_eq : val_main_v115 (F := Ideal) x1 = val_main_v41 (F := Ideal) x1 := rfl

/-! ## The aggregation -/

/-- The degree factor gathered at an edge's source index is the factor of the row that index names. -/
theorem dinv_src_apply (e : Fin 1600000) :
    val_main_v95 (F := Ideal) x1 (ix1 e) = val_main_v14 (F := Ideal) x1 (ix1 (Cert.Gcn.rowOf (val_main_v35 (F := Ideal) x1 (ix2 e (0 : Fin 1))))) := by
  show Host.gather (VectorGather.entryDims 50000 1600000 Gen.gather_S50000_S1600000x1_S1600000_n_0_n_n_0_1_1_wf) (val_main_v88 (F := Ideal) x1) (val_main_v94 (F := Ideal) x1) (ix1 e) = _
  rw [VectorGather.gather_entry_apply (by decide)]
  rfl

/-- The degree factor gathered at an edge's wrapped target index is the factor of the row that index names. -/
theorem dinv_dst_apply (e : Fin 1600000) :
    val_main_v102 (F := Ideal) x1 (ix1 e) = val_main_v14 (F := Ideal) x1 (ix1 (Cert.Gcn.rowOf (val_main_v27 (F := Ideal) x1 (ix2 e (0 : Fin 1))))) := by
  show Host.gather (VectorGather.entryDims 50000 1600000 Gen.gather_S50000_S1600000x1_S1600000_n_0_n_n_0_1_1_wf) (val_main_v88 (F := Ideal) x1) (val_main_v101 (F := Ideal) x1) (ix1 e) = _
  rw [VectorGather.gather_entry_apply (by decide)]
  rfl

/-- The row gathered at an edge's source index is the source row of `x · w`. -/
theorem xw_src_apply (e : Fin 1600000) (c : Fin 128) :
    val_main_v110 (F := Ideal) x0 x1 x2 x3 x4 x5 x6 (ix2 e c) = (Cert.Gcn.times (val_main_v77 (F := Ideal) x0 x1 x2 x3 x4 x5) x6) (ix2 (Cert.Gcn.rowOf (val_main_v35 (F := Ideal) x1 (ix2 e (0 : Fin 1)))) c) := by
  show Host.gather (RowGather.rowDims 50000 1600000 128 Gen.gather_S50000x128_S1600000x1_S1600000x128_1_0_n_n_0_1_1128_wf) (val_main_v78 (F := Ideal) x0 x1 x2 x3 x4 x5 x6) (val_main_v109 (F := Ideal) x1) (ix2 e c) = _
  rw [RowGather.gather_row_apply (by decide), xw_eq]
  rfl

/-- One entry of an edge's update row: the source row's entry times the product of both degree factors. -/
theorem upd_apply (e : Fin 1600000) (c : Fin 128) :
    val_main_v113 (F := Ideal) x0 x1 x2 x3 x4 x5 x6 (ix2 e c)
      = (Cert.Gcn.times (val_main_v77 (F := Ideal) x0 x1 x2 x3 x4 x5) x6) (ix2 (Cert.Gcn.rowOf (val_main_v35 (F := Ideal) x1 (ix2 e (0 : Fin 1)))) c)
        * (val_main_v14 (F := Ideal) x1 (ix1 (Cert.Gcn.rowOf (val_main_v35 (F := Ideal) x1 (ix2 e (0 : Fin 1)))))
          * val_main_v14 (F := Ideal) x1 (ix1 (Cert.Gcn.rowOf (val_main_v27 (F := Ideal) x1 (ix2 e (0 : Fin 1)))))) := by
  rw [val_main_v113_apply, xw_src_apply, val_main_v112_apply, val_main_v111_apply, val_main_v103_apply]
  have hj : idx_main_v111 (idx_main_v112 (ix2 e c)) = ix1 e := idx1_ext rfl
  rw [hj, dinv_src_apply, dinv_dst_apply]
  rfl

/-- The accumulated rows: every edge scaled by both factors before it is added at its target row. -/
theorem agg_eq : val_main_v116 (F := Ideal) x0 x1 x2 x3 x4 x5 x6 = Cert.Gcn.accR (val_main_v14 (F := Ideal) x1) (val_main_v35 (F := Ideal) x1) (val_main_v27 (F := Ideal) x1) (val_main_v41 (F := Ideal) x1) (Cert.Gcn.times (val_main_v77 (F := Ideal) x0 x1 x2 x3 x4 x5) x6) := by
  funext i
  obtain ⟨r, c, rfl⟩ : ∃ (r : Fin 50000) (c : Fin 128), i = ix2 r c := ⟨i 0, i 1, eq_ix2 i⟩
  show Host.scatterAdd (F := Ideal) (RowScatter.rowDims 50000 1600000 128 Gen.scatter_S50000x128_S1600000x1_S1600000x128_1_0_0_1_wf) (val_main_v114 (F := Ideal))
    (val_main_v115 (F := Ideal) x1) (val_main_v113 (F := Ideal) x0 x1 x2 x3 x4 x5 x6) (ix2 r c) = _
  rw [RowScatter.host_scatterAdd_row_apply]
  unfold Cert.Gcn.accR
  refine congrArg₂ (· + ·) ?_ (Finset.sum_congr rfl fun e _ => ?_)
  · rw [val_main_v114_apply, val_main_cst_27_apply]; rfl
  · rw [upd_apply]
    rfl

/-! ## The pre-activation -/

/-- The aggregation plus the doubled self-loop term plus the bias. -/
theorem pre_eq : val_main_v126 (F := Ideal) x0 x1 x2 x3 x4 x5 x6 x7 = Cert.Gcn.ZR (val_main_v14 (F := Ideal) x1) (val_main_v35 (F := Ideal) x1) (val_main_v27 (F := Ideal) x1) (val_main_v41 (F := Ideal) x1) (Cert.Gcn.times (val_main_v77 (F := Ideal) x0 x1 x2 x3 x4 x5) x6) x7 := by
  funext i
  obtain ⟨r, c, rfl⟩ : ∃ (r : Fin 50000) (c : Fin 128), i = ix2 r c := ⟨i 0, i 1, eq_ix2 i⟩
  rw [val_main_v126_apply, val_main_v123_apply, val_main_v122_apply, agg_eq, xw_eq, val_main_v121_apply,
    val_main_v120_apply, val_main_v119_apply, val_main_v118_apply, val_main_v117_apply, val_main_cst_28_apply,
    val_main_v125_apply, val_main_v124_apply]
  have h1 : idx_main_v120 (idx_main_v121 (ix2 r c)) = ix1 r := idx1_ext rfl
  have h2 : idx_main_v124 (idx_main_v125 (ix2 r c)) = ix1 c := idx1_ext rfl
  rw [h1, h2]
  rfl

/-! ## The layer normalisation -/

/-- The column of row means. -/
theorem mean_apply (r : Fin 50000) :
    val_main_v130 (F := Ideal) x0 x1 x2 x3 x4 x5 x6 x7 (ix2 r (0 : Fin 1)) = Cert.Gcn.meanRow (Cert.Gcn.rowAt (val_main_v126 (F := Ideal) x0 x1 x2 x3 x4 x5 x6 x7) r) := by
  rw [val_main_v130_apply, val_main_v128_apply, val_main_v127_apply, val_main_v129_apply, val_main_cst_30_apply,
    val_main_cst_29_apply]
  simp only [Ideal.hostDivf_def, Ideal.ofBits_def, Ideal.ofBits_zero_f32, zero_add]
  have hs : (∑ k : Fin 128, val_main_v126 (F := Ideal) x0 x1 x2 x3 x4 x5 x6 x7 (idx_main_v127 (idx_main_v128 (ix2 r (0 : Fin 1))) k))
      = ∑ k : Fin 128, val_main_v126 (F := Ideal) x0 x1 x2 x3 x4 x5 x6 x7 (ix2 r k) :=
    Finset.sum_congr rfl fun k _ => congrArg _ (idx2_ext rfl rfl)
  rw [hs]
  rfl

/-- A row entry minus its row's mean (the copy the variance is taken of). -/
theorem centred_apply' (r : Fin 50000) (q : Fin 128) :
    val_main_v132 (F := Ideal) x0 x1 x2 x3 x4 x5 x6 x7 (ix2 r q) = (val_main_v126 (F := Ideal) x0 x1 x2 x3 x4 x5 x6 x7) (ix2 r q) - Cert.Gcn.meanRow (Cert.Gcn.rowAt (val_main_v126 (F := Ideal) x0 x1 x2 x3 x4 x5 x6 x7) r) := by
  rw [val_main_v132_apply, val_main_v131_apply]
  have h : idx_main_v131 (ix2 r q) = ix2 r (0 : Fin 1) := idx2_ext rfl rfl
  rw [h, mean_apply]
  rfl

/-- A row entry minus its row's mean (the copy that is normalised). -/
theorem centred_apply (r : Fin 50000) (q : Fin 128) :
    val_main_v139 (F := Ideal) x0 x1 x2 x3 x4 x5 x6 x7 (ix2 r q) = (val_main_v126 (F := Ideal) x0 x1 x2 x3 x4 x5 x6 x7) (ix2 r q) - Cert.Gcn.meanRow (Cert.Gcn.rowAt (val_main_v126 (F := Ideal) x0 x1 x2 x3 x4 x5 x6 x7) r) := by
  rw [val_main_v139_apply, val_main_v138_apply]
  have h : idx_main_v138 (ix2 r q) = ix2 r (0 : Fin 1) := idx2_ext rfl rfl
  rw [h, mean_apply]
  rfl

/-- The column of row variances. -/
theorem var_apply (r : Fin 50000) :
    val_main_v137 (F := Ideal) x0 x1 x2 x3 x4 x5 x6 x7 (ix2 r (0 : Fin 1)) = Cert.Gcn.varRow (Cert.Gcn.rowAt (val_main_v126 (F := Ideal) x0 x1 x2 x3 x4 x5 x6 x7) r) := by
  rw [val_main_v137_apply, val_main_v135_apply, val_main_v134_apply, val_main_v136_apply, val_main_cst_32_apply,
    val_main_cst_31_apply]
  simp only [Ideal.hostDivf_def, Ideal.ofBits_def, Ideal.ofBits_zero_f32, zero_add]
  have hs : (∑ k : Fin 128, val_main_v133 (F := Ideal) x0 x1 x2 x3 x4 x5 x6 x7 (idx_main_v134 (idx_main_v135 (ix2 r (0 : Fin 1))) k))
      = ∑ k : Fin 128, ((val_main_v126 (F := Ideal) x0 x1 x2 x3 x4 x5 x6 x7) (ix2 r k) - Cert.Gcn.meanRow (Cert.Gcn.rowAt (val_main_v126 (F := Ideal) x0 x1 x2 x3 x4 x5 x6 x7) r))
          * ((val_main_v126 (F := Ideal) x0 x1 x2 x3 x4 x5 x6 x7) (ix2 r k) - Cert.Gcn.meanRow (Cert.Gcn.rowAt (val_main_v126 (F := Ideal) x0 x1 x2 x3 x4 x5 x6 x7) r)) := by
    refine Finset.sum_congr rfl fun k _ => ?_
    have h : idx_main_v134 (idx_main_v135 (ix2 r (0 : Fin 1))) k = ix2 r k := idx2_ext rfl rfl
    rw [h, val_main_v133_apply, centred_apply']
    rfl
  rw [hs]
  rfl

/-- The normalised row. -/
theorem ln_apply (r : Fin 50000) (q : Fin 128) :
    val_main_v150 (F := Ideal) x0 x1 x2 x3 x4 x5 x6 x7 x8 x9 (ix2 r q) = (Cert.Gcn.lnRow (Cert.Gcn.rowAt (val_main_v126 (F := Ideal) x0 x1 x2 x3 x4 x5 x6 x7) r) (Cert.Gcn.vec x8) (Cert.Gcn.vec x9)) q := by
  rw [val_main_v150_apply, val_main_v147_apply, val_main_v144_apply, centred_apply, val_main_v143_apply,
    val_main_v142_apply, val_main_v141_apply, val_main_v140_apply, val_main_cst_33_apply, val_main_v146_apply,
    val_main_v145_apply, val_main_v149_apply, val_main_v148_apply]
  have h1 : idx_main_v143 (ix2 r q) = ix2 r (0 : Fin 1) := idx2_ext rfl rfl
  have h2 : idx_main_v145 (idx_main_v146 (ix2 r q)) = ix1 q := idx1_ext rfl
  have h3 : idx_main_v148 (idx_main_v149 (ix2 r q)) = ix1 q := idx1_ext rfl
  rw [h1, var_apply, h2, h3]
  rfl

/-! ## The gate and the residual -/

/-- The squeezed row: the normalised row times the 128 × 16 matrix, plus its bias, floored at zero. -/
theorem squeeze_apply (r : Fin 50000) (j : Fin 16) :
    val_main_v155 (F := Ideal) x0 x1 x2 x3 x4 x5 x6 x7 x8 x9 x10 x11 (ix2 r j)
      = max (Cert.Gcn.rowTimes (Cert.Gcn.lnRow (Cert.Gcn.rowAt (val_main_v126 (F := Ideal) x0 x1 x2 x3 x4 x5 x6 x7) r) (Cert.Gcn.vec x8) (Cert.Gcn.vec x9)) (fun (k : Fin 128) (j : Fin 16) => x10 (ix2 k j)) j + x11 (ix1 j)) Cert.Gcn.zeroW := by
  rw [val_main_v155_apply, val_main_v154_apply, val_main_v151_apply, val_main_call3_v0_apply,
    val_main_call3_cst_apply, val_main_v153_apply, val_main_v152_apply]
  have h : idx_main_v152 (idx_main_v153 (ix2 r j)) = ix1 j := idx1_ext rfl
  have hs : (∑ k : Fin 128, val_main_v150 (F := Ideal) x0 x1 x2 x3 x4 x5 x6 x7 x8 x9 (lidx_main_v151 (ix2 r j) k) * x10 (ridx_main_v151 (ix2 r j) k))
      = Cert.Gcn.rowTimes (Cert.Gcn.lnRow (Cert.Gcn.rowAt (val_main_v126 (F := Ideal) x0 x1 x2 x3 x4 x5 x6 x7) r) (Cert.Gcn.vec x8) (Cert.Gcn.vec x9)) (fun (k : Fin 128) (j : Fin 16) => x10 (ix2 k j)) j := by
    unfold Cert.Gcn.rowTimes
    refine Finset.sum_congr rfl fun k _ => ?_
    have hl : lidx_main_v151 (ix2 r j) k = ix2 r k := idx2_ext rfl rfl
    have hr : ridx_main_v151 (ix2 r j) k = ix2 k j := idx2_ext rfl rfl
    rw [hl, hr, ln_apply]
  rw [h, hs]
  rfl

/-- The excitation before the logistic: the squeezed row times the 16 × 128 matrix, plus its bias. -/
theorem excite_apply (r : Fin 50000) (q : Fin 128) :
    val_main_v159 (F := Ideal) x0 x1 x2 x3 x4 x5 x6 x7 x8 x9 x10 x11 x12 x13 (ix2 r q)
      = (∑ j : Fin 16, max (Cert.Gcn.rowTimes (Cert.Gcn.lnRow (Cert.Gcn.rowAt (val_main_v126 (F := Ideal) x0 x1 x2 x3 x4 x5 x6 x7) r) (Cert.Gcn.vec x8) (Cert.Gcn.vec x9)) (fun (k : Fin 128) (j : Fin 16) => x10 (ix2 k j)) j + x11 (ix1 j)) Cert.Gcn.zeroW * x12 (ix2 j q))
        + x13 (ix1 q) := by
  rw [val_main_v159_apply, val_main_v156_apply, val_main_v158_apply, val_main_v157_apply]
  have h : idx_main_v157 (idx_main_v158 (ix2 r q)) = ix1 q := idx1_ext rfl
  have hs : (∑ k : Fin 16, val_main_v155 (F := Ideal) x0 x1 x2 x3 x4 x5 x6 x7 x8 x9 x10 x11 (lidx_main_v156 (ix2 r q) k) * x12 (ridx_main_v156 (ix2 r q) k))
      = ∑ j : Fin 16, max (Cert.Gcn.rowTimes (Cert.Gcn.lnRow (Cert.Gcn.rowAt (val_main_v126 (F := Ideal) x0 x1 x2 x3 x4 x5 x6 x7) r) (Cert.Gcn.vec x8) (Cert.Gcn.vec x9)) (fun (k : Fin 128) (j : Fin 16) => x10 (ix2 k j)) j + x11 (ix1 j)) Cert.Gcn.zeroW * x12 (ix2 j q) := by
    refine Finset.sum_congr rfl fun k _ => ?_
    have hl : lidx_main_v156 (ix2 r q) k = ix2 r k := idx2_ext rfl rfl
    have hr : ridx_main_v156 (ix2 r q) k = ix2 k q := idx2_ext rfl rfl
    rw [hl, hr, squeeze_apply]
  rw [h, hs]
  rfl

/-- The gated row plus the input row, floored at zero. -/
theorem out_apply (r : Fin 50000) (q : Fin 128) :
    val_main_v168 (F := Ideal) x0 x1 x2 x3 x4 x5 x6 x7 x8 x9 x10 x11 x12 x13 (ix2 r q)
      = Cert.Gcn.gateRow (Cert.Gcn.lnRow (Cert.Gcn.rowAt (val_main_v126 (F := Ideal) x0 x1 x2 x3 x4 x5 x6 x7) r) (Cert.Gcn.vec x8) (Cert.Gcn.vec x9)) (fun (k : Fin 128) (j : Fin 16) => x10 (ix2 k j)) (fun (j : Fin 16) => x11 (ix1 j)) (fun (j : Fin 16) (q : Fin 128) => x12 (ix2 j q)) (Cert.Gcn.vec x13) (Cert.Gcn.rowAt x0 r) q := by
  rw [val_main_v168_apply, val_main_v167_apply, val_main_v166_apply, ln_apply, val_main_v165_apply,
    val_main_v164_apply, val_main_cst_35_apply, val_main_v163_apply, val_main_v162_apply, val_main_cst_34_apply,
    val_main_v161_apply, val_main_v160_apply, excite_apply, val_main_call4_v0_apply, val_main_call4_cst_apply]
  simp only [Ideal.ofBits_def, one_f32, Ideal.maximumf_def, Ideal.addf_def, Ideal.mulf_def, Ideal.hostDivf_def,
    Ideal.hostUnary_exp_def, Ideal.hostNegf_def, Ideal.negf_def]
  unfold Cert.Gcn.gateRow Ideal.logistic
  rfl

/-- THE SECOND LAYER, GATE AND RESIDUAL of the reference: the specification's `gated` of the pre-activation built with
    every edge scaled first, from the first layer's result. -/
theorem layer2 : val_main_v168 (F := Ideal) x0 x1 x2 x3 x4 x5 x6 x7 x8 x9 x10 x11 x12 x13
    = Cert.Gcn.gated (Cert.Gcn.ZR (val_main_v14 (F := Ideal) x1) (val_main_v35 (F := Ideal) x1) (val_main_v27 (F := Ideal) x1) (val_main_v41 (F := Ideal) x1) (Cert.Gcn.times (val_main_v77 (F := Ideal) x0 x1 x2 x3 x4 x5) x6) x7) x8 x9 x10 x11 x12 x13 x0 := by
  funext i
  obtain ⟨r, q, rfl⟩ : ∃ (r : Fin 50000) (q : Fin 128), i = ix2 r q := ⟨i 0, i 1, eq_ix2 i⟩
  rw [out_apply, pre_eq]
  rfl

end

end Cert.Gcn.Ref2

end
-- ==== Proof.RefFacts.lean ====
/-
  Two facts about the reference program's stages of the edge array, whatever the edges are: a node's degree factor is
  a nonnegative real, and an edge whose target row number names a row of the array has that very row as its wrapped
  target.
-/
import proofs.«136372_j15109694947953_2_alg».proof.Proof.RefReadP
import proofs.«136372_j15109694947953_2_alg».proof.Proof.Spec

noncomputable section

namespace Cert.Gcn.RefFacts

open Cert.ReferenceIdeal Cert.ReferenceIdeal.Gen Cert.ReferenceIdeal.ReadP Idealize.ShloMosaic Idealize.ShloMosaic.ValueIdx
open Idealize.ShloMosaic.TcCoe Idealize.SL.Sem Idealize.ShloMosaic.StableHlo

/-! ## The degree factor -/

/-- The reciprocal square root of a positive extended real is a nonnegative real. -/
theorem rsqrt_nonneg_real_of_pos (a : EReal) (h : 0 < a) : 0 ≤ Ideal.rsqrt a ∧ Ideal.rsqrt a ≠ ⊤ := by
  induction a using EReal.rec with
  | bot => exact absurd h (by simp)
  | top => rw [Ideal.rsqrt_top]; exact ⟨le_refl 0, EReal.zero_ne_top⟩
  | coe x =>
    have hx : 0 < x := by exact_mod_cast h
    rw [Ideal.rsqrt_coe, if_neg (not_lt.mpr hx.le), if_neg hx.ne']
    exact ⟨by exact_mod_cast (inv_nonneg.mpr (Real.sqrt_nonneg x)), EReal.coe_ne_top _⟩

/-- "The reciprocal square root where the argument is above zero, zero elsewhere" is a nonnegative real. -/
theorem select_rsqrt_nonneg_real (a : EReal) :
    0 ≤ Scalar.select (Ideal.cmp .ogt a 0) (Ideal.rsqrt a) (0 : EReal)
      ∧ Scalar.select (Ideal.cmp .ogt a 0) (Ideal.rsqrt a) (0 : EReal) ≠ ⊤ := by
  by_cases h : (0 : EReal) < a
  · have hc : Ideal.cmp .ogt a 0 = 1#1 := by simp [Ideal.cmp, h]
    rw [hc, select_one]
    exact rsqrt_nonneg_real_of_pos a h
  · have hc : Ideal.cmp .ogt a 0 = 0#1 := by simp [Ideal.cmp, h]
    rw [hc, select_zero]
    exact ⟨le_refl 0, EReal.zero_ne_top⟩

/-- A node's degree factor is a nonnegative real, whatever its degree sum is. -/
theorem dinv_nonneg_real (x1 : (⟨S2x1600000, .i32⟩ : BufTy).Contents (Elt Ideal)) (r : Fin 50000) :
    0 ≤ val_main_v14 (F := Ideal) x1 (ix1 r) ∧ val_main_v14 (F := Ideal) x1 (ix1 r) ≠ ⊤ := by
  rw [val_main_v14_apply, val_main_v12_apply, val_main_v13_apply, val_main_call0_v1_apply, val_main_call0_v0_apply,
    val_main_cst_3_apply, val_main_v11_apply, val_main_cst_2_apply]
  simp only [Ideal.cmpf_def, Ideal.hostUnary_rsqrt_def, Ideal.ofBits_def, Ideal.ofBits_zero_f32]
  exact select_rsqrt_nonneg_real _

/-! ## The wrapped target -/

/-- A word that reads, signed, as a row of the array is not negative, so wrapping leaves it alone and clamping
    returns that row. -/
theorem rowOf_wrap (b : BitVec 32) (r : Fin 50000) (hb : b.toInt = (r.val : Int)) :
    Cert.Gcn.rowOf (Scalar.select (IntOp.cmpi .slt b 0#32) (IntOp.addi b 50000#32) b) = r := by
  have hr : r.val < 50000 := r.isLt
  have hc : IntOp.cmpi .slt b 0#32 = 0#1 := by
    have : ¬ b.toInt < 0 := by omega
    simp [IntOp.cmpi, BitVec.slt, this]
  rw [hc, select_zero]
  unfold Cert.Gcn.rowOf
  refine Fin.ext ?_
  show min b.toInt.toNat (50000 - 1) = r.val
  rw [hb, Int.toNat_natCast]
  omega

/-- An edge whose target row number is `r` has `r` as its wrapped target row. -/
theorem wrapped_target (x1 : (⟨S2x1600000, .i32⟩ : BufTy).Contents (Elt Ideal)) (e : Fin 1600000) (r : Fin 50000) :
    (val_main_v41 (F := Ideal) x1 (ix2 e (0 : Fin 1))).toInt = (r.val : Int) →
      Cert.Gcn.rowOf (val_main_v27 (F := Ideal) x1 (ix2 e (0 : Fin 1))) = r := by
  have h1 : idx_main_v41 (ix2 e (0 : Fin 1)) = ix1 e := by
    funext a; match a with | ⟨0, _⟩ => rfl
  have h2 : idx_main_v27 (ix2 e (0 : Fin 1)) = ix1 e := by
    funext a; match a with | ⟨0, _⟩ => rfl
  rw [val_main_v41_apply, val_main_v27_apply, h1, h2, val_main_v26_apply, val_main_v23_apply, val_main_v25_apply,
    val_main_v22_apply, val_main_c_5_apply, val_main_v24_apply, val_main_c_6_apply]
  exact rowOf_wrap _ r

end Cert.Gcn.RefFacts

end
-- ==== Proof.LibNonnegFactor.lean ====
/-
  A nonnegative real factor distributes over a finite sum of extended reals.

  On the extended reals a product does not distribute over a sum in general: `(⊤ + ⊥) · (−1)` and `⊤ · (−1) + ⊥ · (−1)`
  differ, and so do `(⊤ + ⊥) · ⊤` and its two products. A factor `d` with `0 ≤ d` and `d ≠ ⊤` (a nonnegative real
  number) is different: multiplying by it keeps the sign of every infinity, or sends everything to zero, so
  `(∑ f) · d = ∑ (f · d)` and `d · (∑ f) = ∑ (d · f)` whatever the terms are. This is what lets a per-row scale be moved
  across an accumulation whose terms may be infinite. Nothing here depends on a particular program.
-/
import Mathlib.Data.EReal.Operations
import Mathlib.Algebra.BigOperators.Group.Finset.Basic

namespace Cert.NonnegFactor

/-- `(∑ i ∈ s, f i) · d = ∑ i ∈ s, f i · d` for a nonnegative real factor `d`. -/
theorem sum_mul {ι : Type} (s : Finset ι) (f : ι → EReal) {d : EReal} (h0 : 0 ≤ d) (ht : d ≠ ⊤) :
    (∑ i ∈ s, f i) * d = ∑ i ∈ s, f i * d := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- `d · (∑ i ∈ s, f i) = ∑ i ∈ s, d · f i` for a nonnegative real factor `d`. -/
theorem mul_sum {ι : Type} (s : Finset ι) (f : ι → EReal) {d : EReal} (h0 : 0 ≤ d) (ht : d ≠ ⊤) :
    d * (∑ i ∈ s, f i) = ∑ i ∈ s, d * f i := by
  rw [EReal.mul_comm, sum_mul s f h0 ht]
  exact Finset.sum_congr rfl fun i _ => EReal.mul_comm _ _

end Cert.NonnegFactor
-- ==== Proof.Bridge.lean ====
/-
  The two arrangements of a layer's aggregation are one function.

  With `d r` a nonnegative real number for every node, `d r · Σ_e t_e = Σ_e d r · t_e` whatever the terms are (a
  nonnegative real factor keeps the sign of every infinity or sends everything to zero), and the product of extended
  reals is commutative and associative. An edge whose target row number, read signed, is `r` has `0 ≤ r`, so its
  wrapped and clamped target row is `r` itself: the factor the reference gathers at the target is `d r`. So scaling
  the accumulated rows by `d r` is accumulating the rows scaled by `d (src) · d (dst)`. No finiteness of the
  features is used.
-/
import proofs.«136372_j15109694947953_2_alg».proof.Proof.Spec
import proofs.«136372_j15109694947953_2_alg».proof.Proof.LibNonnegFactor

noncomputable section

namespace Cert.Gcn

open Idealize.ShloMosaic Idealize.ShloMosaic.ValueIdx

/-- The word of zero is zero. -/
theorem zeroW_eq : zeroW = 0 := Ideal.ofBits_zero_f32

/-- The accumulated rows scaled by the target's factor are the rows accumulated with both factors, at one entry. -/
theorem acc_scaled (d : SV.Idx → EReal) (src dstw dst : IVec SEc 32)
    (hd : ∀ r : Fin 50000, 0 ≤ d (ix1 r) ∧ d (ix1 r) ≠ ⊤)
    (hw : ∀ (e : Fin 1600000) (r : Fin 50000), (dst (ix2 e (0 : Fin 1))).toInt = (r.val : Int) → rowOf (dstw (ix2 e (0 : Fin 1))) = r)
    (xw : SN.Idx → EReal) (r : Fin 50000) (q : Fin 128) :
    d (ix1 r) * accK d src dst xw (ix2 r q) = accR d src dstw dst xw (ix2 r q) := by
  show d (ix1 r) * (zeroW + ∑ e : Fin 1600000,
      if (dst (ix2 e (0 : Fin 1))).toInt = (r.val : Int)
      then xw (ix2 (rowOf (src (ix2 e (0 : Fin 1)))) q) * d (ix1 (rowOf (src (ix2 e (0 : Fin 1))))) else 0)
    = zeroW + ∑ e : Fin 1600000,
      if (dst (ix2 e (0 : Fin 1))).toInt = (r.val : Int)
      then xw (ix2 (rowOf (src (ix2 e (0 : Fin 1)))) q)
        * (d (ix1 (rowOf (src (ix2 e (0 : Fin 1))))) * d (ix1 (rowOf (dstw (ix2 e (0 : Fin 1)))))) else 0
  rw [zeroW_eq, zero_add, zero_add]
  refine (Cert.NonnegFactor.mul_sum Finset.univ _ (hd r).1 (hd r).2).trans (Finset.sum_congr rfl fun e _ => ?_)
  by_cases h : (dst (ix2 e (0 : Fin 1))).toInt = (r.val : Int)
  · rw [if_pos h, if_pos h, hw e r h, mul_comm (d (ix1 r)) _, mul_assoc]
  · rw [if_neg h, if_neg h, mul_zero]

/-- The pre-activation with the sum scaled last is the pre-activation with every edge scaled first, when every
    factor is a nonnegative real and every edge landing on `r` has wrapped target row `r`. -/
theorem ZK_eq_ZR (d : SV.Idx → EReal) (src dstw dst : IVec SEc 32)
    (hd : ∀ r : Fin 50000, 0 ≤ d (ix1 r) ∧ d (ix1 r) ≠ ⊤)
    (hw : ∀ (e : Fin 1600000) (r : Fin 50000), (dst (ix2 e (0 : Fin 1))).toInt = (r.val : Int) → rowOf (dstw (ix2 e (0 : Fin 1))) = r)
    (xw : SN.Idx → EReal) (b : SD.Idx → EReal) : ZK d src dst xw b = ZR d src dstw dst xw b := by
  funext i
  obtain ⟨r, q, rfl⟩ : ∃ (r : Fin 50000) (q : Fin 128), i = ix2 r q := ⟨i 0, i 1, eq_ix2 i⟩
  show (d (ix1 r) * accK d src dst xw (ix2 r q) + coef d r * xw (ix2 r q)) + b (ix1 q)
    = (accR d src dstw dst xw (ix2 r q) + xw (ix2 r q) * coef d r) + b (ix1 q)
  rw [acc_scaled d src dstw dst hd hw xw r q, mul_comm (coef d r) (xw (ix2 r q))]

/-- So the whole block is the same function under either arrangement. -/
theorem out_ZK_eq_out_ZR (d : SV.Idx → EReal) (src dstw dst : IVec SEc 32)
    (hd : ∀ r : Fin 50000, 0 ≤ d (ix1 r) ∧ d (ix1 r) ≠ ⊤)
    (hw : ∀ (e : Fin 1600000) (r : Fin 50000), (dst (ix2 e (0 : Fin 1))).toInt = (r.val : Int) → rowOf (dstw (ix2 e (0 : Fin 1))) = r)
    (x : SN.Idx → EReal) (w1 : SDD.Idx → EReal) (b1 g1 t1 : SD.Idx → EReal) (w2 : SDD.Idx → EReal) (b2 g2 t2 : SD.Idx → EReal)
    (ws : SDH.Idx → EReal) (bs : SH.Idx → EReal) (we : SHD.Idx → EReal) (be : SD.Idx → EReal) :
    out (ZK d src dst) x w1 b1 g1 t1 w2 b2 g2 t2 ws bs we be = out (ZR d src dstw dst) x w1 b1 g1 t1 w2 b2 g2 t2 ws bs we be :=
  congrArg (fun Z => out Z x w1 b1 g1 t1 w2 b2 g2 t2 ws bs we be)
    (funext fun xw => funext fun b => ZK_eq_ZR d src dstw dst hd hw xw b)

end Cert.Gcn

end
-- ==== Proof.RefValue.lean ====
/-
  The reference program's result as the kernel's function of the arguments.

  The two layers read against the specification give `out (ZR d src dstw dst)` of the argument arrays; the degree
  factor is a nonnegative real at every node and an edge landing on row `r` has wrapped target row `r`, so that is
  `out (ZK d src dst)`, the arrangement the kernel computes.
-/
import proofs.«136372_j15109694947953_2_alg».proof.Proof.RefLayer1
import proofs.«136372_j15109694947953_2_alg».proof.Proof.RefLayer2
import proofs.«136372_j15109694947953_2_alg».proof.Proof.RefFacts
import proofs.«136372_j15109694947953_2_alg».proof.Proof.Bridge

noncomputable section

namespace Cert.Gcn.RefValue

open Cert.ReferenceIdeal Cert.ReferenceIdeal.ReadP Idealize.ShloMosaic Idealize.ShloMosaic.ValueIdx
open Cert.Gcn

variable (x0 : (⟨S50000x128, .f32⟩ : BufTy).Contents (Elt Ideal)) (x1 : (⟨S2x1600000, .i32⟩ : BufTy).Contents (Elt Ideal))
  (x2 : (⟨S128x128, .f32⟩ : BufTy).Contents (Elt Ideal)) (x3 x4 x5 : (⟨S128, .f32⟩ : BufTy).Contents (Elt Ideal))
  (x6 : (⟨S128x128, .f32⟩ : BufTy).Contents (Elt Ideal)) (x7 x8 x9 : (⟨S128, .f32⟩ : BufTy).Contents (Elt Ideal))
  (x10 : (⟨S128x16, .f32⟩ : BufTy).Contents (Elt Ideal)) (x11 : (⟨S16, .f32⟩ : BufTy).Contents (Elt Ideal))
  (x12 : (⟨S16x128, .f32⟩ : BufTy).Contents (Elt Ideal)) (x13 : (⟨S128, .f32⟩ : BufTy).Contents (Elt Ideal))

/-- The reference's result in its own arrangement. -/
theorem result_ZR :
    ReadP.val_main_v168 (F := Ideal) x0 x1 x2 x3 x4 x5 x6 x7 x8 x9 x10 x11 x12 x13
      = out (ZR (ReadP.val_main_v14 (F := Ideal) x1) (ReadP.val_main_v35 (F := Ideal) x1) (ReadP.val_main_v27 (F := Ideal) x1)
          (ReadP.val_main_v41 (F := Ideal) x1)) x0 x2 x3 x4 x5 x6 x7 x8 x9 x10 x11 x12 x13 := by
  rw [Ref2.layer2 x0 x1 x2 x3 x4 x5 x6 x7 x8 x9 x10 x11 x12 x13, Ref1.layer1 x0 x1 x2 x3 x4 x5]
  rfl

/-- The reference's result in the kernel's arrangement. -/
theorem result_ZK :
    ReadP.val_main_v168 (F := Ideal) x0 x1 x2 x3 x4 x5 x6 x7 x8 x9 x10 x11 x12 x13
      = out (ZK (ReadP.val_main_v14 (F := Ideal) x1) (ReadP.val_main_v35 (F := Ideal) x1) (ReadP.val_main_v41 (F := Ideal) x1))
          x0 x2 x3 x4 x5 x6 x7 x8 x9 x10 x11 x12 x13 :=
  (result_ZR x0 x1 x2 x3 x4 x5 x6 x7 x8 x9 x10 x11 x12 x13).trans
    (out_ZK_eq_out_ZR (ReadP.val_main_v14 (F := Ideal) x1) (ReadP.val_main_v35 (F := Ideal) x1) (ReadP.val_main_v27 (F := Ideal) x1)
      (ReadP.val_main_v41 (F := Ideal) x1) (RefFacts.dinv_nonneg_real x1) (RefFacts.wrapped_target x1)
      x0 x2 x3 x4 x5 x6 x7 x8 x9 x10 x11 x12 x13).symm

end Cert.Gcn.RefValue

end
-- ==== Proof.lean ====
/-
  Two graph-convolution layers with symmetric normalisation and doubled self-loops, each followed by a layer
  normalisation over the 128 features, then a squeeze-and-excite gate and the residual, on 50000 nodes and 1600000
  edges: a kernel of four row-blocked regions among host gathers and scatter-adds, against the plain array program.

  Both programs compute the degree factor `d` and the index columns from the edge array by the same operations. They
  differ in one layer's aggregation: the kernel scales each source row by `d (src)` before it is gathered, accumulates
  at the targets, and scales the sum by `d (dst)`; the reference scales each gathered row by `d (src) · d (dst)` and then
  accumulates. `d r` is a nonnegative real at every node (the reciprocal square root of a positive value, or zero), and
  a nonnegative real factor distributes over any sum of extended reals; an edge that lands on row `r` has wrapped
  target row `r`. So the two aggregations are one function, and everything after them — bias, normalisation, the
  rectifier, the second layer, the gate (the kernel's logistic is the reference's `1 / (1 + exp (−e))`), the residual — is
  the same expression on both sides. No finiteness of the inputs is used.

  The kernel's frames are the generated ones; its result is read off the fold of buffer contents through its nine
  segments. The reference's run is read in six stretches of its 217 host operations.
-/
import proofs.«136372_j15109694947953_2_alg».proof.Defs
import proofs.«136372_j15109694947953_2_alg».proof.Proof.Gen.Kernel
import proofs.«136372_j15109694947953_2_alg».proof.Proof.Gen.Kernel.Skeleton
import proofs.«136372_j15109694947953_2_alg».proof.Proof.Gen.Kernel.Launch
import proofs.«136372_j15109694947953_2_alg».proof.Proof.Gen.Kernel.Points
import proofs.«136372_j15109694947953_2_alg».proof.Proof.Gen.Kernel.Frame
import proofs.«136372_j15109694947953_2_alg».proof.Proof.Gen.KernelIdeal
import proofs.«136372_j15109694947953_2_alg».proof.Proof.Gen.KernelIdeal.Skeleton
import proofs.«136372_j15109694947953_2_alg».proof.Proof.Gen.KernelIdeal.Launch
import proofs.«136372_j15109694947953_2_alg».proof.Proof.Gen.KernelIdeal.Points
import proofs.«136372_j15109694947953_2_alg».proof.Proof.Gen.KernelIdeal.Frame
import proofs.«136372_j15109694947953_2_alg».proof.Proof.Gen.ReferenceIdeal
import proofs.«136372_j15109694947953_2_alg».proof.Proof.Gen.Pre_finite_inputs
import proofs.«136372_j15109694947953_2_alg».proof.Proof.KernelRun
import proofs.«136372_j15109694947953_2_alg».proof.Proof.KernelValue
import proofs.«136372_j15109694947953_2_alg».proof.Proof.RefRun
import proofs.«136372_j15109694947953_2_alg».proof.Proof.RefValue
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- The idealized kernel runs and leaves its arguments as launched. -/
theorem frame_ki : Cert.frame_KernelIdeal := fun m ρ _ => Cert.KernelIdeal.Gen.frame m ρ

/-- The idealized reference runs and leaves its arguments as launched: its run with the result dropped. -/
theorem frame_ri : Cert.frame_ReferenceIdeal := fun m ρ _ =>
  (θ_run Cert.ReferenceIdeal.defs _ _).mono (fun _ h c => (h c).2) (Cert.Gcn.RefRun.run (F := Ideal) m ρ)

/-- The idealization rewrote no operation. -/
theorem preserves : Cert.preserves_Kernel_KernelIdeal := trivial

/-- From memories that agree on the arguments both idealized programs end with the result buffer at
    `out (ZK d src dst)` of the argument arrays. -/
theorem algebraic : Cert.algebraic_KernelIdeal_ReferenceIdeal := by
  intro m ρ m' ρ' _ hagree
  refine ⟨fun c => (Cert.Gcn.out (Cert.Gcn.ZK (Cert.Gcn.KValue.dOf m c) (Cert.Gcn.KValue.srcOf m c) (Cert.Gcn.KValue.dstOf m c))
      (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) : Cert.Gcn.SN.Idx → EReal), ?_, ?_⟩
  · exact (θ_run Cert.KernelIdeal.defs _ _).mono (fun r h c => ⟨(h c).1.trans (Cert.Gcn.KValue.result_eq m ρ c), (h c).2⟩)
      (Cert.Gcn.KRun.run_result (F := Ideal) m ρ)
  · refine (θ_run Cert.ReferenceIdeal.defs _ _).mono (fun _ h c => ⟨(h c).1.trans ?_, (h c).2⟩) (Cert.Gcn.RefRun.run (F := Ideal) m' ρ')
    obtain ⟨e0, e1, e2, e3, e4, e5, e6, e7, e8, e9, e10, e11, e12, e13⟩ := hagree c
    rw [e0, e1, e2, e3, e4, e5, e6, e7, e8, e9, e10, e11, e12, e13]
    exact Cert.Gcn.RefValue.result_ZK _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
